-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![32, 32, 32]⟩ ⟨3, ![64, 64, 64]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![32, 32, 32]⟩ ⟨3, ![64, 64, 64]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32x32x32 : Shape := ⟨3, ![32, 32, 32]⟩
abbrev S_ : Shape := ⟨0, ![]⟩

class Facts : Prop where
  bcast_S_S32x32x32 : S_.BroadcastsInDim S32x32x32 (![] : Fin 0 → Fin S32x32x32.rank)
  reducesTo_S32x32x32_S_d0_1_2 : S32x32x32.ReducesTo [0, 1, 2] S_
  h_S_ : 0 < S_.numel

variable [Facts]

def fn {F : FTy → Type} [FloatOps F] (main_arg0 : FVec F S32x32x32 .f32) : IVec S_ 1 :=
  let main_v0 : FVec F S32x32x32 .f32 := Host.absf main_arg0
  let main_cst : FVec F S_ .f32 := constant S_ .f32 0x7F800000#32
  let main_v1 : FVec F S32x32x32 .f32 := broadcastInDim S32x32x32 ![] bcast_S_S32x32x32 main_cst
  let main_v2 : IVec S32x32x32 1 := cmpf .olt main_v0 main_v1
  let main_c : IVec S_ 1 := constantI S_ 1 1#1
  let main_v3 : IVec S_ 1 := (fun x v => Host.reduce IntOp.andi x v reducesTo_S32x32x32_S_d0_1_2 h_S_) main_v2 main_c
  main_v3
-- ==== Pre_finite_inputs_ReferenceIdeal.lean ====
abbrev S64x64x64 : Shape := ⟨3, ![64, 64, 64]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel

variable [Facts]

def fn {F : FTy → Type} [FloatOps F] (main_arg0 : FVec F S64x64x64 .f32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  main_v3
-- ==== Kernel.lean ====
abbrev S32x32x32 : Shape := ⟨3, ![32, 32, 32]⟩
abbrev S32x32 : Shape := ⟨2, ![32, 32]⟩
abbrev S3 : Shape := ⟨1, ![3]⟩
abbrev S_ : Shape := ⟨0, ![]⟩
abbrev S1x32x32 : Shape := ⟨3, ![1, 32, 32]⟩
abbrev S32x1x32 : Shape := ⟨3, ![32, 1, 32]⟩
abbrev S32x32x1 : Shape := ⟨3, ![32, 32, 1]⟩
abbrev S1 : Shape := ⟨1, ![1]⟩
abbrev S31x32x32 : Shape := ⟨3, ![31, 32, 32]⟩
abbrev S32x31x32 : Shape := ⟨3, ![32, 31, 32]⟩
abbrev S32x32x31 : Shape := ⟨3, ![32, 32, 31]⟩
abbrev S32x1x1 : Shape := ⟨3, ![32, 1, 1]⟩
abbrev S1x32x1 : Shape := ⟨3, ![1, 32, 1]⟩
abbrev S1x1x32 : Shape := ⟨3, ![1, 1, 32]⟩

abbrev nBuf : Space → Nat
  | .hbm => 2
  | .vmem => 8
  | .smem => 0
  | _ => 0

abbrev bufTy : (tb : Table) → Fin (tcTables nBuf tb) → BufTy
  | .hbm, ⟨0, _⟩ => ⟨S32x32x32, .f32⟩
  | .hbm, ⟨1, _⟩ => ⟨S32x32x32, .f32⟩
  | .local _ .vmem, ⟨0, _⟩ => ⟨S32x32x32, .f32⟩
  | .local _ .vmem, ⟨1, _⟩ => ⟨S32x32x32, .f32⟩
  | .local _ .vmem, ⟨2, _⟩ => ⟨S32x32, .f32⟩
  | .local _ .vmem, ⟨3, _⟩ => ⟨S32x32, .f32⟩
  | .local _ .vmem, ⟨4, _⟩ => ⟨S32x32, .f32⟩
  | .local _ .vmem, ⟨5, _⟩ => ⟨S32x32, .f32⟩
  | .local _ .vmem, ⟨6, _⟩ => ⟨S32x32, .f32⟩
  | .local _ .vmem, ⟨7, _⟩ => ⟨S32x32, .f32⟩
  | _, _ => ⟨S32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  { ofTc nBuf bufTy 1 8 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_12 : BitVec 32 := 4#32
  let v19 : BitVec 32 := Scalar.muli v16 c4_i32_12
  let v20 : BitVec 32 := Scalar.addi c0_i32 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_18 : BitVec 32 := 2#32
  let v27 : BitVec 32 := Scalar.muli v17 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v31 : BitVec 32 := Scalar.muli v2 c4_i32_21
  let v32 : BitVec 32 := Scalar.addi c0_i32_22 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v33 : BitVec 32 := Scalar.muli v5 c2_i32_23
  let v34 : BitVec 32 := Scalar.addi v32 v33
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_24 : BitVec 32 := 1#32
  let v35 : BitVec 32 := Scalar.muli v18 c1_i32_24
  let v36 : BitVec 32 := Scalar.addi v34 v35
  v36.toNat
def k0_dev4 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v67 : BitVec 32 := Scalar.muli v2 c4_i32_55
  let v68 : BitVec 32 := Scalar.addi c0_i32_56 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v69 : BitVec 32 := Scalar.muli v5 c2_i32_57
  let v70 : BitVec 32 := Scalar.addi v68 v69
  let c1_i32_50 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_50 v8
  let c1_i32_58 : BitVec 32 := 1#32
  let v71 : BitVec 32 := Scalar.muli v64 c1_i32_58
  let v72 : BitVec 32 := Scalar.addi v70 v71
  v72.toNat
def k0_dev5 (d0 : Dev nD) : Nat :=
  let c0_i32_62 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.subi c1_i32_51 v2
  let c4_i32_61 : BitVec 32 := 4#32
  let v77 : BitVec 32 := Scalar.muli v65 c4_i32_61
  let v78 : BitVec 32 := Scalar.addi c0_i32_62 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v79 : BitVec 32 := Scalar.muli v5 c2_i32_63
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v81 : BitVec 32 := Scalar.muli v8 c1_i32_64
  let v82 : BitVec 32 := Scalar.addi v80 v81
  v82.toNat
def k0_dev6 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v87 : BitVec 32 := Scalar.muli v2 c4_i32_67
  let v88 : BitVec 32 := Scalar.addi c0_i32_68 v87
  let c1_i32_52 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_52 v5
  let c2_i32_69 : BitVec 32 := 2#32
  let v89 : BitVec 32 := Scalar.muli v66 c2_i32_69
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v91 : BitVec 32 := Scalar.muli v8 c1_i32_70
  let v92 : BitVec 32 := Scalar.addi v90 v91
  v92.toNat
abbrev stage0_0 : Fin 1 → Memref sig .tc .vmem S32x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S32x32x32_S1x32x32_31_0_0 : ∀ a, (![31, 0, 0] : Fin 3 → Nat) a + S1x32x32.size a ≤ S32x32x32.size a
  h_S1x32x32 : 0 < S1x32x32.numel
  shapeCasts_S1x32x32_S32x32 : S1x32x32.ShapeCasts S32x32
  inb_S32x32x32_S1x32x32_0_0_0 : ∀ a, (![0, 0, 0] : Fin 3 → Nat) a + S1x32x32.size a ≤ S32x32x32.size a
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x32x32_S32x1x32_0_31_0 : ∀ a, (![0, 31, 0] : Fin 3 → Nat) a + S32x1x32.size a ≤ S32x32x32.size a
  h_S32x1x32 : 0 < S32x1x32.numel
  shapeCasts_S32x1x32_S32x32 : S32x1x32.ShapeCasts S32x32
  inb_S32x32x32_S32x1x32_0_0_0 : ∀ a, (![0, 0, 0] : Fin 3 → Nat) a + S32x1x32.size a ≤ S32x32x32.size a
  inb_S32x32x32_S32x32x1_0_0_31 : ∀ a, (![0, 0, 31] : Fin 3 → Nat) a + S32x32x1.size a ≤ S32x32x32.size a
  h_S32x32x1 : 0 < S32x32x1.numel
  shapeCasts_S32x32x1_S32x32 : S32x32x1.ShapeCasts S32x32
  inb_S32x32x32_S32x32x1_0_0_0 : ∀ a, (![0, 0, 0] : Fin 3 → Nat) a + S32x32x1.size a ≤ S32x32x32.size a
  hamt_3 : (3#32 : BitVec 32).msb = false
  inb_S3_S1_2 : ∀ a, (![2] : Fin 1 → Nat) a + S1.size a ≤ S3.size a
  squeezes_S1_S_ : S1.Squeezes S_
  inb_S3_S1_0 : ∀ a, (![0] : Fin 1 → Nat) a + S1.size a ≤ S3.size a
  inb_S3_S1_1 : ∀ a, (![1] : Fin 1 → Nat) a + S1.size a ≤ S3.size a
  inb_S32x32x32_S32x32x32_0_0_0 : ∀ a, (![0, 0, 0] : Fin 3 → Nat) a + S32x32x32.size a ≤ S32x32x32.size a
  h_S32x32x32 : 0 < S32x32x32.numel
  shapeCasts_S32x32x32_S32x32x32 : S32x32x32.ShapeCasts S32x32x32
  slices_S32x32x32_o0_0_0_S31x32x32 : S32x32x32.Slices ![0, 0, 0] S31x32x32
  concatenates_S1x32x32_S31x32x32_S32x32x32_d0 : Shape.Concatenates [S1x32x32, S31x32x32] S32x32x32 0
  slices_S32x32x32_o1_0_0_S31x32x32 : S32x32x32.Slices ![1, 0, 0] S31x32x32
  concatenates_S31x32x32_S1x32x32_S32x32x32_d0 : Shape.Concatenates [S31x32x32, S1x32x32] S32x32x32 0
  slices_S32x32x32_o0_0_0_S32x31x32 : S32x32x32.Slices ![0, 0, 0] S32x31x32
  concatenates_S32x1x32_S32x31x32_S32x32x32_d1 : Shape.Concatenates [S32x1x32, S32x31x32] S32x32x32 1
  slices_S32x32x32_o0_1_0_S32x31x32 : S32x32x32.Slices ![0, 1, 0] S32x31x32
  concatenates_S32x31x32_S32x1x32_S32x32x32_d1 : Shape.Concatenates [S32x31x32, S32x1x32] S32x32x32 1
  slices_S32x32x32_o0_0_0_S32x32x31 : S32x32x32.Slices ![0, 0, 0] S32x32x31
  concatenates_S32x32x1_S32x32x31_S32x32x32_d2 : Shape.Concatenates [S32x32x1, S32x32x31] S32x32x32 2
  slices_S32x32x32_o0_0_1_S32x32x31 : S32x32x32.Slices ![0, 0, 1] S32x32x31
  concatenates_S32x32x31_S32x32x1_S32x32x32_d2 : Shape.Concatenates [S32x32x31, S32x32x1] S32x32x32 2
  iota_S32x1x1_d0_w32 : S32x1x1.Iotas .tc 32 [0]
  iota_S1x32x1_d1_w32 : S1x32x1.Iotas .tc 32 [1]
  iota_S1x1x32_d2_w32 : S1x1x32.Iotas .tc 32 [2]
  shapeCasts_S32x32_S1x32x32 : S32x32.ShapeCasts S1x32x32
  shapeCasts_S32x1x1_S32x1x1 : S32x1x1.ShapeCasts S32x1x1
  broadcasts_S32x1x1_S32x32x32 : S32x1x1.Broadcasts S32x32x32
  shapeCasts_S1x32x32_S1x32x32 : S1x32x32.ShapeCasts S1x32x32
  broadcasts_S1x32x32_S32x32x32 : S1x32x32.Broadcasts S32x32x32
  shapeCasts_S32x32_S32x1x32 : S32x32.ShapeCasts S32x1x32
  shapeCasts_S1x32x1_S1x32x1 : S1x32x1.ShapeCasts S1x32x1
  broadcasts_S1x32x1_S32x32x32 : S1x32x1.Broadcasts S32x32x32
  shapeCasts_S32x1x32_S32x1x32 : S32x1x32.ShapeCasts S32x1x32
  broadcasts_S32x1x32_S32x32x32 : S32x1x32.Broadcasts S32x32x32
  shapeCasts_S32x32_S32x32x1 : S32x32.ShapeCasts S32x32x1
  shapeCasts_S1x1x32_S1x1x32 : S1x1x32.ShapeCasts S1x1x32
  broadcasts_S1x1x32_S32x32x32 : S1x1x32.Broadcasts S32x32x32
  shapeCasts_S32x32x1_S32x32x1 : S32x32x1.ShapeCasts S32x32x1
  broadcasts_S32x32x1_S32x32x32 : S32x32x1.Broadcasts S32x32x32
  broadcasts_S32x1x1_S32x32x1 : S32x1x1.Broadcasts S32x32x1
  broadcasts_S1x32x1_S32x32x1 : S1x32x1.Broadcasts S32x32x1
  hcc0_scratch6 : 2 + S3.numel ≤ 8
  hcc0_scratch7 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch6 : DmaSems sig S3 := SemArray.consecutive 2 S3 hcc0_scratch6
abbrev cc0_scratch7 : DmaSems sig S3 := SemArray.consecutive 5 S3 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x64 : Shape := ⟨3, ![64, 64, 64]⟩
abbrev S_ : Shape := ⟨0, ![]⟩
abbrev S62x62x62 : Shape := ⟨3, ![62, 62, 62]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S64x64x64, .f32⟩
  | .hbm, ⟨1, _⟩ => ⟨S_, .f32⟩
  | .hbm, ⟨2, _⟩ => ⟨S64x64x64, .f32⟩
  | .hbm, ⟨3, _⟩ => ⟨S62x62x62, .f32⟩
  | .hbm, ⟨4, _⟩ => ⟨S62x62x62, .f32⟩
  | .hbm, ⟨5, _⟩ => ⟨S62x62x62, .f32⟩
  | .hbm, ⟨6, _⟩ => ⟨S62x62x62, .f32⟩
  | .hbm, ⟨7, _⟩ => ⟨S62x62x62, .f32⟩
  | .hbm, ⟨8, _⟩ => ⟨S62x62x62, .f32⟩
  | .hbm, ⟨9, _⟩ => ⟨S62x62x62, .f32⟩
  | .hbm, ⟨10, _⟩ => ⟨S62x62x62, .f32⟩
  | .hbm, ⟨11, _⟩ => ⟨S62x62x62, .f32⟩
  | .hbm, ⟨12, _⟩ => ⟨S62x62x62, .f32⟩
  | .hbm, ⟨13, _⟩ => ⟨S62x62x62, .f32⟩
  | .hbm, ⟨14, _⟩ => ⟨S62x62x62, .f32⟩
  | .hbm, ⟨15, _⟩ => ⟨S_, .f32⟩
  | .hbm, ⟨16, _⟩ => ⟨S62x62x62, .f32⟩
  | .hbm, ⟨17, _⟩ => ⟨S62x62x62, .f32⟩
  | .hbm, ⟨18, _⟩ => ⟨S62x62x62, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S64x64x64, .f32⟩
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S64x64x64 : S_.BroadcastsInDim S64x64x64 (![] : Fin 0 → Fin S64x64x64.rank)
  slices_S64x64x64_S62x62x62_0_1_1 : S64x64x64.Slices ![0, 1, 1] S62x62x62
  slices_S64x64x64_S62x62x62_2_1_1 : S64x64x64.Slices ![2, 1, 1] S62x62x62
  slices_S64x64x64_S62x62x62_1_0_1 : S64x64x64.Slices ![1, 0, 1] S62x62x62
  slices_S64x64x64_S62x62x62_1_2_1 : S64x64x64.Slices ![1, 2, 1] S62x62x62
  slices_S64x64x64_S62x62x62_1_1_0 : S64x64x64.Slices ![1, 1, 0] S62x62x62
  slices_S64x64x64_S62x62x62_1_1_2 : S64x64x64.Slices ![1, 1, 2] S62x62x62
  slices_S64x64x64_S62x62x62_1_1_1 : S64x64x64.Slices ![1, 1, 1] S62x62x62
  bcast_S_S62x62x62 : S_.BroadcastsInDim S62x62x62 (![] : Fin 0 → Fin S62x62x62.rank)
  bcast_S_S1 : S_.BroadcastsInDim S1 (![] : Fin 0 → Fin S1.rank)
  concatenates_S1_S1_S1_S3_d0 : Shape.Concatenates [S1, S1, S1] S3 0
  scatter_S64x64x64_S3_S62x62x62_012_n_012_0_wf : ScatterDims.WF S64x64x64 S3 S62x62x62 [0, 1, 2] [] [0, 1, 2] 0

variable [Facts₀]

def scatter_S64x64x64_S3_S62x62x62_012_n_012_0 : ScatterDims S64x64x64 S3 S62x62x62 where
  updateWindowDims := [0, 1, 2]
  insertedWindowDims := []
  scatterDimsToOperandDims := [0, 1, 2]
  indexVectorDim := 0
  wf := scatter_S64x64x64_S3_S62x62x62_012_n_012_0_wf

class Facts : Prop extends Facts₀ where

variable [Facts]
-- ==== Proof.KernelMesh.lean ====
/-
  The halo exchange on the 2×2×2 mesh: the protocol.

  Each device holds a 32×32×32 block of the 64×64×64 array. Along each of the three axes it has exactly one
  neighbour, the device whose coordinate on that axis is flipped. It sends that neighbour the face of its block
  that touches it and receives the neighbour's touching face. Before any transfer every device signals the entry
  semaphore of its three neighbours and waits for three signals on its own: a signal from the neighbour along an
  axis hands over that neighbour's landing buffer for that axis, so the transfer into it starts only once the
  neighbour is inside the kernel.

  Per device there are seven cells: the entry cell (three duties, one per axis, one unit each), and per axis a
  send cell and a receive cell (one duty each, the face's transfer credit). This module states the flips, the
  cells, the contents of the buffers, the schedule with its tables, what a device owes at launch and the levels
  that order the waits.
-/
import proofs.«900362_g7700000000000363_dist_halo3d_v7x_xyz2x2x2_s32_bf16_1_alg».proof.Proof.Gen.Kernel
import proofs.«900362_g7700000000000363_dist_halo3d_v7x_xyz2x2x2_s32_bf16_1_alg».proof.Proof.Gen.Kernel.Skeleton
import proofs.«900362_g7700000000000363_dist_halo3d_v7x_xyz2x2x2_s32_bf16_1_alg».proof.Proof.Gen.Kernel.Launch
import proofs.«900362_g7700000000000363_dist_halo3d_v7x_xyz2x2x2_s32_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by an axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def mem0 : MemSt nD τ sig (Elt F) := ⟨m, fun _ => 0, ρ⟩

/-! ## The mesh: the neighbour along an axis is the device with that coordinate flipped -/

theorem flip_lt : ∀ (a : Fin 3) (c : Dev nD), c.val ^^^ (4 >>> a.val) < nD := by decide

/-- Device `c` is at (c / 4, c / 2 % 2, c % 2); flipping coordinate `a` flips bit `2 - a` of `c`. -/
def fl (a : Fin 3) (c : Dev nD) : Dev nD := ⟨c.val ^^^ (4 >>> a.val), flip_lt a c⟩

theorem fl_fl (a : Fin 3) (c : Dev nD) : fl a (fl a c) = c := by revert a c; decide
theorem fl_ne (a : Fin 3) (c : Dev nD) : fl a c ≠ c := by revert a c; decide

def flipE (a : Fin 3) : Dev nD ≃ Dev nD := ⟨fl a, fl a, fl_fl a, fl_fl a⟩

/-- The kernel's device chains: the three signals go to the x, y, z neighbours; the three transfers to the z, x, y ones. -/
theorem dev1_eq (c : Dev nD) : (⟨k0_dev1 c, k0_dev1_lt c⟩ : Dev nD) = fl 0 c := Fin.ext ((k0_dev1_eq c).trans (by revert c; decide))
theorem dev2_eq (c : Dev nD) : (⟨k0_dev2 c, k0_dev2_lt c⟩ : Dev nD) = fl 1 c := Fin.ext ((k0_dev2_eq c).trans (by revert c; decide))
theorem dev3_eq (c : Dev nD) : (⟨k0_dev3 c, k0_dev3_lt c⟩ : Dev nD) = fl 2 c := Fin.ext ((k0_dev3_eq c).trans (by revert c; decide))
theorem dev4_eq (c : Dev nD) : (⟨k0_dev4 c, k0_dev4_lt c⟩ : Dev nD) = fl 2 c := Fin.ext ((k0_dev4_eq c).trans (by revert c; decide))
theorem dev5_eq (c : Dev nD) : (⟨k0_dev5 c, k0_dev5_lt c⟩ : Dev nD) = fl 0 c := Fin.ext ((k0_dev5_eq c).trans (by revert c; decide))
theorem dev6_eq (c : Dev nD) : (⟨k0_dev6 c, k0_dev6_lt c⟩ : Dev nD) = fl 1 c := Fin.ext ((k0_dev6_eq c).trans (by revert c; decide))

/-- A device's coordinate on each axis, as the word the kernel computes it. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

/-! ## The memrefs and the cells -/

abbrev xM : Memref sig .tc .vmem S32x32x32 .f32 := Memref.whole cc0_stg0_0
abbrev oM : Memref sig .tc .vmem S32x32x32 .f32 := Memref.whole cc0_stg1_0
abbrev sxM : Memref sig .tc .vmem S32x32 .f32 := Memref.whole cc0_scratch0
abbrev syM : Memref sig .tc .vmem S32x32 .f32 := Memref.whole cc0_scratch1
abbrev szM : Memref sig .tc .vmem S32x32 .f32 := Memref.whole cc0_scratch2
abbrev rxM : Memref sig .tc .vmem S32x32 .f32 := Memref.whole cc0_scratch3
abbrev ryM : Memref sig .tc .vmem S32x32 .f32 := Memref.whole cc0_scratch4
abbrev rzM : Memref sig .tc .vmem S32x32 .f32 := Memref.whole cc0_scratch5

/-- The runtime's entry semaphore (unscoped); the three send and three receive DMA semaphores (scoped scratch). -/
abbrev barS : Sem sig := (SemArray.scalar (sig.barrier 0 rfl) : Sems sig S_).sem
abbrev sqX : DmaSems sig S_ := (cc0_scratch6.slice (Rect.unit (s := S3) ![0] S1.size inb_S3_S1_0)).squeeze S_ squeezes_S1_S_
abbrev sqY : DmaSems sig S_ := (cc0_scratch6.slice (Rect.unit (s := S3) ![1] S1.size inb_S3_S1_1)).squeeze S_ squeezes_S1_S_
abbrev sqZ : DmaSems sig S_ := (cc0_scratch6.slice (Rect.unit (s := S3) ![2] S1.size inb_S3_S1_2)).squeeze S_ squeezes_S1_S_
abbrev rqX : DmaSems sig S_ := (cc0_scratch7.slice (Rect.unit (s := S3) ![0] S1.size inb_S3_S1_0)).squeeze S_ squeezes_S1_S_
abbrev rqY : DmaSems sig S_ := (cc0_scratch7.slice (Rect.unit (s := S3) ![1] S1.size inb_S3_S1_1)).squeeze S_ squeezes_S1_S_
abbrev rqZ : DmaSems sig S_ := (cc0_scratch7.slice (Rect.unit (s := S3) ![2] S1.size inb_S3_S1_2)).squeeze S_ squeezes_S1_S_

/-- The send and the receive semaphore of an axis. -/
def sndS (a : Fin 3) : SemLoc sig := if a = 0 then .dma sqX.sem else if a = 1 then .dma sqY.sem else .dma sqZ.sem
def rcvS (a : Fin 3) : SemLoc sig := if a = 0 then .dma rqX.sem else if a = 1 then .dma rqY.sem else .dma rqZ.sem

abbrev barCell (c : Dev nD) : GSem nD τ sig := ((c : Thread nD τ), .reg barS)
abbrev sndCell (a : Fin 3) (c : Dev nD) : GSem nD τ sig := ((c : Thread nD τ), sndS a)
abbrev rcvCell (a : Fin 3) (c : Dev nD) : GSem nD τ sig := ((c : Thread nD τ), rcvS a)

/-- A cell's kind as a number: the entry semaphore 100, a DMA semaphore its index (send 2–4, receive 5–7). -/
def tag : SemLoc sig → ℕ
  | .reg _ => 100
  | .dma q => q.val

theorem tag_snd (a : Fin 3) : tag (sndS a) = 2 + a.val := by revert a; decide
theorem tag_rcv (a : Fin 3) : tag (rcvS a) = 5 + a.val := by revert a; decide
theorem tag_bar : tag (SemLoc.reg barS : SemLoc sig) = 100 := rfl

/-- The transfer credit of a face. -/
abbrev N : ℕ := (rxM : Memref sig .tc .vmem S32x32 .f32).view.dmaCredit
theorem N_pos : 0 < N := View.dmaCredit_pos _ (by decide)

end Cert.Kernel.Halo

end
-- ==== Proof.KernelSched.lean ====
/-
  The halo exchange: what the buffers hold, the schedule of the seven cells, what a device owes at launch and the
  levels that order the waits.

  The face a device sends along an axis is the plane of its block at index 31 when its coordinate on that axis
  is 0 and the plane at index 0 when it is 1: the plane that touches the neighbour. What lands in a device's
  receive buffer of an axis is the face its neighbour along that axis sent.
-/
import proofs.«900362_g7700000000000363_dist_halo3d_v7x_xyz2x2x2_s32_bf16_1_alg».proof.Proof.Gen.Kernel
import proofs.«900362_g7700000000000363_dist_halo3d_v7x_xyz2x2x2_s32_bf16_1_alg».proof.Proof.Gen.Kernel.Skeleton
import proofs.«900362_g7700000000000363_dist_halo3d_v7x_xyz2x2x2_s32_bf16_1_alg».proof.Proof.Gen.Kernel.Launch
import proofs.«900362_g7700000000000363_dist_halo3d_v7x_xyz2x2x2_s32_bf16_1_alg».proof.Proof.Gen.Kernel.Points
import proofs.«900362_g7700000000000363_dist_halo3d_v7x_xyz2x2x2_s32_bf16_1_alg».proof.Proof.KernelMesh
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The contents of a 32×32×32 block buffer and of a 32×32 face buffer. -/
abbrev Blk (F : FTy → Type) : Type := (cc0_stg0_0 : Ref sig .tc).ty.Contents (Elt F)
abbrev Face (F : FTy → Type) : Type := (cc0_scratch0 : Ref sig .tc).ty.Contents (Elt F)

/-- Device `c`'s block of the argument array, as staged. -/
def xstg (c : Dev nD) : Blk F :=
  (win0_0.blk (0 : Fin 1)).view.read (Elt F) (m ((c : Thread nD τ).loc main_arg0))

/-- The face sent along x, y, z: a selection between the last and the first plane by the device's coordinate. -/
def faceX (X : Blk F) (w : BitVec 32) : Face F :=
  k0_pay1 w ((xM : Memref sig .tc .vmem S32x32x32 .f32).view.readAt (Elt F) (Rect.unit (s := S32x32x32) ![31, 0, 0] S1x32x32.size inb_S32x32x32_S1x32x32_31_0_0).toLoadRect X)
    ((xM : Memref sig .tc .vmem S32x32x32 .f32).view.readAt (Elt F) (Rect.unit (s := S32x32x32) ![0, 0, 0] S1x32x32.size inb_S32x32x32_S1x32x32_0_0_0).toLoadRect X)
def faceY (X : Blk F) (w : BitVec 32) : Face F :=
  k0_pay2 w ((xM : Memref sig .tc .vmem S32x32x32 .f32).view.readAt (Elt F) (Rect.unit (s := S32x32x32) ![0, 31, 0] S32x1x32.size inb_S32x32x32_S32x1x32_0_31_0).toLoadRect X)
    ((xM : Memref sig .tc .vmem S32x32x32 .f32).view.readAt (Elt F) (Rect.unit (s := S32x32x32) ![0, 0, 0] S32x1x32.size inb_S32x32x32_S32x1x32_0_0_0).toLoadRect X)
def faceZ (X : Blk F) (w : BitVec 32) : Face F :=
  k0_pay4 (Scalar.cmpi .eq w 0#32)
    (k0_pay3 ((xM : Memref sig .tc .vmem S32x32x32 .f32).view.readAt (Elt F) (Rect.unit (s := S32x32x32) ![0, 0, 31] S32x32x1.size inb_S32x32x32_S32x32x1_0_0_31).toLoadRect X))
    ((xM : Memref sig .tc .vmem S32x32x32 .f32).view.readAt (Elt F) (Rect.unit (s := S32x32x32) ![0, 0, 0] S32x32x1.size inb_S32x32x32_S32x32x1_0_0_0).toLoadRect X)

/-- The face device `c` sends along axis `a`. -/
def face (a : Fin 3) (c : Dev nD) : Face F :=
  if a = 0 then faceX (xstg m c) (wx c) else if a = 1 then faceY (xstg m c) (wy c) else faceZ (xstg m c) (wz c)

/-- The kernel's result on device `c`: the body's last payload of its own block (read whole) and of the three faces its
    neighbours sent (each read whole from its receive buffer). -/
def outAt (c : Dev nD) : Blk F :=
  k0_pay10 (wx c) (wy c) (wz c) (iota .tc S32x1x1 32 [0] iota_S32x1x1_d0_w32) (iota .tc S1x32x1 32 [1] iota_S1x32x1_d1_w32) (iota .tc S1x1x32 32 [2] iota_S1x1x32_d2_w32)
    (k0_pay6 (F := F))
    (k0_pay7 (Scalar.muli (Scalar.subi 1#32 (wx c)) 31#32) (Scalar.muli (Scalar.subi 1#32 (wy c)) 31#32)
      (k0_pay5 ((xM : Memref sig .tc .vmem S32x32x32 .f32).view.readAt (Elt F) (Rect.unit (s := S32x32x32) ![0, 0, 0] S32x32x32.size inb_S32x32x32_S32x32x32_0_0_0).toLoadRect (xstg m c)))
      ((rxM : Memref sig .tc .vmem S32x32 .f32).view.readAt (Elt F) (Rect.unit (s := S32x32) ![0, 0] S32x32.size inb_S32x32_S32x32_0_0).toLoadRect (face m 0 (fl 0 c)))
      ((ryM : Memref sig .tc .vmem S32x32 .f32).view.readAt (Elt F) (Rect.unit (s := S32x32) ![0, 0] S32x32.size inb_S32x32_S32x32_0_0).toLoadRect (face m 1 (fl 1 c))))
    (k0_pay8 (Scalar.muli (Scalar.subi 1#32 (wz c)) 31#32))
    (k0_pay9 ((rzM : Memref sig .tc .vmem S32x32 .f32).view.readAt (Elt F) (Rect.unit (s := S32x32) ![0, 0] S32x32.size inb_S32x32_S32x32_0_0).toLoadRect (face m 2 (fl 2 c))))

/-! ## The buffers as assertions -/

/-- Device `c`'s send buffer, and its receive buffer, of axis `a`, whole at contents `f`. -/
def sPts (a : Fin 3) (c : Dev nD) (f : Face F) : sProp 𝕄 :=
  if a = 0 then ((sxM : Memref sig .tc .vmem S32x32 .f32).view.loc (c : Thread nD τ) ↦[(sxM : Memref sig .tc .vmem S32x32 .f32).view.set]{fullShare} f) else if a = 1 then ((syM : Memref sig .tc .vmem S32x32 .f32).view.loc (c : Thread nD τ) ↦[(syM : Memref sig .tc .vmem S32x32 .f32).view.set]{fullShare} f)
  else ((szM : Memref sig .tc .vmem S32x32 .f32).view.loc (c : Thread nD τ) ↦[(szM : Memref sig .tc .vmem S32x32 .f32).view.set]{fullShare} f)
def rPts (a : Fin 3) (c : Dev nD) (f : Face F) : sProp 𝕄 :=
  if a = 0 then ((rxM : Memref sig .tc .vmem S32x32 .f32).view.loc (c : Thread nD τ) ↦[(rxM : Memref sig .tc .vmem S32x32 .f32).view.set]{fullShare} f) else if a = 1 then ((ryM : Memref sig .tc .vmem S32x32 .f32).view.loc (c : Thread nD τ) ↦[(ryM : Memref sig .tc .vmem S32x32 .f32).view.set]{fullShare} f)
  else ((rzM : Memref sig .tc .vmem S32x32 .f32).view.loc (c : Thread nD τ) ↦[(rzM : Memref sig .tc .vmem S32x32 .f32).view.set]{fullShare} f)

instance sPts_storable (a : Fin 3) (c : Dev nD) (f : Face F) : BI.Storable (upEmb : UEmb _ 𝕄) (sPts (F := F) a c f) := by
  unfold sPts; (repeat' split) <;> infer_instance
instance rPts_storable (a : Fin 3) (c : Dev nD) (f : Face F) : BI.Storable (upEmb : UEmb _ 𝕄) (rPts (F := F) a c f) := by
  unfold rPts; (repeat' split) <;> infer_instance

/-! ## The schedule -/

/-- Duty `a` of a device's entry cell, paid by its neighbour along `a`: that neighbour's receive buffer of the axis. -/
def barPay (a : Fin 3) (c : Dev nD) : sProp 𝕄 := iprop(∃ f : Face F, rPts a (fl a c) f)
/-- A send cell hands the send buffer back; a receive cell hands the receive buffer holding the neighbour's face. -/
def sendPay (a : Fin 3) (c : Dev nD) : sProp 𝕄 := sPts a c (face m a c)
def recvPay (a : Fin 3) (c : Dev nD) : sProp 𝕄 := rPts a c (face m a (fl a c))

/-- One round. An entry cell has the three duties, one unit each; a send or receive cell the duty `0` of the face's credit. -/
def haloRd : Rounds.Schedule (GSem nD τ sig) (Fin 3) 𝕄 where
  duties g r := if r = 0 ∧ g.1.2 = .tc then (if tag g.2 = 100 then Finset.univ else if 2 ≤ tag g.2 ∧ tag g.2 ≤ 7 then {0} else ∅) else ∅
  unitless _ := False
  amount g _ _ := if tag g.2 = 100 then 1 else N
  payload g _ d :=
    if tag g.2 = 100 then barPay d g.1.1
    else if tag g.2 = 2 then sendPay m 0 g.1.1 else if tag g.2 = 3 then sendPay m 1 g.1.1 else if tag g.2 = 4 then sendPay m 2 g.1.1
    else if tag g.2 = 5 then recvPay m 0 g.1.1 else if tag g.2 = 6 then recvPay m 1 g.1.1 else if tag g.2 = 7 then recvPay m 2 g.1.1
    else iprop(emp)
  amount_pos g _ _ _ := by
    by_cases h : tag g.2 = 100
    · rw [if_pos h]; exact Nat.one_pos
    · rw [if_neg h]; exact N_pos

instance haloRd_payload_storable (g : GSem nD τ sig) (r : ℕ) (d : Fin 3) :
    BI.Storable (upEmb : UEmb _ 𝕄) ((haloRd (F := F) m).payload g r d) := by
  show BI.Storable upEmb (if tag g.2 = 100 then barPay d g.1.1
    else if tag g.2 = 2 then sendPay m 0 g.1.1 else if tag g.2 = 3 then sendPay m 1 g.1.1 else if tag g.2 = 4 then sendPay m 2 g.1.1
    else if tag g.2 = 5 then recvPay m 0 g.1.1 else if tag g.2 = 6 then recvPay m 1 g.1.1 else if tag g.2 = 7 then recvPay m 2 g.1.1
    else iprop(emp))
  unfold barPay sendPay recvPay
  (repeat' split) <;> infer_instance

section Sched
variable (c : Dev nD) (a : Fin 3)

theorem duties_bar : (haloRd (F := F) m).duties (barCell c) 0 = Finset.univ := by
  dsimp only [haloRd]; rw [if_pos ⟨rfl, rfl⟩, if_pos tag_bar]
theorem duties_snd : (haloRd (F := F) m).duties (sndCell a c) 0 = {0} := by
  dsimp only [haloRd]; rw [if_pos ⟨rfl, rfl⟩, tag_snd, if_neg (by omega), if_pos (by omega)]
theorem duties_rcv : (haloRd (F := F) m).duties (rcvCell a c) 0 = {0} := by
  dsimp only [haloRd]; rw [if_pos ⟨rfl, rfl⟩, tag_rcv, if_neg (by omega), if_pos (by omega)]
theorem duties_later (g : GSem nD τ sig) : ∀ r, 1 ≤ r → (haloRd (F := F) m).duties g r = ∅ :=
  fun r hr => by dsimp only [haloRd]; rw [if_neg fun h => by omega]

theorem amount_bar (d : Fin 3) : (haloRd (F := F) m).amount (barCell c) 0 d = 1 := by dsimp only [haloRd]; exact if_pos rfl
theorem amount_snd (d : Fin 3) : (haloRd (F := F) m).amount (sndCell a c) 0 d = N := by
  dsimp only [haloRd]; rw [tag_snd, if_neg (by omega)]
theorem amount_rcv (d : Fin 3) : (haloRd (F := F) m).amount (rcvCell a c) 0 d = N := by
  dsimp only [haloRd]; rw [tag_rcv, if_neg (by omega)]

theorem expect_bar : (haloRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (haloRd (F := F) m).expect (sndCell a c) 0 = N := by
  unfold Schedule.expect Schedule.amountOf; rw [duties_snd, Finset.sum_singleton, amount_snd]
theorem expect_rcv : (haloRd (F := F) m).expect (rcvCell a c) 0 = N := by
  unfold Schedule.expect Schedule.amountOf; rw [duties_rcv, Finset.sum_singleton, amount_rcv]

theorem payload_bar (d : Fin 3) : (haloRd (F := F) m).payload (barCell c) 0 d = barPay d c := by dsimp only [haloRd]; rw [if_pos tag_bar]
theorem payload_snd (d : Fin 3) : (haloRd (F := F) m).payload (sndCell a c) 0 d = sendPay m a c := by
  fin_cases a <;> (dsimp only [haloRd]; rw [tag_snd]; rfl)
theorem payload_rcv (d : Fin 3) : (haloRd (F := F) m).payload (rcvCell a c) 0 d = recvPay m a c := by
  fin_cases a <;> (dsimp only [haloRd]; rw [tag_rcv]; rfl)

end Sched

end Cert.Kernel.Halo

end
-- ==== Proof.KernelData.lean ====
/-
  The halo exchange: what a device owes at launch, the levels that order the waits, the ghost state a device's
  body starts from, and the pipeline's proof data.

  A device owes each neighbour's entry cell one unit and each neighbour's receive cell (of the axis joining them)
  one face's credit. Entry cells sit at level 1, receive cells at level 2, everything else (the pipeline's own
  staging cells, the send cells) at level 0: the staging waits happen while everything is still owed, the entry
  wait while only the receive credits are owed, and every later wait once nothing is owed.
-/
import proofs.«900362_g7700000000000363_dist_halo3d_v7x_xyz2x2x2_s32_bf16_1_alg».proof.Proof.Gen.Kernel
import proofs.«900362_g7700000000000363_dist_halo3d_v7x_xyz2x2x2_s32_bf16_1_alg».proof.Proof.Gen.Kernel.Skeleton
import proofs.«900362_g7700000000000363_dist_halo3d_v7x_xyz2x2x2_s32_bf16_1_alg».proof.Proof.Gen.Kernel.Launch
import proofs.«900362_g7700000000000363_dist_halo3d_v7x_xyz2x2x2_s32_bf16_1_alg».proof.Proof.Gen.Kernel.Points
import proofs.«900362_g7700000000000363_dist_halo3d_v7x_xyz2x2x2_s32_bf16_1_alg».proof.Proof.KernelSched
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The three receive credits, in the order the transfers are started last to first (y, x, z). -/
def OR (c : Dev nD) : CellTallies nD τ sig Unit :=
  tallyAt (rcvCell 1 (fl 1 c)) () N + tallyAt (rcvCell 0 (fl 0 c)) () N + tallyAt (rcvCell 2 (fl 2 c)) () N
/-- With the three entry units, in the order the signals are sent last to first (z, y, x). -/
def O₀ (c : Dev nD) : CellTallies nD τ sig Unit :=
  OR c + tallyAt (barCell (fl 2 c)) () 1 + tallyAt (barCell (fl 1 c)) () 1 + tallyAt (barCell (fl 0 c)) () 1

def L (g : GSem nD τ sig) : Finset Unit := if g.1.2 = .tc then {()} else ∅
def lv (g : GSem nD τ sig) (_ : Unit) : ℕ := if tag g.2 = 100 then 1 else if 5 ≤ tag g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) (u : Unit) : lv (barCell d) u = 1 := by dsimp only [lv]; rw [if_pos tag_bar]
theorem lv_rcv (a : Fin 3) (d : Dev nD) (u : Unit) : lv (rcvCell a d) u = 2 := by
  dsimp only [lv]; rw [tag_rcv, if_neg (by omega), if_pos (by omega)]

theorem tallyAt_pos {g' g : GSem nD τ sig} {u : Unit} {k : ℕ} (h : 0 < tallyAt g' () k g u) : g = g' := by
  rw [tallyAt_apply] at h
  by_contra hn
  rw [if_neg (fun h' => hn h'.1)] at h
  exact Nat.lt_irrefl 0 h

theorem OR_pos {c : Dev nD} {g : GSem nD τ sig} {u : Unit} (h : 0 < OR c g u) : ∃ a d, g = rcvCell a d := by
  unfold OR at h
  rcases Pipeline.add_pos_cases h with h | h
  · rcases Pipeline.add_pos_cases h with h | h
    · exact ⟨1, _, tallyAt_pos h⟩
    · exact ⟨0, _, tallyAt_pos h⟩
  · exact ⟨2, _, tallyAt_pos h⟩

theorem O₀_pos {c : Dev nD} {g : GSem nD τ sig} {u : Unit} (h : 0 < O₀ c g u) : (∃ a d, g = rcvCell a d) ∨ (∃ d, g = barCell d) := by
  unfold O₀ at h
  rcases Pipeline.add_pos_cases h with h | h
  · rcases Pipeline.add_pos_cases h with h | h
    · rcases Pipeline.add_pos_cases h with h | h
      · exact Or.inl (OR_pos h)
      · exact Or.inr ⟨_, tallyAt_pos h⟩
    · exact Or.inr ⟨_, tallyAt_pos h⟩
  · exact Or.inr ⟨_, tallyAt_pos h⟩

/-- A wait on a cell of level 0 (a staging cell, a send cell) while owing only entry units and receive credits. -/
theorem mayWait_low (c : Dev nD) (s : SemLoc sig) (hs : tag s < 5) (O : CellTallies nD τ sig Unit)
    (hO : ∀ g u, 0 < O g u → (∃ a d, g = rcvCell a d) ∨ (∃ d, g = barCell d)) :
    (levAts L lv : sProp 𝕄) ⊢ MayWait (c : Thread nD τ) s () O :=
  Pipeline.mayWait_of_levAts (by rw [L_tc]; exact Finset.mem_singleton_self _) (fun g i hg => by
    have h0 : lv ((c : Thread nD τ), s) () = 0 := by dsimp only [lv]; rw [if_neg (by omega), if_neg (by omega)]
    rcases hO g i hg with ⟨a, d, rfl⟩ | ⟨d, rfl⟩
    · exact ⟨by rw [L_tc]; exact Finset.mem_singleton.mpr rfl, by rw [h0, lv_rcv]; decide⟩
    · exact ⟨by rw [L_tc]; exact Finset.mem_singleton.mpr rfl, by rw [h0, lv_bar]; decide⟩)

/-- The wait on the entry cell while owing only receive credits. -/
theorem mayWait_bar (c : Dev nD) (O : CellTallies nD τ sig Unit) (hO : ∀ g u, 0 < O g u → ∃ a d, g = rcvCell a d) :
    (levAts L lv : sProp 𝕄) ⊢ MayWait (c : Thread nD τ) (.reg barS) () O :=
  Pipeline.mayWait_of_levAts (by rw [L_tc]; exact Finset.mem_singleton_self _) (fun g i hg => by
    obtain ⟨a, d, rfl⟩ := hO g i hg
    exact ⟨by rw [L_tc]; exact Finset.mem_singleton.mpr rfl, by rw [lv_bar, lv_rcv]; decide⟩)

/-! ## The ghost state a device's body starts from -/

/-- The invariants device `c`'s body opens, under the names `K` they were allocated at: its own seven cells, its three
    neighbours' entry cells (its signals) and their receive cells of the joining axis (its transfers). -/
def invs (K : Dev nD × Fin 7 → ℕ) (c : Dev nD) : sProp 𝕄 :=
  iprop(cellInv ER (haloRd m) (K (c, 0)) (barCell c)
    ∗ cellInv ER (haloRd m) (K (c, 1)) (sndCell 0 c)
    ∗ cellInv ER (haloRd m) (K (c, 2)) (sndCell 1 c)
    ∗ cellInv ER (haloRd m) (K (c, 3)) (sndCell 2 c)
    ∗ cellInv ER (haloRd m) (K (c, 4)) (rcvCell 0 c)
    ∗ cellInv ER (haloRd m) (K (c, 5)) (rcvCell 1 c)
    ∗ cellInv ER (haloRd m) (K (c, 6)) (rcvCell 2 c)
    ∗ cellInv ER (haloRd m) (K (fl 0 c, 0)) (barCell (fl 0 c))
    ∗ cellInv ER (haloRd m) (K (fl 1 c, 0)) (barCell (fl 1 c))
    ∗ cellInv ER (haloRd m) (K (fl 2 c, 0)) (barCell (fl 2 c))
    ∗ cellInv ER (haloRd m) (K (fl 0 c, 4)) (rcvCell 0 (fl 0 c))
    ∗ cellInv ER (haloRd m) (K (fl 1 c, 5)) (rcvCell 1 (fl 1 c))
    ∗ cellInv ER (haloRd m) (K (fl 2 c, 6)) (rcvCell 2 (fl 2 c)))

instance invs_persistent (K : Dev nD × Fin 7 → ℕ) (c : Dev nD) : BI.Persistent (invs m K c) := by unfold invs; infer_instance

/-- Its positions at round 0 of its seven cells; the reached-marks of the cells it pays; the nine duty tokens it pays with. -/
def ghost (K : Dev nD × Fin 7 → ℕ) (c : Dev nD) : sProp 𝕄 :=
  iprop(invs m K c
    ∗ atPos ER (barCell c) 0 ∅ 0
    ∗ atPos ER (sndCell 0 c) 0 ∅ 0
    ∗ atPos ER (sndCell 1 c) 0 ∅ 0
    ∗ atPos ER (sndCell 2 c) 0 ∅ 0
    ∗ atPos ER (rcvCell 0 c) 0 ∅ 0
    ∗ atPos ER (rcvCell 1 c) 0 ∅ 0
    ∗ atPos ER (rcvCell 2 c) 0 ∅ 0
    ∗ reached ER (barCell (fl 0 c)) 0
    ∗ reached ER (barCell (fl 1 c)) 0
    ∗ reached ER (barCell (fl 2 c)) 0
    ∗ reached ER (rcvCell 0 (fl 0 c)) 0
    ∗ reached ER (rcvCell 1 (fl 1 c)) 0
    ∗ reached ER (rcvCell 2 (fl 2 c)) 0
    ∗ reached ER (sndCell 0 c) 0
    ∗ reached ER (sndCell 1 c) 0
    ∗ reached ER (sndCell 2 c) 0
    ∗ dutyTok ER (barCell (fl 0 c)) 0 (0 : Fin 3)
    ∗ dutyTok ER (barCell (fl 1 c)) 0 (1 : Fin 3)
    ∗ dutyTok ER (barCell (fl 2 c)) 0 (2 : Fin 3)
    ∗ dutyTok ER (rcvCell 0 (fl 0 c)) 0 (0 : Fin 3)
    ∗ dutyTok ER (rcvCell 1 (fl 1 c)) 0 (0 : Fin 3)
    ∗ dutyTok ER (rcvCell 2 (fl 2 c)) 0 (0 : Fin 3)
    ∗ dutyTok ER (sndCell 0 c) 0 (0 : Fin 3)
    ∗ dutyTok ER (sndCell 1 c) 0 (0 : Fin 3)
    ∗ dutyTok ER (sndCell 2 c) 0 (0 : Fin 3))

/-- With the credit of its own entry cell (three units) and of its three receive cells, and the level facts. -/
def start (c : Dev nD) : sProp 𝕄 :=
  iprop((∃ K, ghost m K c) ∗ cred (tallyAt (barCell c) () 3)
    ∗ cred (tallyAt (rcvCell 0 c) () N) ∗ cred (tallyAt (rcvCell 1 c) () N) ∗ cred (tallyAt (rcvCell 2 c) () N) ∗ levAts L lv)

/-- The six face buffers at some contents. -/
def faces (c : Dev nD) : sProp 𝕄 :=
  iprop((∃ f : Face F, ((sxM : Memref sig .tc .vmem S32x32 .f32).view.loc (c : Thread nD τ) ↦[(sxM : Memref sig .tc .vmem S32x32 .f32).view.set]{fullShare} f))
    ∗ (∃ f : Face F, ((syM : Memref sig .tc .vmem S32x32 .f32).view.loc (c : Thread nD τ) ↦[(syM : Memref sig .tc .vmem S32x32 .f32).view.set]{fullShare} f))
    ∗ (∃ f : Face F, ((szM : Memref sig .tc .vmem S32x32 .f32).view.loc (c : Thread nD τ) ↦[(szM : Memref sig .tc .vmem S32x32 .f32).view.set]{fullShare} f))
    ∗ (∃ f : Face F, ((rxM : Memref sig .tc .vmem S32x32 .f32).view.loc (c : Thread nD τ) ↦[(rxM : Memref sig .tc .vmem S32x32 .f32).view.set]{fullShare} f))
    ∗ (∃ f : Face F, ((ryM : Memref sig .tc .vmem S32x32 .f32).view.loc (c : Thread nD τ) ↦[(ryM : Memref sig .tc .vmem S32x32 .f32).view.set]{fullShare} f))
    ∗ (∃ f : Face F, ((rzM : Memref sig .tc .vmem S32x32 .f32).view.loc (c : Thread nD τ) ↦[(rzM : Memref sig .tc .vmem S32x32 .f32).view.set]{fullShare} f)))

def Φ₀ (c : Dev nD) : sProp 𝕄 := iprop(start m c ∗ faces c)
/-- After the point: the face buffers back, the six own cells at zero (the entry cell is the runtime's). -/
def Φ₁ (c : Dev nD) : sProp 𝕄 :=
  iprop(faces (F := F) c ∗ semVal (sndCell 0 c) 0 ∗ semVal (sndCell 1 c) 0 ∗ semVal (sndCell 2 c) 0
    ∗ semVal (rcvCell 0 c) 0 ∗ semVal (rcvCell 1 c) 0 ∗ semVal (rcvCell 2 c) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Halo

end
-- ==== Proof.KernelBody.lean ====
/-
  The halo exchange: one device's body, stepped from the ghost state it starts with to the state it leaves.

  In program order: the three entry signals (each hands the neighbour this device's receive buffer of the joining
  axis), the three faces stored into the send buffers, the wait for three entry units (each brings a neighbour's
  receive buffer), the three transfers into those buffers, the stencil of the device's own block, the three waits
  for the neighbours' faces, the result stored, and the three waits that bring the send buffers back.
-/
import proofs.«900362_g7700000000000363_dist_halo3d_v7x_xyz2x2x2_s32_bf16_1_alg».proof.Proof.Gen.Kernel
import proofs.«900362_g7700000000000363_dist_halo3d_v7x_xyz2x2x2_s32_bf16_1_alg».proof.Proof.Gen.Kernel.Skeleton
import proofs.«900362_g7700000000000363_dist_halo3d_v7x_xyz2x2x2_s32_bf16_1_alg».proof.Proof.Gen.Kernel.Launch
import proofs.«900362_g7700000000000363_dist_halo3d_v7x_xyz2x2x2_s32_bf16_1_alg».proof.Proof.Gen.Kernel.Points
import proofs.«900362_g7700000000000363_dist_halo3d_v7x_xyz2x2x2_s32_bf16_1_alg».proof.Proof.KernelData
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

/-! ## The schedule's tables as the stepping reads them: the entry on the left, a payload as the buffer it hands over -/

theorem tbl_duties_bar (c : Dev nD) : (haloRd (F := F) m).duties (barCell c) 0 = {0, 1, 2} := by rw [duties_bar]; decide

theorem tbl_payload_snd0 (c : Dev nD) (d : Fin 3) : (haloRd (F := F) m).payload (sndCell 0 c) 0 d = (((sxM : Memref sig .tc .vmem S32x32 .f32).view.loc (c : Thread nD τ) ↦[(sxM : Memref sig .tc .vmem S32x32 .f32).view.set]{fullShare} face m 0 c) : sProp 𝕄) := by
  rw [payload_snd]; unfold sendPay sPts; rfl
theorem tbl_payload_rcv0 (c : Dev nD) (d : Fin 3) : (haloRd (F := F) m).payload (rcvCell 0 c) 0 d = (((rxM : Memref sig .tc .vmem S32x32 .f32).view.loc (c : Thread nD τ) ↦[(rxM : Memref sig .tc .vmem S32x32 .f32).view.set]{fullShare} face m 0 (fl 0 c)) : sProp 𝕄) := by
  rw [payload_rcv]; unfold recvPay rPts; rfl
theorem tbl_payload_bar0 (c : Dev nD) : (haloRd (F := F) m).payload (barCell c) 0 (0 : Fin 3)
    = (iprop(∃ f : Face F, ((rxM : Memref sig .tc .vmem S32x32 .f32).view.loc (fl 0 c : Thread nD τ) ↦[(rxM : Memref sig .tc .vmem S32x32 .f32).view.set]{fullShare} f)) : sProp 𝕄) := by
  rw [payload_bar]; unfold barPay rPts; rfl
theorem respell_r0 (c : Dev nD) (f : Face F) : (((rxM : Memref sig .tc .vmem S32x32 .f32).view.loc (c : Thread nD τ) ↦[(rxM : Memref sig .tc .vmem S32x32 .f32).view.set]{fullShare} f) : sProp 𝕄) = ((rxM : Memref sig .tc .vmem S32x32 .f32).view.loc (fl 0 (fl 0 c) : Thread nD τ) ↦[(rxM : Memref sig .tc .vmem S32x32 .f32).view.set]{fullShare} f) := by
  rw [fl_fl]

theorem tbl_payload_snd1 (c : Dev nD) (d : Fin 3) : (haloRd (F := F) m).payload (sndCell 1 c) 0 d = (((syM : Memref sig .tc .vmem S32x32 .f32).view.loc (c : Thread nD τ) ↦[(syM : Memref sig .tc .vmem S32x32 .f32).view.set]{fullShare} face m 1 c) : sProp 𝕄) := by
  rw [payload_snd]; unfold sendPay sPts; rfl
theorem tbl_payload_rcv1 (c : Dev nD) (d : Fin 3) : (haloRd (F := F) m).payload (rcvCell 1 c) 0 d = (((ryM : Memref sig .tc .vmem S32x32 .f32).view.loc (c : Thread nD τ) ↦[(ryM : Memref sig .tc .vmem S32x32 .f32).view.set]{fullShare} face m 1 (fl 1 c)) : sProp 𝕄) := by
  rw [payload_rcv]; unfold recvPay rPts; rfl
theorem tbl_payload_bar1 (c : Dev nD) : (haloRd (F := F) m).payload (barCell c) 0 (1 : Fin 3)
    = (iprop(∃ f : Face F, ((ryM : Memref sig .tc .vmem S32x32 .f32).view.loc (fl 1 c : Thread nD τ) ↦[(ryM : Memref sig .tc .vmem S32x32 .f32).view.set]{fullShare} f)) : sProp 𝕄) := by
  rw [payload_bar]; unfold barPay rPts; rfl
theorem respell_r1 (c : Dev nD) (f : Face F) : (((ryM : Memref sig .tc .vmem S32x32 .f32).view.loc (c : Thread nD τ) ↦[(ryM : Memref sig .tc .vmem S32x32 .f32).view.set]{fullShare} f) : sProp 𝕄) = ((ryM : Memref sig .tc .vmem S32x32 .f32).view.loc (fl 1 (fl 1 c) : Thread nD τ) ↦[(ryM : Memref sig .tc .vmem S32x32 .f32).view.set]{fullShare} f) := by
  rw [fl_fl]

theorem tbl_payload_snd2 (c : Dev nD) (d : Fin 3) : (haloRd (F := F) m).payload (sndCell 2 c) 0 d = (((szM : Memref sig .tc .vmem S32x32 .f32).view.loc (c : Thread nD τ) ↦[(szM : Memref sig .tc .vmem S32x32 .f32).view.set]{fullShare} face m 2 c) : sProp 𝕄) := by
  rw [payload_snd]; unfold sendPay sPts; rfl
theorem tbl_payload_rcv2 (c : Dev nD) (d : Fin 3) : (haloRd (F := F) m).payload (rcvCell 2 c) 0 d = (((rzM : Memref sig .tc .vmem S32x32 .f32).view.loc (c : Thread nD τ) ↦[(rzM : Memref sig .tc .vmem S32x32 .f32).view.set]{fullShare} face m 2 (fl 2 c)) : sProp 𝕄) := by
  rw [payload_rcv]; unfold recvPay rPts; rfl
theorem tbl_payload_bar2 (c : Dev nD) : (haloRd (F := F) m).payload (barCell c) 0 (2 : Fin 3)
    = (iprop(∃ f : Face F, ((rzM : Memref sig .tc .vmem S32x32 .f32).view.loc (fl 2 c : Thread nD τ) ↦[(rzM : Memref sig .tc .vmem S32x32 .f32).view.set]{fullShare} f)) : sProp 𝕄) := by
  rw [payload_bar]; unfold barPay rPts; rfl
theorem respell_r2 (c : Dev nD) (f : Face F) : (((rzM : Memref sig .tc .vmem S32x32 .f32).view.loc (c : Thread nD τ) ↦[(rzM : Memref sig .tc .vmem S32x32 .f32).view.set]{fullShare} f) : sProp 𝕄) = ((rzM : Memref sig .tc .vmem S32x32 .f32).view.loc (fl 2 (fl 2 c) : Thread nD τ) ↦[(rzM : Memref sig .tc .vmem S32x32 .f32).view.set]{fullShare} f) := by
  rw [fl_fl]

theorem fl_fl' (a : Fin 3) (c : Dev nD) : fl a (fl a c) = c := fl_fl a c

attribute [local sl_rounds] tbl_duties_bar duties_snd duties_rcv amount_bar amount_snd amount_rcv expect_bar expect_snd expect_rcv
  tbl_payload_snd0 tbl_payload_snd1 tbl_payload_snd2 tbl_payload_rcv0 tbl_payload_rcv1 tbl_payload_rcv2
  tbl_payload_bar0 tbl_payload_bar1 tbl_payload_bar2 fl_fl'

/-- The staged block and the result's staging buffer, through their memrefs' views. -/
theorem xPts_eq (c : Dev nD) (f : Blk F) :
    ((xM : Memref sig .tc .vmem S32x32x32 .f32).view.loc (c : Thread nD τ) ↦[(xM : Memref sig .tc .vmem S32x32x32 .f32).view.set]{fullShare} f : sProp 𝕄)
      = (((c : Thread nD τ).loc cc0_stg0_0) ↦{fullShare} f) := by rw [View.set_whole]
theorem oPts_eq (c : Dev nD) (f : Blk F) :
    ((oM : Memref sig .tc .vmem S32x32x32 .f32).view.loc (c : Thread nD τ) ↦[(oM : Memref sig .tc .vmem S32x32x32 .f32).view.set]{fullShare} f : sProp 𝕄)
      = (((c : Thread nD τ).loc cc0_stg1_0) ↦{fullShare} f) := by rw [View.set_whole]

theorem hz2 : (![0, 0] : Fin 2 → Nat) = fun _ => 0 := funext fun a => by fin_cases a <;> rfl

/-- One store through the whole rectangle of a face buffer leaves what was stored. -/
theorem writes_sx (f w : Face F) :
    (sxM : Memref sig .tc .vmem S32x32 .f32).view.writes (Elt F) f [⟨Rect.unit (s := S32x32) ![0, 0] S32x32.size inb_S32x32_S32x32_0_0, w⟩] = w :=
  (View.writes_singleton _ _ _ _).trans (Memref.write_access_unit_zero_univ (Elt F) cc0_scratch0 hz2 _ f w)

/-- One store through the whole rectangle of a face buffer leaves what was stored. -/
theorem writes_sy (f w : Face F) :
    (syM : Memref sig .tc .vmem S32x32 .f32).view.writes (Elt F) f [⟨Rect.unit (s := S32x32) ![0, 0] S32x32.size inb_S32x32_S32x32_0_0, w⟩] = w :=
  (View.writes_singleton _ _ _ _).trans (Memref.write_access_unit_zero_univ (Elt F) cc0_scratch1 hz2 _ f w)

/-- One store through the whole rectangle of a face buffer leaves what was stored. -/
theorem writes_sz (f w : Face F) :
    (szM : Memref sig .tc .vmem S32x32 .f32).view.writes (Elt F) f [⟨Rect.unit (s := S32x32) ![0, 0] S32x32.size inb_S32x32_S32x32_0_0, w⟩] = w :=
  (View.writes_singleton _ _ _ _).trans (Memref.write_access_unit_zero_univ (Elt F) cc0_scratch2 hz2 _ f w)

theorem hz3 : (![0, 0, 0] : Fin 3 → Nat) = fun _ => 0 := funext fun a => by fin_cases a <;> rfl
/-- One store through the whole rectangle of the result's staging buffer leaves what was stored. -/
theorem writes_o (f w : Blk F) :
    (oM : Memref sig .tc .vmem S32x32x32 .f32).view.writes (Elt F) f [⟨Rect.unit (s := S32x32x32) ![0, 0, 0] S32x32x32.size inb_S32x32x32_S32x32x32_0_0_0, w⟩] = w :=
  (View.writes_singleton _ _ _ _).trans (Memref.write_access_unit_zero_univ (Elt F) cc0_stg1_0 hz3 _ f w)

section Body

variable (K : Dev nD × Fin 7 → ℕ)

def bodyPre (c : Dev nD) : sProp 𝕄 :=
  iprop((ghost m K c ∗ cred (tallyAt (barCell c) () 3)
      ∗ cred (tallyAt (rcvCell 0 c) () N) ∗ cred (tallyAt (rcvCell 1 c) () N) ∗ cred (tallyAt (rcvCell 2 c) () N) ∗ levAts L lv ∗ faces c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

set_option maxHeartbeats 3200000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7) Kt := by
  unfold bodyPre ghost invs faces
  iintro ⟨⟨⟨⟨⟨#HI0, #HI1, #HI2, #HI3, #HI4, #HI5, #HI6, #HI7, #HI8, #HI9, #HI10, #HI11, #HI12⟩, Hat0, Hat1, Hat2, Hat3, Hat4, Hat5, Hat6, #Hr0, #Hr1, #Hr2, #Hr3, #Hr4, #Hr5, #Hr6, #Hr7, #Hr8, Ht0, Ht1, Ht2, Ht3, Ht4, Ht5, Ht6, Ht7, Ht8⟩, HcB, HcR0, HcR1, HcR2, #Hlev,
    ⟨%fs0, Hsx⟩, ⟨%fs1, Hsy⟩, ⟨%fs2, Hsz⟩, ⟨%fr0, Hrx0⟩, ⟨%fr1, Hry0⟩, ⟨%fr2, Hrz0⟩⟩,
    Ho, ⟨%d0, %g0, %hg0, Hx0⟩, ⟨%d1, %g1, %hg1, Hout0⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ OR
  ihave Hx := (Entails.of_eq (xPts_eq c (xstg m c)).symm) $$ Hx0
  ihave Hout := (Entails.of_eq (oPts_eq c g1).symm) $$ Hout0
  ihave Hrx := (Entails.of_eq (respell_r0 c fr0)) $$ Hrx0
  ihave Hry := (Entails.of_eq (respell_r1 c fr1)) $$ Hry0
  ihave Hrz := (Entails.of_eq (respell_r2 c fr2)) $$ Hrz0
  have hd1 := dev1_eq c; have hd2 := dev2_eq c; have hd3 := dev3_eq c; have hd4 := dev4_eq c; have hd5 := dev5_eq c; have hd6 := dev6_eq c
  sl_unfold [cc0_body]
  have hmw : (levAts L lv : sProp 𝕄) ⊢ MayWait (c : Thread nD τ) (.reg barS) ()
      (tallyAt (rcvCell 1 (fl 1 c)) () N + tallyAt (rcvCell 0 (fl 0 c)) () N + tallyAt (rcvCell 2 (fl 2 c)) () N) :=
    mayWait_bar c _ (fun g u h => OR_pos (c := c) h)
  clear hg0 hg1
  -- the three signals, the three faces stored, the entry wait
  sl_exec
  ihave Hp := (show ∀ P Q R : sProp 𝕄, (BI.sep P (BI.sep Q R)) ⊢ iprop(P ∗ Q ∗ R) from fun _ _ _ => BI.Entails.refl _) _ _ _ $$ Hat0_pay1
  icases Hp with ⟨⟨%gx, Hnx⟩, ⟨%gy, Hny⟩, ⟨%gz, Hnz⟩⟩
  -- what was stored into the send buffers is the three faces
  have ex : sound_body.sl.v45 m c = face m 0 c := rfl
  have ey : sound_body.sl.v54 m c = face m 1 c := rfl
  have ez : sound_body.sl.v63 m c = face m 2 c := rfl
  rw [ex, ey, ez, writes_sx, writes_sy, writes_sz]
  clear ex ey ez hmw
  -- the three transfers, the stencil, the three receive waits, the result stored, the three send waits
  sl_exec
  have eo : k0_pay10 (sound_body.sl.v2 c) (sound_body.sl.v5 c) (sound_body.sl.v8 c) sound_body.sl.v146 sound_body.sl.v147
      sound_body.sl.v148 (k0_pay6 (F := F)) (sound_body.sl.r_2 m c) (sound_body.sl.r_3 c) (sound_body.sl.r_4 m c) = outAt m c := rfl
  rw [eo, writes_o]
  clear eo
  -- the six own cells close: their counters at zero are the device's again
  imod (Rounds.cell_close ER (haloRd m) (Set.mem_univ (K (c, 1))) (fun h => h) (R := 0 + 1) (duties_later m (sndCell 0 c))) $$ [Hat1] with Hz1
  · isplitr; · iexact HI1
    iexact Hat1
  imod (Rounds.cell_close ER (haloRd m) (Set.mem_univ (K (c, 2))) (fun h => h) (R := 0 + 1) (duties_later m (sndCell 1 c))) $$ [Hat2] with Hz2
  · isplitr; · iexact HI2
    iexact Hat2
  imod (Rounds.cell_close ER (haloRd m) (Set.mem_univ (K (c, 3))) (fun h => h) (R := 0 + 1) (duties_later m (sndCell 2 c))) $$ [Hat3] with Hz3
  · isplitr; · iexact HI3
    iexact Hat3
  imod (Rounds.cell_close ER (haloRd m) (Set.mem_univ (K (c, 4))) (fun h => h) (R := 0 + 1) (duties_later m (rcvCell 0 c))) $$ [Hat4] with Hz4
  · isplitr; · iexact HI4
    iexact Hat4
  imod (Rounds.cell_close ER (haloRd m) (Set.mem_univ (K (c, 5))) (fun h => h) (R := 0 + 1) (duties_later m (rcvCell 1 c))) $$ [Hat5] with Hz5
  · isplitr; · iexact HI5
    iexact Hat5
  imod (Rounds.cell_close ER (haloRd m) (Set.mem_univ (K (c, 6))) (fun h => h) (R := 0 + 1) (duties_later m (rcvCell 2 c))) $$ [Hat6] with Hz6
  · isplitr; · iexact HI6
    iexact Hat6
  rw [wp_ret]; imodintro
  iapply Hk
  unfold bodyPost Φ₁ faces Dat.owesAt Pipeline.owesWithin
  rw [show (dats m 0 c).owed t₀.succ = 0 from rfl]
  isplitl [Hat1_pay1 Hat2_pay1 Hat3_pay1 Hat4_pay1 Hat5_pay1 Hat6_pay1 Hz1 Hz2 Hz3 Hz4 Hz5 Hz6]
  · isplitl [Hat1_pay1 Hat2_pay1 Hat3_pay1 Hat4_pay1 Hat5_pay1 Hat6_pay1]
    · isplitl [Hat1_pay1]; · iexists _; iexact Hat1_pay1
      isplitl [Hat2_pay1]; · iexists _; iexact Hat2_pay1
      isplitl [Hat3_pay1]; · iexists _; iexact Hat3_pay1
      isplitl [Hat4_pay1]; · iexists _; iexact Hat4_pay1
      isplitl [Hat5_pay1]; · iexists _; iexact Hat5_pay1
      iexists _; iexact Hat6_pay1
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists (insert (SemLoc.dma sqY.sem, ()) (insert (SemLoc.dma sqX.sem, ()) (insert (SemLoc.dma sqZ.sem, ())
      (insert (SemLoc.dma rqY.sem, ()) (insert (SemLoc.dma rqX.sem, ()) (insert (SemLoc.dma rqZ.sem, ()) (insert (SemLoc.reg barS, ()) W)))))))
    isplitr; · ipureintro; exact fun _ _ => Or.inl trivial
    iexact HO
  ihave Hx' := (Entails.of_eq (xPts_eq c (xstg m c))) $$ Hx
  ihave Hout' := (Entails.of_eq (oPts_eq c (outAt m c))) $$ Hout
  isplitl [Hx']
  · iexists _; isplitr; · (ipureintro; rfl)
    iexact Hx'
  iexists _; isplitr; · (ipureintro; rfl)
  iexact Hout'

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx] <;> iassumption
  · iintro H; iexact H

end Body

end Cert.Kernel.Halo

end
-- ==== Proof.KernelLaunch.lean ====
/-
  The halo exchange: the launch.

  The exchange's ghost state is allocated for all eight devices at once, because a cell's invariant is shared by
  the device that owns the cell and the neighbour that pays into it. Each device is dealt the round state, the
  position and the duty tokens of its own seven cells; the tokens are then passed to the devices that pay them:
  duty `a` of an entry cell and the duty of a receive cell of axis `a` go to the neighbour along `a`, the duty of a
  send cell stays. The launch credit is what the neighbours owe: three entry units and one face's credit per axis.
-/
import proofs.«900362_g7700000000000363_dist_halo3d_v7x_xyz2x2x2_s32_bf16_1_alg».proof.Proof.Gen.Kernel
import proofs.«900362_g7700000000000363_dist_halo3d_v7x_xyz2x2x2_s32_bf16_1_alg».proof.Proof.Gen.Kernel.Skeleton
import proofs.«900362_g7700000000000363_dist_halo3d_v7x_xyz2x2x2_s32_bf16_1_alg».proof.Proof.Gen.Kernel.Launch
import proofs.«900362_g7700000000000363_dist_halo3d_v7x_xyz2x2x2_s32_bf16_1_alg».proof.Proof.Gen.Kernel.Points
import proofs.«900362_g7700000000000363_dist_halo3d_v7x_xyz2x2x2_s32_bf16_1_alg».proof.Proof.KernelBody
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens as finite sets -/

/-- The kernel's own (scoped) semaphores, as the launch theorem indexes them: the three send, the three receive. -/
abbrev osem : Fin 6 → SemLoc sig := fun | 0 => sndS 0 | 1 => sndS 1 | 2 => sndS 2 | 3 => rcvS 0 | 4 => rcvS 1 | 5 => rcvS 2
/-- All seven of a device's cells: the entry cell, then the own ones. -/
abbrev csem : Fin 7 → SemLoc sig := fun | 0 => .reg barS | 1 => sndS 0 | 2 => sndS 1 | 3 => sndS 2 | 4 => rcvS 0 | 5 => rcvS 1 | 6 => rcvS 2
abbrev kcell (ck : Dev nD × Fin 7) : GSem nD τ sig := ((ck.1 : Thread nD τ), csem ck.2)

theorem ownSemFacts : Pipeline.OwnSemFacts cfg0.spec osem := by decide

theorem share_eq (c : Dev nD) (w : Fin cfg0.W) : (dats m 0 c).share w = fullShare := by unfold Dat.share; split <;> rfl

theorem csem_inj : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]
def haloCells : Finset (GSem nD τ sig) := Finset.univ.map ⟨kcell, kcell_injective⟩

/-- A device's own cells' duty tokens as minted: which cell and which duty. -/
abbrev tokKey : Fin 9 → SemLoc sig × Fin 3 := fun
  | 0 => (.reg barS, 0) | 1 => (.reg barS, 1) | 2 => (.reg barS, 2)
  | 3 => (sndS 0, 0) | 4 => (sndS 1, 0) | 5 => (sndS 2, 0)
  | 6 => (rcvS 0, 0) | 7 => (rcvS 1, 0) | 8 => (rcvS 2, 0)
theorem tokKey_inj : Function.Injective tokKey := by decide
abbrev tokOf (cj : Dev nD × Fin 9) : GSem nD τ sig × ℕ × Fin 3 := (((cj.1 : Thread nD τ), (tokKey cj.2).1), 0, (tokKey cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_inj h2]
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  bigSep Finset.univ fun j : Fin 9 => dutyTok ER (tokOf (c, j)).1 (tokOf (c, j)).2.1 (tokOf (c, j)).2.2

/-- What the launch element deals device `c`. -/
def G (c : Dev nD) : sProp 𝕄 :=
  iprop((bigSep Finset.univ fun k : Fin 7 => roundState ER (haloRd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sndCell 0 c) 0 ∗ semVal (sndCell 1 c) 0 ∗ semVal (sndCell 2 c) 0 ∗ semVal (rcvCell 0 c) 0 ∗ semVal (rcvCell 1 c) 0 ∗ semVal (rcvCell 2 c) 0) := by
  rw [Pipeline.ownSems0_eq_of_list c osem [0, 1, 2, 3, 4, 5] (by decide) (by decide)]; rfl
/-- the entry semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (haloRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (haloRd m) (K ck) (kcell ck) : sProp 𝕄)) ⊢ cellInv ER (haloRd m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (fl 0 c)) 0 (0 : Fin 3)
    ∗ dutyTok ER (barCell (fl 1 c)) 0 (1 : Fin 3)
    ∗ dutyTok ER (barCell (fl 2 c)) 0 (2 : Fin 3)
    ∗ dutyTok ER (rcvCell 0 (fl 0 c)) 0 (0 : Fin 3)
    ∗ dutyTok ER (rcvCell 1 (fl 1 c)) 0 (0 : Fin 3)
    ∗ dutyTok ER (rcvCell 2 (fl 2 c)) 0 (0 : Fin 3)
    ∗ dutyTok ER (sndCell 0 c) 0 (0 : Fin 3)
    ∗ dutyTok ER (sndCell 1 c) 0 (0 : Fin 3)
    ∗ dutyTok ER (sndCell 2 c) 0 (0 : Fin 3))
def linear (c : Dev nD) : sProp 𝕄 :=
  iprop((atPos ER (barCell c) 0 ∅ 0 ∗ atPos ER (sndCell 0 c) 0 ∅ 0 ∗ atPos ER (sndCell 1 c) 0 ∅ 0 ∗ atPos ER (sndCell 2 c) 0 ∅ 0 ∗ atPos ER (rcvCell 0 c) 0 ∅ 0 ∗ atPos ER (rcvCell 1 c) 0 ∅ 0 ∗ atPos ER (rcvCell 2 c) 0 ∅ 0) ∗ payToks c)

theorem ghost_intro (K : Dev nD × Fin 7 → ℕ) (c : Dev nD) : iprop(records m K ∗ linear c) ⊢ G' m c := by
  unfold records linear payToks G' ghost invs
  iintro ⟨⟨#HI, #HR⟩, ⟨Ha0, Ha1, Ha2, Ha3, Ha4, Ha5, Ha6⟩, Hk0, Hk1, Hk2, Hk3, Hk4, Hk5, Hk6, Hk7, Hk8⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (fl 0 c, 0)); iexact HI
    isplitr; · iapply (inv_at m K (fl 1 c, 0)); iexact HI
    isplitr; · iapply (inv_at m K (fl 2 c, 0)); iexact HI
    isplitr; · iapply (inv_at m K (fl 0 c, 4)); iexact HI
    isplitr; · iapply (inv_at m K (fl 1 c, 5)); iexact HI
    iapply (inv_at m K (fl 2 c, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (fl 0 c, 0)); iexact HR
  isplitr; · iapply (reached_at (F := F) (fl 1 c, 0)); iexact HR
  isplitr; · iapply (reached_at (F := F) (fl 2 c, 0)); iexact HR
  isplitr; · iapply (reached_at (F := F) (fl 0 c, 4)); iexact HR
  isplitr; · iapply (reached_at (F := F) (fl 1 c, 5)); iexact HR
  isplitr; · iapply (reached_at (F := F) (fl 2 c, 6)); iexact HR
  isplitr; · iapply (reached_at (F := F) (c, 1)); iexact HR
  isplitr; · iapply (reached_at (F := F) (c, 2)); iexact HR
  isplitr; · iapply (reached_at (F := F) (c, 3)); iexact HR
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  iexact Hk8

/-- A device's own nine tokens, one by one. -/
theorem toks_eq (c : Dev nD) : (toks c : sProp 𝕄) = iprop(dutyTok ER (barCell c) 0 (0 : Fin 3)
    ∗ dutyTok ER (barCell c) 0 (1 : Fin 3)
    ∗ dutyTok ER (barCell c) 0 (2 : Fin 3)
    ∗ dutyTok ER (sndCell 0 c) 0 (0 : Fin 3)
    ∗ dutyTok ER (sndCell 1 c) 0 (0 : Fin 3)
    ∗ dutyTok ER (sndCell 2 c) 0 (0 : Fin 3)
    ∗ dutyTok ER (rcvCell 0 c) 0 (0 : Fin 3)
    ∗ dutyTok ER (rcvCell 1 c) 0 (0 : Fin 3)
    ∗ dutyTok ER (rcvCell 2 c) 0 (0 : Fin 3)) := by
  unfold toks; rw [bigSep_fin9]

/-- The tokens dealt to the devices that pay them: duty `a` of an entry cell and the duty of a receive cell of axis `a` go
    to the neighbour along `a`; a send cell's duty stays. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv (flipE 0) (fun c : Dev nD => (dutyTok ER (barCell c) 0 (0 : Fin 3) : sProp 𝕄)),
    bigSep_univ_equiv (flipE 1) (fun c : Dev nD => (dutyTok ER (barCell c) 0 (1 : Fin 3) : sProp 𝕄)),
    bigSep_univ_equiv (flipE 2) (fun c : Dev nD => (dutyTok ER (barCell c) 0 (2 : Fin 3) : sProp 𝕄)),
    bigSep_univ_equiv (flipE 0) (fun c : Dev nD => (dutyTok ER (rcvCell 0 c) 0 (0 : Fin 3) : sProp 𝕄)),
    bigSep_univ_equiv (flipE 1) (fun c : Dev nD => (dutyTok ER (rcvCell 1 c) 0 (0 : Fin 3) : sProp 𝕄)),
    bigSep_univ_equiv (flipE 2) (fun c : Dev nD => (dutyTok ER (rcvCell 2 c) 0 (0 : Fin 3) : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (haloRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem three_units (g : GSem nD τ sig) : (tallyAt g () 1 + tallyAt g () 1 + tallyAt g () 1 : CellTallies nD τ sig Unit) = tallyAt g () 3 := by
  rw [tallyAt_add, tallyAt_add]

/-- What a device's neighbours owe it: three entry units, and per axis one face's credit. -/
theorem creds (c : Dev nD) :
    (Pipeline.launchCred O₀ c : sProp 𝕄) ⊢ iprop(cred (tallyAt (barCell c) () 3)
      ∗ cred (tallyAt (rcvCell 0 c) () N) ∗ cred (tallyAt (rcvCell 1 c) () N) ∗ cred (tallyAt (rcvCell 2 c) () N)) := by
  show (Pipeline.launchCred (fun d => tallyAt (rcvCell 1 (fl 1 d)) () N + tallyAt (rcvCell 0 (fl 0 d)) () N + tallyAt (rcvCell 2 (fl 2 d)) () N
      + tallyAt (barCell (fl 2 d)) () 1 + tallyAt (barCell (fl 1 d)) () 1 + tallyAt (barCell (fl 0 d)) () 1) c : sProp 𝕄) ⊢ _
  rw [Pipeline.launchCred_add, Pipeline.launchCred_add, Pipeline.launchCred_add, Pipeline.launchCred_add, Pipeline.launchCred_add]
  iintro ⟨⟨⟨⟨⟨H1, H0⟩, H2⟩, B2⟩, B1⟩, B0⟩
  ihave C1 := (Pipeline.launchCred_tallyAt (rcvS 1) (fl 1) (fl 1) (fl_fl 1) (fl_fl 1) () N c) $$ H1
  ihave C0 := (Pipeline.launchCred_tallyAt (rcvS 0) (fl 0) (fl 0) (fl_fl 0) (fl_fl 0) () N c) $$ H0
  ihave C2 := (Pipeline.launchCred_tallyAt (rcvS 2) (fl 2) (fl 2) (fl_fl 2) (fl_fl 2) () N c) $$ H2
  ihave D2 := (Pipeline.launchCred_tallyAt (SemLoc.reg barS) (fl 2) (fl 2) (fl_fl 2) (fl_fl 2) () 1 c) $$ B2
  ihave D1 := (Pipeline.launchCred_tallyAt (SemLoc.reg barS) (fl 1) (fl 1) (fl_fl 1) (fl_fl 1) () 1 c) $$ B1
  ihave D0 := (Pipeline.launchCred_tallyAt (SemLoc.reg barS) (fl 0) (fl 0) (fl_fl 0) (fl_fl 0) () 1 c) $$ B0
  ihave D21 := (cred_add (tallyAt (barCell c) () 1) (tallyAt (barCell c) () 1)).2 $$ [D2 D1]
  · isplitl [D2] <;> iassumption
  ihave D := (cred_add (tallyAt (barCell c) () 1 + tallyAt (barCell c) () 1) (tallyAt (barCell c) () 1)).2 $$ [D21 D0]
  · isplitl [D21] <;> iassumption
  rw [three_units]
  isplitl [D]; · iexact D
  isplitl [C0]; · iexact C0
  isplitl [C1]; · iexact C1
  iexact C2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1, HN2⟩
  imodintro
  unfold start G'
  isplitl
  · isplitl [HG]; · iexact HG
    isplitl [H1]; · iexact H1
    isplitl [HN0]; · iexact HN0
    isplitl [HN1]; · iexact HN1
    isplitl [HN2]; · iexact HN2
    iexact Hlev
  · iempintro

/-- The six face buffers, whole at some contents, as the launch hands them over and takes them back. -/
theorem faces_eq (c : Dev nD) : (faces (F := F) c : sProp 𝕄) = (Pipeline.scopedRest (Ix := Unit) (Name := ℕ) (U := UU) (Lvl := ℕ) (Val := Elt F) spec0 c : sProp 𝕄) := by
  rw [scopedRest0_eq]; unfold faces; simp only [View.set_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← faces_eq]
  unfold Φ₀
  iintro ⟨Hs, -, Hr⟩
  isplitl [Hs] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, ← faces_eq, ownSems0_eq]
  unfold Φ₁
  iintro ⟨Hr, Hz⟩
  isplitr; · iempintro
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact fun g u h => O₀_pos (c := c) h
      · exact fun g u h => absurd h (Nat.lt_irrefl 0))

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main — the eight kernels meeting on the entry semaphore, then exchanging faces along the three axes —
    terminates, and every final state has each device's two arrays at the proof data's final contents. -/
theorem run_main : θ_run defs (onTc (τ := τ) (main (F := F))) (mem0 m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array's one block — the whole array — read back is what the body left in the staging buffer. -/
theorem finalA_o (c : Dev nD) :
    (win0_1.blk (0 : Fin 1)).view.read (Elt F) (finalA m c (1 : Fin 2)) = outAt m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- Reading that block reads the array: the result array after the run is the body's result. -/
theorem finalA_out (c : Dev nD) : finalA m c (1 : Fin 2) = outAt m c := by
  have ho := finalA_o m c
  have hz : (fun a => (win0_1.index (0 : Fin 1)) a * main_v1.ty.shape.size a) = fun _ => 0 :=
    funext fun a => by fin_cases a <;> decide
  rw [Memref.read_access_unit_zero (Elt F) main_v1 hz (fun a => by fin_cases a <;> decide)] at ho
  exact ho

/-- The staged block is the device's argument array. -/
theorem xstg_eq (c : Dev nD) : xstg m c = m ((c : Thread nD τ).loc main_arg0) := by
  unfold xstg
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The run with its values: every device's result array ends at the body's result, its argument array unchanged. -/
theorem run_val : θ_run defs (onTc (τ := τ) (main (F := F))) ⟨m, fun _ => 0, ρ⟩ (fun r => ∀ c : Dev nD,
    r.2.mem ((c : Thread nD τ).loc main_v1) = outAt m c
      ∧ r.2.mem ((c : Thread nD τ).loc main_arg0) = m ((c : Thread nD τ).loc main_arg0)) :=
  (θ_run defs _ _).mono (fun _ h c => ⟨(h c (1 : Fin 2)).trans (finalA_out m c), (h c (0 : Fin 2)).trans (finalA_x m c)⟩) (run_main m ρ)

end Cert.Kernel.Halo

end
-- ==== Proof.KernelIdealMesh.lean ====
/-
  The halo exchange on the 2×2×2 mesh: the protocol.

  Each device holds a 32×32×32 block of the 64×64×64 array. Along each of the three axes it has exactly one
  neighbour, the device whose coordinate on that axis is flipped. It sends that neighbour the face of its block
  that touches it and receives the neighbour's touching face. Before any transfer every device signals the entry
  semaphore of its three neighbours and waits for three signals on its own: a signal from the neighbour along an
  axis hands over that neighbour's landing buffer for that axis, so the transfer into it starts only once the
  neighbour is inside the kernel.

  Per device there are seven cells: the entry cell (three duties, one per axis, one unit each), and per axis a
  send cell and a receive cell (one duty each, the face's transfer credit). This module states the flips, the
  cells, the contents of the buffers, the schedule with its tables, what a device owes at launch and the levels
  that order the waits.
-/
import proofs.«900362_g7700000000000363_dist_halo3d_v7x_xyz2x2x2_s32_bf16_1_alg».proof.Proof.Gen.KernelIdeal
import proofs.«900362_g7700000000000363_dist_halo3d_v7x_xyz2x2x2_s32_bf16_1_alg».proof.Proof.Gen.KernelIdeal.Skeleton
import proofs.«900362_g7700000000000363_dist_halo3d_v7x_xyz2x2x2_s32_bf16_1_alg».proof.Proof.Gen.KernelIdeal.Launch
import proofs.«900362_g7700000000000363_dist_halo3d_v7x_xyz2x2x2_s32_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by an axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def mem0 : MemSt nD τ sig (Elt F) := ⟨m, fun _ => 0, ρ⟩

/-! ## The mesh: the neighbour along an axis is the device with that coordinate flipped -/

theorem flip_lt : ∀ (a : Fin 3) (c : Dev nD), c.val ^^^ (4 >>> a.val) < nD := by decide

/-- Device `c` is at (c / 4, c / 2 % 2, c % 2); flipping coordinate `a` flips bit `2 - a` of `c`. -/
def fl (a : Fin 3) (c : Dev nD) : Dev nD := ⟨c.val ^^^ (4 >>> a.val), flip_lt a c⟩

theorem fl_fl (a : Fin 3) (c : Dev nD) : fl a (fl a c) = c := by revert a c; decide
theorem fl_ne (a : Fin 3) (c : Dev nD) : fl a c ≠ c := by revert a c; decide

def flipE (a : Fin 3) : Dev nD ≃ Dev nD := ⟨fl a, fl a, fl_fl a, fl_fl a⟩

/-- The kernel's device chains: the three signals go to the x, y, z neighbours; the three transfers to the z, x, y ones. -/
theorem dev1_eq (c : Dev nD) : (⟨k0_dev1 c, k0_dev1_lt c⟩ : Dev nD) = fl 0 c := Fin.ext ((k0_dev1_eq c).trans (by revert c; decide))
theorem dev2_eq (c : Dev nD) : (⟨k0_dev2 c, k0_dev2_lt c⟩ : Dev nD) = fl 1 c := Fin.ext ((k0_dev2_eq c).trans (by revert c; decide))
theorem dev3_eq (c : Dev nD) : (⟨k0_dev3 c, k0_dev3_lt c⟩ : Dev nD) = fl 2 c := Fin.ext ((k0_dev3_eq c).trans (by revert c; decide))
theorem dev4_eq (c : Dev nD) : (⟨k0_dev4 c, k0_dev4_lt c⟩ : Dev nD) = fl 2 c := Fin.ext ((k0_dev4_eq c).trans (by revert c; decide))
theorem dev5_eq (c : Dev nD) : (⟨k0_dev5 c, k0_dev5_lt c⟩ : Dev nD) = fl 0 c := Fin.ext ((k0_dev5_eq c).trans (by revert c; decide))
theorem dev6_eq (c : Dev nD) : (⟨k0_dev6 c, k0_dev6_lt c⟩ : Dev nD) = fl 1 c := Fin.ext ((k0_dev6_eq c).trans (by revert c; decide))

/-- A device's coordinate on each axis, as the word the kernel computes it. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

/-! ## The memrefs and the cells -/

abbrev xM : Memref sig .tc .vmem S32x32x32 .f32 := Memref.whole cc0_stg0_0
abbrev oM : Memref sig .tc .vmem S32x32x32 .f32 := Memref.whole cc0_stg1_0
abbrev sxM : Memref sig .tc .vmem S32x32 .f32 := Memref.whole cc0_scratch0
abbrev syM : Memref sig .tc .vmem S32x32 .f32 := Memref.whole cc0_scratch1
abbrev szM : Memref sig .tc .vmem S32x32 .f32 := Memref.whole cc0_scratch2
abbrev rxM : Memref sig .tc .vmem S32x32 .f32 := Memref.whole cc0_scratch3
abbrev ryM : Memref sig .tc .vmem S32x32 .f32 := Memref.whole cc0_scratch4
abbrev rzM : Memref sig .tc .vmem S32x32 .f32 := Memref.whole cc0_scratch5

/-- The runtime's entry semaphore (unscoped); the three send and three receive DMA semaphores (scoped scratch). -/
abbrev barS : Sem sig := (SemArray.scalar (sig.barrier 0 rfl) : Sems sig S_).sem
abbrev sqX : DmaSems sig S_ := (cc0_scratch6.slice (Rect.unit (s := S3) ![0] S1.size inb_S3_S1_0)).squeeze S_ squeezes_S1_S_
abbrev sqY : DmaSems sig S_ := (cc0_scratch6.slice (Rect.unit (s := S3) ![1] S1.size inb_S3_S1_1)).squeeze S_ squeezes_S1_S_
abbrev sqZ : DmaSems sig S_ := (cc0_scratch6.slice (Rect.unit (s := S3) ![2] S1.size inb_S3_S1_2)).squeeze S_ squeezes_S1_S_
abbrev rqX : DmaSems sig S_ := (cc0_scratch7.slice (Rect.unit (s := S3) ![0] S1.size inb_S3_S1_0)).squeeze S_ squeezes_S1_S_
abbrev rqY : DmaSems sig S_ := (cc0_scratch7.slice (Rect.unit (s := S3) ![1] S1.size inb_S3_S1_1)).squeeze S_ squeezes_S1_S_
abbrev rqZ : DmaSems sig S_ := (cc0_scratch7.slice (Rect.unit (s := S3) ![2] S1.size inb_S3_S1_2)).squeeze S_ squeezes_S1_S_

/-- The send and the receive semaphore of an axis. -/
def sndS (a : Fin 3) : SemLoc sig := if a = 0 then .dma sqX.sem else if a = 1 then .dma sqY.sem else .dma sqZ.sem
def rcvS (a : Fin 3) : SemLoc sig := if a = 0 then .dma rqX.sem else if a = 1 then .dma rqY.sem else .dma rqZ.sem

abbrev barCell (c : Dev nD) : GSem nD τ sig := ((c : Thread nD τ), .reg barS)
abbrev sndCell (a : Fin 3) (c : Dev nD) : GSem nD τ sig := ((c : Thread nD τ), sndS a)
abbrev rcvCell (a : Fin 3) (c : Dev nD) : GSem nD τ sig := ((c : Thread nD τ), rcvS a)

/-- A cell's kind as a number: the entry semaphore 100, a DMA semaphore its index (send 2–4, receive 5–7). -/
def tag : SemLoc sig → ℕ
  | .reg _ => 100
  | .dma q => q.val

theorem tag_snd (a : Fin 3) : tag (sndS a) = 2 + a.val := by revert a; decide
theorem tag_rcv (a : Fin 3) : tag (rcvS a) = 5 + a.val := by revert a; decide
theorem tag_bar : tag (SemLoc.reg barS : SemLoc sig) = 100 := rfl

/-- The transfer credit of a face. -/
abbrev N : ℕ := (rxM : Memref sig .tc .vmem S32x32 .f32).view.dmaCredit
theorem N_pos : 0 < N := View.dmaCredit_pos _ (by decide)

end Cert.KernelIdeal.Halo

end
-- ==== Proof.KernelIdealSched.lean ====
/-
  The halo exchange: what the buffers hold, the schedule of the seven cells, what a device owes at launch and the
  levels that order the waits.

  The face a device sends along an axis is the plane of its block at index 31 when its coordinate on that axis
  is 0 and the plane at index 0 when it is 1: the plane that touches the neighbour. What lands in a device's
  receive buffer of an axis is the face its neighbour along that axis sent.
-/
import proofs.«900362_g7700000000000363_dist_halo3d_v7x_xyz2x2x2_s32_bf16_1_alg».proof.Proof.Gen.KernelIdeal
import proofs.«900362_g7700000000000363_dist_halo3d_v7x_xyz2x2x2_s32_bf16_1_alg».proof.Proof.Gen.KernelIdeal.Skeleton
import proofs.«900362_g7700000000000363_dist_halo3d_v7x_xyz2x2x2_s32_bf16_1_alg».proof.Proof.Gen.KernelIdeal.Launch
import proofs.«900362_g7700000000000363_dist_halo3d_v7x_xyz2x2x2_s32_bf16_1_alg».proof.Proof.Gen.KernelIdeal.Points
import proofs.«900362_g7700000000000363_dist_halo3d_v7x_xyz2x2x2_s32_bf16_1_alg».proof.Proof.KernelIdealMesh
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The contents of a 32×32×32 block buffer and of a 32×32 face buffer. -/
abbrev Blk (F : FTy → Type) : Type := (cc0_stg0_0 : Ref sig .tc).ty.Contents (Elt F)
abbrev Face (F : FTy → Type) : Type := (cc0_scratch0 : Ref sig .tc).ty.Contents (Elt F)

/-- Device `c`'s block of the argument array, as staged. -/
def xstg (c : Dev nD) : Blk F :=
  (win0_0.blk (0 : Fin 1)).view.read (Elt F) (m ((c : Thread nD τ).loc main_arg0))

/-- The face sent along x, y, z: a selection between the last and the first plane by the device's coordinate. -/
def faceX (X : Blk F) (w : BitVec 32) : Face F :=
  k0_pay1 w ((xM : Memref sig .tc .vmem S32x32x32 .f32).view.readAt (Elt F) (Rect.unit (s := S32x32x32) ![31, 0, 0] S1x32x32.size inb_S32x32x32_S1x32x32_31_0_0).toLoadRect X)
    ((xM : Memref sig .tc .vmem S32x32x32 .f32).view.readAt (Elt F) (Rect.unit (s := S32x32x32) ![0, 0, 0] S1x32x32.size inb_S32x32x32_S1x32x32_0_0_0).toLoadRect X)
def faceY (X : Blk F) (w : BitVec 32) : Face F :=
  k0_pay2 w ((xM : Memref sig .tc .vmem S32x32x32 .f32).view.readAt (Elt F) (Rect.unit (s := S32x32x32) ![0, 31, 0] S32x1x32.size inb_S32x32x32_S32x1x32_0_31_0).toLoadRect X)
    ((xM : Memref sig .tc .vmem S32x32x32 .f32).view.readAt (Elt F) (Rect.unit (s := S32x32x32) ![0, 0, 0] S32x1x32.size inb_S32x32x32_S32x1x32_0_0_0).toLoadRect X)
def faceZ (X : Blk F) (w : BitVec 32) : Face F :=
  k0_pay4 (Scalar.cmpi .eq w 0#32)
    (k0_pay3 ((xM : Memref sig .tc .vmem S32x32x32 .f32).view.readAt (Elt F) (Rect.unit (s := S32x32x32) ![0, 0, 31] S32x32x1.size inb_S32x32x32_S32x32x1_0_0_31).toLoadRect X))
    ((xM : Memref sig .tc .vmem S32x32x32 .f32).view.readAt (Elt F) (Rect.unit (s := S32x32x32) ![0, 0, 0] S32x32x1.size inb_S32x32x32_S32x32x1_0_0_0).toLoadRect X)

/-- The face device `c` sends along axis `a`. -/
def face (a : Fin 3) (c : Dev nD) : Face F :=
  if a = 0 then faceX (xstg m c) (wx c) else if a = 1 then faceY (xstg m c) (wy c) else faceZ (xstg m c) (wz c)

/-- The kernel's result on device `c`: the body's last payload of its own block (read whole) and of the three faces its
    neighbours sent (each read whole from its receive buffer). -/
def outAt (c : Dev nD) : Blk F :=
  k0_pay10 (wx c) (wy c) (wz c) (iota .tc S32x1x1 32 [0] iota_S32x1x1_d0_w32) (iota .tc S1x32x1 32 [1] iota_S1x32x1_d1_w32) (iota .tc S1x1x32 32 [2] iota_S1x1x32_d2_w32)
    (k0_pay6 (F := F))
    (k0_pay7 (Scalar.muli (Scalar.subi 1#32 (wx c)) 31#32) (Scalar.muli (Scalar.subi 1#32 (wy c)) 31#32)
      (k0_pay5 ((xM : Memref sig .tc .vmem S32x32x32 .f32).view.readAt (Elt F) (Rect.unit (s := S32x32x32) ![0, 0, 0] S32x32x32.size inb_S32x32x32_S32x32x32_0_0_0).toLoadRect (xstg m c)))
      ((rxM : Memref sig .tc .vmem S32x32 .f32).view.readAt (Elt F) (Rect.unit (s := S32x32) ![0, 0] S32x32.size inb_S32x32_S32x32_0_0).toLoadRect (face m 0 (fl 0 c)))
      ((ryM : Memref sig .tc .vmem S32x32 .f32).view.readAt (Elt F) (Rect.unit (s := S32x32) ![0, 0] S32x32.size inb_S32x32_S32x32_0_0).toLoadRect (face m 1 (fl 1 c))))
    (k0_pay8 (Scalar.muli (Scalar.subi 1#32 (wz c)) 31#32))
    (k0_pay9 ((rzM : Memref sig .tc .vmem S32x32 .f32).view.readAt (Elt F) (Rect.unit (s := S32x32) ![0, 0] S32x32.size inb_S32x32_S32x32_0_0).toLoadRect (face m 2 (fl 2 c))))

/-! ## The buffers as assertions -/

/-- Device `c`'s send buffer, and its receive buffer, of axis `a`, whole at contents `f`. -/
def sPts (a : Fin 3) (c : Dev nD) (f : Face F) : sProp 𝕄 :=
  if a = 0 then ((sxM : Memref sig .tc .vmem S32x32 .f32).view.loc (c : Thread nD τ) ↦[(sxM : Memref sig .tc .vmem S32x32 .f32).view.set]{fullShare} f) else if a = 1 then ((syM : Memref sig .tc .vmem S32x32 .f32).view.loc (c : Thread nD τ) ↦[(syM : Memref sig .tc .vmem S32x32 .f32).view.set]{fullShare} f)
  else ((szM : Memref sig .tc .vmem S32x32 .f32).view.loc (c : Thread nD τ) ↦[(szM : Memref sig .tc .vmem S32x32 .f32).view.set]{fullShare} f)
def rPts (a : Fin 3) (c : Dev nD) (f : Face F) : sProp 𝕄 :=
  if a = 0 then ((rxM : Memref sig .tc .vmem S32x32 .f32).view.loc (c : Thread nD τ) ↦[(rxM : Memref sig .tc .vmem S32x32 .f32).view.set]{fullShare} f) else if a = 1 then ((ryM : Memref sig .tc .vmem S32x32 .f32).view.loc (c : Thread nD τ) ↦[(ryM : Memref sig .tc .vmem S32x32 .f32).view.set]{fullShare} f)
  else ((rzM : Memref sig .tc .vmem S32x32 .f32).view.loc (c : Thread nD τ) ↦[(rzM : Memref sig .tc .vmem S32x32 .f32).view.set]{fullShare} f)

instance sPts_storable (a : Fin 3) (c : Dev nD) (f : Face F) : BI.Storable (upEmb : UEmb _ 𝕄) (sPts (F := F) a c f) := by
  unfold sPts; (repeat' split) <;> infer_instance
instance rPts_storable (a : Fin 3) (c : Dev nD) (f : Face F) : BI.Storable (upEmb : UEmb _ 𝕄) (rPts (F := F) a c f) := by
  unfold rPts; (repeat' split) <;> infer_instance

/-! ## The schedule -/

/-- Duty `a` of a device's entry cell, paid by its neighbour along `a`: that neighbour's receive buffer of the axis. -/
def barPay (a : Fin 3) (c : Dev nD) : sProp 𝕄 := iprop(∃ f : Face F, rPts a (fl a c) f)
/-- A send cell hands the send buffer back; a receive cell hands the receive buffer holding the neighbour's face. -/
def sendPay (a : Fin 3) (c : Dev nD) : sProp 𝕄 := sPts a c (face m a c)
def recvPay (a : Fin 3) (c : Dev nD) : sProp 𝕄 := rPts a c (face m a (fl a c))

/-- One round. An entry cell has the three duties, one unit each; a send or receive cell the duty `0` of the face's credit. -/
def haloRd : Rounds.Schedule (GSem nD τ sig) (Fin 3) 𝕄 where
  duties g r := if r = 0 ∧ g.1.2 = .tc then (if tag g.2 = 100 then Finset.univ else if 2 ≤ tag g.2 ∧ tag g.2 ≤ 7 then {0} else ∅) else ∅
  unitless _ := False
  amount g _ _ := if tag g.2 = 100 then 1 else N
  payload g _ d :=
    if tag g.2 = 100 then barPay d g.1.1
    else if tag g.2 = 2 then sendPay m 0 g.1.1 else if tag g.2 = 3 then sendPay m 1 g.1.1 else if tag g.2 = 4 then sendPay m 2 g.1.1
    else if tag g.2 = 5 then recvPay m 0 g.1.1 else if tag g.2 = 6 then recvPay m 1 g.1.1 else if tag g.2 = 7 then recvPay m 2 g.1.1
    else iprop(emp)
  amount_pos g _ _ _ := by
    by_cases h : tag g.2 = 100
    · rw [if_pos h]; exact Nat.one_pos
    · rw [if_neg h]; exact N_pos

instance haloRd_payload_storable (g : GSem nD τ sig) (r : ℕ) (d : Fin 3) :
    BI.Storable (upEmb : UEmb _ 𝕄) ((haloRd (F := F) m).payload g r d) := by
  show BI.Storable upEmb (if tag g.2 = 100 then barPay d g.1.1
    else if tag g.2 = 2 then sendPay m 0 g.1.1 else if tag g.2 = 3 then sendPay m 1 g.1.1 else if tag g.2 = 4 then sendPay m 2 g.1.1
    else if tag g.2 = 5 then recvPay m 0 g.1.1 else if tag g.2 = 6 then recvPay m 1 g.1.1 else if tag g.2 = 7 then recvPay m 2 g.1.1
    else iprop(emp))
  unfold barPay sendPay recvPay
  (repeat' split) <;> infer_instance

section Sched
variable (c : Dev nD) (a : Fin 3)

theorem duties_bar : (haloRd (F := F) m).duties (barCell c) 0 = Finset.univ := by
  dsimp only [haloRd]; rw [if_pos ⟨rfl, rfl⟩, if_pos tag_bar]
theorem duties_snd : (haloRd (F := F) m).duties (sndCell a c) 0 = {0} := by
  dsimp only [haloRd]; rw [if_pos ⟨rfl, rfl⟩, tag_snd, if_neg (by omega), if_pos (by omega)]
theorem duties_rcv : (haloRd (F := F) m).duties (rcvCell a c) 0 = {0} := by
  dsimp only [haloRd]; rw [if_pos ⟨rfl, rfl⟩, tag_rcv, if_neg (by omega), if_pos (by omega)]
theorem duties_later (g : GSem nD τ sig) : ∀ r, 1 ≤ r → (haloRd (F := F) m).duties g r = ∅ :=
  fun r hr => by dsimp only [haloRd]; rw [if_neg fun h => by omega]

theorem amount_bar (d : Fin 3) : (haloRd (F := F) m).amount (barCell c) 0 d = 1 := by dsimp only [haloRd]; exact if_pos rfl
theorem amount_snd (d : Fin 3) : (haloRd (F := F) m).amount (sndCell a c) 0 d = N := by
  dsimp only [haloRd]; rw [tag_snd, if_neg (by omega)]
theorem amount_rcv (d : Fin 3) : (haloRd (F := F) m).amount (rcvCell a c) 0 d = N := by
  dsimp only [haloRd]; rw [tag_rcv, if_neg (by omega)]

theorem expect_bar : (haloRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (haloRd (F := F) m).expect (sndCell a c) 0 = N := by
  unfold Schedule.expect Schedule.amountOf; rw [duties_snd, Finset.sum_singleton, amount_snd]
theorem expect_rcv : (haloRd (F := F) m).expect (rcvCell a c) 0 = N := by
  unfold Schedule.expect Schedule.amountOf; rw [duties_rcv, Finset.sum_singleton, amount_rcv]

theorem payload_bar (d : Fin 3) : (haloRd (F := F) m).payload (barCell c) 0 d = barPay d c := by dsimp only [haloRd]; rw [if_pos tag_bar]
theorem payload_snd (d : Fin 3) : (haloRd (F := F) m).payload (sndCell a c) 0 d = sendPay m a c := by
  fin_cases a <;> (dsimp only [haloRd]; rw [tag_snd]; rfl)
theorem payload_rcv (d : Fin 3) : (haloRd (F := F) m).payload (rcvCell a c) 0 d = recvPay m a c := by
  fin_cases a <;> (dsimp only [haloRd]; rw [tag_rcv]; rfl)

end Sched

end Cert.KernelIdeal.Halo

end
-- ==== Proof.KernelIdealData.lean ====
/-
  The halo exchange: what a device owes at launch, the levels that order the waits, the ghost state a device's
  body starts from, and the pipeline's proof data.

  A device owes each neighbour's entry cell one unit and each neighbour's receive cell (of the axis joining them)
  one face's credit. Entry cells sit at level 1, receive cells at level 2, everything else (the pipeline's own
  staging cells, the send cells) at level 0: the staging waits happen while everything is still owed, the entry
  wait while only the receive credits are owed, and every later wait once nothing is owed.
-/
import proofs.«900362_g7700000000000363_dist_halo3d_v7x_xyz2x2x2_s32_bf16_1_alg».proof.Proof.Gen.KernelIdeal
import proofs.«900362_g7700000000000363_dist_halo3d_v7x_xyz2x2x2_s32_bf16_1_alg».proof.Proof.Gen.KernelIdeal.Skeleton
import proofs.«900362_g7700000000000363_dist_halo3d_v7x_xyz2x2x2_s32_bf16_1_alg».proof.Proof.Gen.KernelIdeal.Launch
import proofs.«900362_g7700000000000363_dist_halo3d_v7x_xyz2x2x2_s32_bf16_1_alg».proof.Proof.Gen.KernelIdeal.Points
import proofs.«900362_g7700000000000363_dist_halo3d_v7x_xyz2x2x2_s32_bf16_1_alg».proof.Proof.KernelIdealSched
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The three receive credits, in the order the transfers are started last to first (y, x, z). -/
def OR (c : Dev nD) : CellTallies nD τ sig Unit :=
  tallyAt (rcvCell 1 (fl 1 c)) () N + tallyAt (rcvCell 0 (fl 0 c)) () N + tallyAt (rcvCell 2 (fl 2 c)) () N
/-- With the three entry units, in the order the signals are sent last to first (z, y, x). -/
def O₀ (c : Dev nD) : CellTallies nD τ sig Unit :=
  OR c + tallyAt (barCell (fl 2 c)) () 1 + tallyAt (barCell (fl 1 c)) () 1 + tallyAt (barCell (fl 0 c)) () 1

def L (g : GSem nD τ sig) : Finset Unit := if g.1.2 = .tc then {()} else ∅
def lv (g : GSem nD τ sig) (_ : Unit) : ℕ := if tag g.2 = 100 then 1 else if 5 ≤ tag g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) (u : Unit) : lv (barCell d) u = 1 := by dsimp only [lv]; rw [if_pos tag_bar]
theorem lv_rcv (a : Fin 3) (d : Dev nD) (u : Unit) : lv (rcvCell a d) u = 2 := by
  dsimp only [lv]; rw [tag_rcv, if_neg (by omega), if_pos (by omega)]

theorem tallyAt_pos {g' g : GSem nD τ sig} {u : Unit} {k : ℕ} (h : 0 < tallyAt g' () k g u) : g = g' := by
  rw [tallyAt_apply] at h
  by_contra hn
  rw [if_neg (fun h' => hn h'.1)] at h
  exact Nat.lt_irrefl 0 h

theorem OR_pos {c : Dev nD} {g : GSem nD τ sig} {u : Unit} (h : 0 < OR c g u) : ∃ a d, g = rcvCell a d := by
  unfold OR at h
  rcases Pipeline.add_pos_cases h with h | h
  · rcases Pipeline.add_pos_cases h with h | h
    · exact ⟨1, _, tallyAt_pos h⟩
    · exact ⟨0, _, tallyAt_pos h⟩
  · exact ⟨2, _, tallyAt_pos h⟩

theorem O₀_pos {c : Dev nD} {g : GSem nD τ sig} {u : Unit} (h : 0 < O₀ c g u) : (∃ a d, g = rcvCell a d) ∨ (∃ d, g = barCell d) := by
  unfold O₀ at h
  rcases Pipeline.add_pos_cases h with h | h
  · rcases Pipeline.add_pos_cases h with h | h
    · rcases Pipeline.add_pos_cases h with h | h
      · exact Or.inl (OR_pos h)
      · exact Or.inr ⟨_, tallyAt_pos h⟩
    · exact Or.inr ⟨_, tallyAt_pos h⟩
  · exact Or.inr ⟨_, tallyAt_pos h⟩

/-- A wait on a cell of level 0 (a staging cell, a send cell) while owing only entry units and receive credits. -/
theorem mayWait_low (c : Dev nD) (s : SemLoc sig) (hs : tag s < 5) (O : CellTallies nD τ sig Unit)
    (hO : ∀ g u, 0 < O g u → (∃ a d, g = rcvCell a d) ∨ (∃ d, g = barCell d)) :
    (levAts L lv : sProp 𝕄) ⊢ MayWait (c : Thread nD τ) s () O :=
  Pipeline.mayWait_of_levAts (by rw [L_tc]; exact Finset.mem_singleton_self _) (fun g i hg => by
    have h0 : lv ((c : Thread nD τ), s) () = 0 := by dsimp only [lv]; rw [if_neg (by omega), if_neg (by omega)]
    rcases hO g i hg with ⟨a, d, rfl⟩ | ⟨d, rfl⟩
    · exact ⟨by rw [L_tc]; exact Finset.mem_singleton.mpr rfl, by rw [h0, lv_rcv]; decide⟩
    · exact ⟨by rw [L_tc]; exact Finset.mem_singleton.mpr rfl, by rw [h0, lv_bar]; decide⟩)

/-- The wait on the entry cell while owing only receive credits. -/
theorem mayWait_bar (c : Dev nD) (O : CellTallies nD τ sig Unit) (hO : ∀ g u, 0 < O g u → ∃ a d, g = rcvCell a d) :
    (levAts L lv : sProp 𝕄) ⊢ MayWait (c : Thread nD τ) (.reg barS) () O :=
  Pipeline.mayWait_of_levAts (by rw [L_tc]; exact Finset.mem_singleton_self _) (fun g i hg => by
    obtain ⟨a, d, rfl⟩ := hO g i hg
    exact ⟨by rw [L_tc]; exact Finset.mem_singleton.mpr rfl, by rw [lv_bar, lv_rcv]; decide⟩)

/-! ## The ghost state a device's body starts from -/

/-- The invariants device `c`'s body opens, under the names `K` they were allocated at: its own seven cells, its three
    neighbours' entry cells (its signals) and their receive cells of the joining axis (its transfers). -/
def invs (K : Dev nD × Fin 7 → ℕ) (c : Dev nD) : sProp 𝕄 :=
  iprop(cellInv ER (haloRd m) (K (c, 0)) (barCell c)
    ∗ cellInv ER (haloRd m) (K (c, 1)) (sndCell 0 c)
    ∗ cellInv ER (haloRd m) (K (c, 2)) (sndCell 1 c)
    ∗ cellInv ER (haloRd m) (K (c, 3)) (sndCell 2 c)
    ∗ cellInv ER (haloRd m) (K (c, 4)) (rcvCell 0 c)
    ∗ cellInv ER (haloRd m) (K (c, 5)) (rcvCell 1 c)
    ∗ cellInv ER (haloRd m) (K (c, 6)) (rcvCell 2 c)
    ∗ cellInv ER (haloRd m) (K (fl 0 c, 0)) (barCell (fl 0 c))
    ∗ cellInv ER (haloRd m) (K (fl 1 c, 0)) (barCell (fl 1 c))
    ∗ cellInv ER (haloRd m) (K (fl 2 c, 0)) (barCell (fl 2 c))
    ∗ cellInv ER (haloRd m) (K (fl 0 c, 4)) (rcvCell 0 (fl 0 c))
    ∗ cellInv ER (haloRd m) (K (fl 1 c, 5)) (rcvCell 1 (fl 1 c))
    ∗ cellInv ER (haloRd m) (K (fl 2 c, 6)) (rcvCell 2 (fl 2 c)))

instance invs_persistent (K : Dev nD × Fin 7 → ℕ) (c : Dev nD) : BI.Persistent (invs m K c) := by unfold invs; infer_instance

/-- Its positions at round 0 of its seven cells; the reached-marks of the cells it pays; the nine duty tokens it pays with. -/
def ghost (K : Dev nD × Fin 7 → ℕ) (c : Dev nD) : sProp 𝕄 :=
  iprop(invs m K c
    ∗ atPos ER (barCell c) 0 ∅ 0
    ∗ atPos ER (sndCell 0 c) 0 ∅ 0
    ∗ atPos ER (sndCell 1 c) 0 ∅ 0
    ∗ atPos ER (sndCell 2 c) 0 ∅ 0
    ∗ atPos ER (rcvCell 0 c) 0 ∅ 0
    ∗ atPos ER (rcvCell 1 c) 0 ∅ 0
    ∗ atPos ER (rcvCell 2 c) 0 ∅ 0
    ∗ reached ER (barCell (fl 0 c)) 0
    ∗ reached ER (barCell (fl 1 c)) 0
    ∗ reached ER (barCell (fl 2 c)) 0
    ∗ reached ER (rcvCell 0 (fl 0 c)) 0
    ∗ reached ER (rcvCell 1 (fl 1 c)) 0
    ∗ reached ER (rcvCell 2 (fl 2 c)) 0
    ∗ reached ER (sndCell 0 c) 0
    ∗ reached ER (sndCell 1 c) 0
    ∗ reached ER (sndCell 2 c) 0
    ∗ dutyTok ER (barCell (fl 0 c)) 0 (0 : Fin 3)
    ∗ dutyTok ER (barCell (fl 1 c)) 0 (1 : Fin 3)
    ∗ dutyTok ER (barCell (fl 2 c)) 0 (2 : Fin 3)
    ∗ dutyTok ER (rcvCell 0 (fl 0 c)) 0 (0 : Fin 3)
    ∗ dutyTok ER (rcvCell 1 (fl 1 c)) 0 (0 : Fin 3)
    ∗ dutyTok ER (rcvCell 2 (fl 2 c)) 0 (0 : Fin 3)
    ∗ dutyTok ER (sndCell 0 c) 0 (0 : Fin 3)
    ∗ dutyTok ER (sndCell 1 c) 0 (0 : Fin 3)
    ∗ dutyTok ER (sndCell 2 c) 0 (0 : Fin 3))

/-- With the credit of its own entry cell (three units) and of its three receive cells, and the level facts. -/
def start (c : Dev nD) : sProp 𝕄 :=
  iprop((∃ K, ghost m K c) ∗ cred (tallyAt (barCell c) () 3)
    ∗ cred (tallyAt (rcvCell 0 c) () N) ∗ cred (tallyAt (rcvCell 1 c) () N) ∗ cred (tallyAt (rcvCell 2 c) () N) ∗ levAts L lv)

/-- The six face buffers at some contents. -/
def faces (c : Dev nD) : sProp 𝕄 :=
  iprop((∃ f : Face F, ((sxM : Memref sig .tc .vmem S32x32 .f32).view.loc (c : Thread nD τ) ↦[(sxM : Memref sig .tc .vmem S32x32 .f32).view.set]{fullShare} f))
    ∗ (∃ f : Face F, ((syM : Memref sig .tc .vmem S32x32 .f32).view.loc (c : Thread nD τ) ↦[(syM : Memref sig .tc .vmem S32x32 .f32).view.set]{fullShare} f))
    ∗ (∃ f : Face F, ((szM : Memref sig .tc .vmem S32x32 .f32).view.loc (c : Thread nD τ) ↦[(szM : Memref sig .tc .vmem S32x32 .f32).view.set]{fullShare} f))
    ∗ (∃ f : Face F, ((rxM : Memref sig .tc .vmem S32x32 .f32).view.loc (c : Thread nD τ) ↦[(rxM : Memref sig .tc .vmem S32x32 .f32).view.set]{fullShare} f))
    ∗ (∃ f : Face F, ((ryM : Memref sig .tc .vmem S32x32 .f32).view.loc (c : Thread nD τ) ↦[(ryM : Memref sig .tc .vmem S32x32 .f32).view.set]{fullShare} f))
    ∗ (∃ f : Face F, ((rzM : Memref sig .tc .vmem S32x32 .f32).view.loc (c : Thread nD τ) ↦[(rzM : Memref sig .tc .vmem S32x32 .f32).view.set]{fullShare} f)))

def Φ₀ (c : Dev nD) : sProp 𝕄 := iprop(start m c ∗ faces c)
/-- After the point: the face buffers back, the six own cells at zero (the entry cell is the runtime's). -/
def Φ₁ (c : Dev nD) : sProp 𝕄 :=
  iprop(faces (F := F) c ∗ semVal (sndCell 0 c) 0 ∗ semVal (sndCell 1 c) 0 ∗ semVal (sndCell 2 c) 0
    ∗ semVal (rcvCell 0 c) 0 ∗ semVal (rcvCell 1 c) 0 ∗ semVal (rcvCell 2 c) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Halo

end
-- ==== Proof.KernelIdealBody.lean ====
/-
  The halo exchange: one device's body, stepped from the ghost state it starts with to the state it leaves.

  In program order: the three entry signals (each hands the neighbour this device's receive buffer of the joining
  axis), the three faces stored into the send buffers, the wait for three entry units (each brings a neighbour's
  receive buffer), the three transfers into those buffers, the stencil of the device's own block, the three waits
  for the neighbours' faces, the result stored, and the three waits that bring the send buffers back.
-/
import proofs.«900362_g7700000000000363_dist_halo3d_v7x_xyz2x2x2_s32_bf16_1_alg».proof.Proof.Gen.KernelIdeal
import proofs.«900362_g7700000000000363_dist_halo3d_v7x_xyz2x2x2_s32_bf16_1_alg».proof.Proof.Gen.KernelIdeal.Skeleton
import proofs.«900362_g7700000000000363_dist_halo3d_v7x_xyz2x2x2_s32_bf16_1_alg».proof.Proof.Gen.KernelIdeal.Launch
import proofs.«900362_g7700000000000363_dist_halo3d_v7x_xyz2x2x2_s32_bf16_1_alg».proof.Proof.Gen.KernelIdeal.Points
import proofs.«900362_g7700000000000363_dist_halo3d_v7x_xyz2x2x2_s32_bf16_1_alg».proof.Proof.KernelIdealData
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

/-! ## The schedule's tables as the stepping reads them: the entry on the left, a payload as the buffer it hands over -/

theorem tbl_duties_bar (c : Dev nD) : (haloRd (F := F) m).duties (barCell c) 0 = {0, 1, 2} := by rw [duties_bar]; decide

theorem tbl_payload_snd0 (c : Dev nD) (d : Fin 3) : (haloRd (F := F) m).payload (sndCell 0 c) 0 d = (((sxM : Memref sig .tc .vmem S32x32 .f32).view.loc (c : Thread nD τ) ↦[(sxM : Memref sig .tc .vmem S32x32 .f32).view.set]{fullShare} face m 0 c) : sProp 𝕄) := by
  rw [payload_snd]; unfold sendPay sPts; rfl
theorem tbl_payload_rcv0 (c : Dev nD) (d : Fin 3) : (haloRd (F := F) m).payload (rcvCell 0 c) 0 d = (((rxM : Memref sig .tc .vmem S32x32 .f32).view.loc (c : Thread nD τ) ↦[(rxM : Memref sig .tc .vmem S32x32 .f32).view.set]{fullShare} face m 0 (fl 0 c)) : sProp 𝕄) := by
  rw [payload_rcv]; unfold recvPay rPts; rfl
theorem tbl_payload_bar0 (c : Dev nD) : (haloRd (F := F) m).payload (barCell c) 0 (0 : Fin 3)
    = (iprop(∃ f : Face F, ((rxM : Memref sig .tc .vmem S32x32 .f32).view.loc (fl 0 c : Thread nD τ) ↦[(rxM : Memref sig .tc .vmem S32x32 .f32).view.set]{fullShare} f)) : sProp 𝕄) := by
  rw [payload_bar]; unfold barPay rPts; rfl
theorem respell_r0 (c : Dev nD) (f : Face F) : (((rxM : Memref sig .tc .vmem S32x32 .f32).view.loc (c : Thread nD τ) ↦[(rxM : Memref sig .tc .vmem S32x32 .f32).view.set]{fullShare} f) : sProp 𝕄) = ((rxM : Memref sig .tc .vmem S32x32 .f32).view.loc (fl 0 (fl 0 c) : Thread nD τ) ↦[(rxM : Memref sig .tc .vmem S32x32 .f32).view.set]{fullShare} f) := by
  rw [fl_fl]

theorem tbl_payload_snd1 (c : Dev nD) (d : Fin 3) : (haloRd (F := F) m).payload (sndCell 1 c) 0 d = (((syM : Memref sig .tc .vmem S32x32 .f32).view.loc (c : Thread nD τ) ↦[(syM : Memref sig .tc .vmem S32x32 .f32).view.set]{fullShare} face m 1 c) : sProp 𝕄) := by
  rw [payload_snd]; unfold sendPay sPts; rfl
theorem tbl_payload_rcv1 (c : Dev nD) (d : Fin 3) : (haloRd (F := F) m).payload (rcvCell 1 c) 0 d = (((ryM : Memref sig .tc .vmem S32x32 .f32).view.loc (c : Thread nD τ) ↦[(ryM : Memref sig .tc .vmem S32x32 .f32).view.set]{fullShare} face m 1 (fl 1 c)) : sProp 𝕄) := by
  rw [payload_rcv]; unfold recvPay rPts; rfl
theorem tbl_payload_bar1 (c : Dev nD) : (haloRd (F := F) m).payload (barCell c) 0 (1 : Fin 3)
    = (iprop(∃ f : Face F, ((ryM : Memref sig .tc .vmem S32x32 .f32).view.loc (fl 1 c : Thread nD τ) ↦[(ryM : Memref sig .tc .vmem S32x32 .f32).view.set]{fullShare} f)) : sProp 𝕄) := by
  rw [payload_bar]; unfold barPay rPts; rfl
theorem respell_r1 (c : Dev nD) (f : Face F) : (((ryM : Memref sig .tc .vmem S32x32 .f32).view.loc (c : Thread nD τ) ↦[(ryM : Memref sig .tc .vmem S32x32 .f32).view.set]{fullShare} f) : sProp 𝕄) = ((ryM : Memref sig .tc .vmem S32x32 .f32).view.loc (fl 1 (fl 1 c) : Thread nD τ) ↦[(ryM : Memref sig .tc .vmem S32x32 .f32).view.set]{fullShare} f) := by
  rw [fl_fl]

theorem tbl_payload_snd2 (c : Dev nD) (d : Fin 3) : (haloRd (F := F) m).payload (sndCell 2 c) 0 d = (((szM : Memref sig .tc .vmem S32x32 .f32).view.loc (c : Thread nD τ) ↦[(szM : Memref sig .tc .vmem S32x32 .f32).view.set]{fullShare} face m 2 c) : sProp 𝕄) := by
  rw [payload_snd]; unfold sendPay sPts; rfl
theorem tbl_payload_rcv2 (c : Dev nD) (d : Fin 3) : (haloRd (F := F) m).payload (rcvCell 2 c) 0 d = (((rzM : Memref sig .tc .vmem S32x32 .f32).view.loc (c : Thread nD τ) ↦[(rzM : Memref sig .tc .vmem S32x32 .f32).view.set]{fullShare} face m 2 (fl 2 c)) : sProp 𝕄) := by
  rw [payload_rcv]; unfold recvPay rPts; rfl
theorem tbl_payload_bar2 (c : Dev nD) : (haloRd (F := F) m).payload (barCell c) 0 (2 : Fin 3)
    = (iprop(∃ f : Face F, ((rzM : Memref sig .tc .vmem S32x32 .f32).view.loc (fl 2 c : Thread nD τ) ↦[(rzM : Memref sig .tc .vmem S32x32 .f32).view.set]{fullShare} f)) : sProp 𝕄) := by
  rw [payload_bar]; unfold barPay rPts; rfl
theorem respell_r2 (c : Dev nD) (f : Face F) : (((rzM : Memref sig .tc .vmem S32x32 .f32).view.loc (c : Thread nD τ) ↦[(rzM : Memref sig .tc .vmem S32x32 .f32).view.set]{fullShare} f) : sProp 𝕄) = ((rzM : Memref sig .tc .vmem S32x32 .f32).view.loc (fl 2 (fl 2 c) : Thread nD τ) ↦[(rzM : Memref sig .tc .vmem S32x32 .f32).view.set]{fullShare} f) := by
  rw [fl_fl]

theorem fl_fl' (a : Fin 3) (c : Dev nD) : fl a (fl a c) = c := fl_fl a c

attribute [local sl_rounds] tbl_duties_bar duties_snd duties_rcv amount_bar amount_snd amount_rcv expect_bar expect_snd expect_rcv
  tbl_payload_snd0 tbl_payload_snd1 tbl_payload_snd2 tbl_payload_rcv0 tbl_payload_rcv1 tbl_payload_rcv2
  tbl_payload_bar0 tbl_payload_bar1 tbl_payload_bar2 fl_fl'

/-- The staged block and the result's staging buffer, through their memrefs' views. -/
theorem xPts_eq (c : Dev nD) (f : Blk F) :
    ((xM : Memref sig .tc .vmem S32x32x32 .f32).view.loc (c : Thread nD τ) ↦[(xM : Memref sig .tc .vmem S32x32x32 .f32).view.set]{fullShare} f : sProp 𝕄)
      = (((c : Thread nD τ).loc cc0_stg0_0) ↦{fullShare} f) := by rw [View.set_whole]
theorem oPts_eq (c : Dev nD) (f : Blk F) :
    ((oM : Memref sig .tc .vmem S32x32x32 .f32).view.loc (c : Thread nD τ) ↦[(oM : Memref sig .tc .vmem S32x32x32 .f32).view.set]{fullShare} f : sProp 𝕄)
      = (((c : Thread nD τ).loc cc0_stg1_0) ↦{fullShare} f) := by rw [View.set_whole]

theorem hz2 : (![0, 0] : Fin 2 → Nat) = fun _ => 0 := funext fun a => by fin_cases a <;> rfl

/-- One store through the whole rectangle of a face buffer leaves what was stored. -/
theorem writes_sx (f w : Face F) :
    (sxM : Memref sig .tc .vmem S32x32 .f32).view.writes (Elt F) f [⟨Rect.unit (s := S32x32) ![0, 0] S32x32.size inb_S32x32_S32x32_0_0, w⟩] = w :=
  (View.writes_singleton _ _ _ _).trans (Memref.write_access_unit_zero_univ (Elt F) cc0_scratch0 hz2 _ f w)

/-- One store through the whole rectangle of a face buffer leaves what was stored. -/
theorem writes_sy (f w : Face F) :
    (syM : Memref sig .tc .vmem S32x32 .f32).view.writes (Elt F) f [⟨Rect.unit (s := S32x32) ![0, 0] S32x32.size inb_S32x32_S32x32_0_0, w⟩] = w :=
  (View.writes_singleton _ _ _ _).trans (Memref.write_access_unit_zero_univ (Elt F) cc0_scratch1 hz2 _ f w)

/-- One store through the whole rectangle of a face buffer leaves what was stored. -/
theorem writes_sz (f w : Face F) :
    (szM : Memref sig .tc .vmem S32x32 .f32).view.writes (Elt F) f [⟨Rect.unit (s := S32x32) ![0, 0] S32x32.size inb_S32x32_S32x32_0_0, w⟩] = w :=
  (View.writes_singleton _ _ _ _).trans (Memref.write_access_unit_zero_univ (Elt F) cc0_scratch2 hz2 _ f w)

theorem hz3 : (![0, 0, 0] : Fin 3 → Nat) = fun _ => 0 := funext fun a => by fin_cases a <;> rfl
/-- One store through the whole rectangle of the result's staging buffer leaves what was stored. -/
theorem writes_o (f w : Blk F) :
    (oM : Memref sig .tc .vmem S32x32x32 .f32).view.writes (Elt F) f [⟨Rect.unit (s := S32x32x32) ![0, 0, 0] S32x32x32.size inb_S32x32x32_S32x32x32_0_0_0, w⟩] = w :=
  (View.writes_singleton _ _ _ _).trans (Memref.write_access_unit_zero_univ (Elt F) cc0_stg1_0 hz3 _ f w)

section Body

variable (K : Dev nD × Fin 7 → ℕ)

def bodyPre (c : Dev nD) : sProp 𝕄 :=
  iprop((ghost m K c ∗ cred (tallyAt (barCell c) () 3)
      ∗ cred (tallyAt (rcvCell 0 c) () N) ∗ cred (tallyAt (rcvCell 1 c) () N) ∗ cred (tallyAt (rcvCell 2 c) () N) ∗ levAts L lv ∗ faces c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

set_option maxHeartbeats 3200000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7) Kt := by
  unfold bodyPre ghost invs faces
  iintro ⟨⟨⟨⟨⟨#HI0, #HI1, #HI2, #HI3, #HI4, #HI5, #HI6, #HI7, #HI8, #HI9, #HI10, #HI11, #HI12⟩, Hat0, Hat1, Hat2, Hat3, Hat4, Hat5, Hat6, #Hr0, #Hr1, #Hr2, #Hr3, #Hr4, #Hr5, #Hr6, #Hr7, #Hr8, Ht0, Ht1, Ht2, Ht3, Ht4, Ht5, Ht6, Ht7, Ht8⟩, HcB, HcR0, HcR1, HcR2, #Hlev,
    ⟨%fs0, Hsx⟩, ⟨%fs1, Hsy⟩, ⟨%fs2, Hsz⟩, ⟨%fr0, Hrx0⟩, ⟨%fr1, Hry0⟩, ⟨%fr2, Hrz0⟩⟩,
    Ho, ⟨%d0, %g0, %hg0, Hx0⟩, ⟨%d1, %g1, %hg1, Hout0⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ OR
  ihave Hx := (Entails.of_eq (xPts_eq c (xstg m c)).symm) $$ Hx0
  ihave Hout := (Entails.of_eq (oPts_eq c g1).symm) $$ Hout0
  ihave Hrx := (Entails.of_eq (respell_r0 c fr0)) $$ Hrx0
  ihave Hry := (Entails.of_eq (respell_r1 c fr1)) $$ Hry0
  ihave Hrz := (Entails.of_eq (respell_r2 c fr2)) $$ Hrz0
  have hd1 := dev1_eq c; have hd2 := dev2_eq c; have hd3 := dev3_eq c; have hd4 := dev4_eq c; have hd5 := dev5_eq c; have hd6 := dev6_eq c
  sl_unfold [cc0_body]
  have hmw : (levAts L lv : sProp 𝕄) ⊢ MayWait (c : Thread nD τ) (.reg barS) ()
      (tallyAt (rcvCell 1 (fl 1 c)) () N + tallyAt (rcvCell 0 (fl 0 c)) () N + tallyAt (rcvCell 2 (fl 2 c)) () N) :=
    mayWait_bar c _ (fun g u h => OR_pos (c := c) h)
  clear hg0 hg1
  -- the three signals, the three faces stored, the entry wait
  sl_exec
  ihave Hp := (show ∀ P Q R : sProp 𝕄, (BI.sep P (BI.sep Q R)) ⊢ iprop(P ∗ Q ∗ R) from fun _ _ _ => BI.Entails.refl _) _ _ _ $$ Hat0_pay1
  icases Hp with ⟨⟨%gx, Hnx⟩, ⟨%gy, Hny⟩, ⟨%gz, Hnz⟩⟩
  -- what was stored into the send buffers is the three faces
  have ex : sound_body.sl.v45 m c = face m 0 c := rfl
  have ey : sound_body.sl.v54 m c = face m 1 c := rfl
  have ez : sound_body.sl.v63 m c = face m 2 c := rfl
  rw [ex, ey, ez, writes_sx, writes_sy, writes_sz]
  clear ex ey ez hmw
  -- the three transfers, the stencil, the three receive waits, the result stored, the three send waits
  sl_exec
  have eo : k0_pay10 (sound_body.sl.v2 c) (sound_body.sl.v5 c) (sound_body.sl.v8 c) sound_body.sl.v146 sound_body.sl.v147
      sound_body.sl.v148 (k0_pay6 (F := F)) (sound_body.sl.r_2 m c) (sound_body.sl.r_3 c) (sound_body.sl.r_4 m c) = outAt m c := rfl
  rw [eo, writes_o]
  clear eo
  -- the six own cells close: their counters at zero are the device's again
  imod (Rounds.cell_close ER (haloRd m) (Set.mem_univ (K (c, 1))) (fun h => h) (R := 0 + 1) (duties_later m (sndCell 0 c))) $$ [Hat1] with Hz1
  · isplitr; · iexact HI1
    iexact Hat1
  imod (Rounds.cell_close ER (haloRd m) (Set.mem_univ (K (c, 2))) (fun h => h) (R := 0 + 1) (duties_later m (sndCell 1 c))) $$ [Hat2] with Hz2
  · isplitr; · iexact HI2
    iexact Hat2
  imod (Rounds.cell_close ER (haloRd m) (Set.mem_univ (K (c, 3))) (fun h => h) (R := 0 + 1) (duties_later m (sndCell 2 c))) $$ [Hat3] with Hz3
  · isplitr; · iexact HI3
    iexact Hat3
  imod (Rounds.cell_close ER (haloRd m) (Set.mem_univ (K (c, 4))) (fun h => h) (R := 0 + 1) (duties_later m (rcvCell 0 c))) $$ [Hat4] with Hz4
  · isplitr; · iexact HI4
    iexact Hat4
  imod (Rounds.cell_close ER (haloRd m) (Set.mem_univ (K (c, 5))) (fun h => h) (R := 0 + 1) (duties_later m (rcvCell 1 c))) $$ [Hat5] with Hz5
  · isplitr; · iexact HI5
    iexact Hat5
  imod (Rounds.cell_close ER (haloRd m) (Set.mem_univ (K (c, 6))) (fun h => h) (R := 0 + 1) (duties_later m (rcvCell 2 c))) $$ [Hat6] with Hz6
  · isplitr; · iexact HI6
    iexact Hat6
  rw [wp_ret]; imodintro
  iapply Hk
  unfold bodyPost Φ₁ faces Dat.owesAt Pipeline.owesWithin
  rw [show (dats m 0 c).owed t₀.succ = 0 from rfl]
  isplitl [Hat1_pay1 Hat2_pay1 Hat3_pay1 Hat4_pay1 Hat5_pay1 Hat6_pay1 Hz1 Hz2 Hz3 Hz4 Hz5 Hz6]
  · isplitl [Hat1_pay1 Hat2_pay1 Hat3_pay1 Hat4_pay1 Hat5_pay1 Hat6_pay1]
    · isplitl [Hat1_pay1]; · iexists _; iexact Hat1_pay1
      isplitl [Hat2_pay1]; · iexists _; iexact Hat2_pay1
      isplitl [Hat3_pay1]; · iexists _; iexact Hat3_pay1
      isplitl [Hat4_pay1]; · iexists _; iexact Hat4_pay1
      isplitl [Hat5_pay1]; · iexists _; iexact Hat5_pay1
      iexists _; iexact Hat6_pay1
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists (insert (SemLoc.dma sqY.sem, ()) (insert (SemLoc.dma sqX.sem, ()) (insert (SemLoc.dma sqZ.sem, ())
      (insert (SemLoc.dma rqY.sem, ()) (insert (SemLoc.dma rqX.sem, ()) (insert (SemLoc.dma rqZ.sem, ()) (insert (SemLoc.reg barS, ()) W)))))))
    isplitr; · ipureintro; exact fun _ _ => Or.inl trivial
    iexact HO
  ihave Hx' := (Entails.of_eq (xPts_eq c (xstg m c))) $$ Hx
  ihave Hout' := (Entails.of_eq (oPts_eq c (outAt m c))) $$ Hout
  isplitl [Hx']
  · iexists _; isplitr; · (ipureintro; rfl)
    iexact Hx'
  iexists _; isplitr; · (ipureintro; rfl)
  iexact Hout'

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx] <;> iassumption
  · iintro H; iexact H

end Body

end Cert.KernelIdeal.Halo

end
-- ==== Proof.KernelIdealLaunch.lean ====
/-
  The halo exchange: the launch.

  The exchange's ghost state is allocated for all eight devices at once, because a cell's invariant is shared by
  the device that owns the cell and the neighbour that pays into it. Each device is dealt the round state, the
  position and the duty tokens of its own seven cells; the tokens are then passed to the devices that pay them:
  duty `a` of an entry cell and the duty of a receive cell of axis `a` go to the neighbour along `a`, the duty of a
  send cell stays. The launch credit is what the neighbours owe: three entry units and one face's credit per axis.
-/
import proofs.«900362_g7700000000000363_dist_halo3d_v7x_xyz2x2x2_s32_bf16_1_alg».proof.Proof.Gen.KernelIdeal
import proofs.«900362_g7700000000000363_dist_halo3d_v7x_xyz2x2x2_s32_bf16_1_alg».proof.Proof.Gen.KernelIdeal.Skeleton
import proofs.«900362_g7700000000000363_dist_halo3d_v7x_xyz2x2x2_s32_bf16_1_alg».proof.Proof.Gen.KernelIdeal.Launch
import proofs.«900362_g7700000000000363_dist_halo3d_v7x_xyz2x2x2_s32_bf16_1_alg».proof.Proof.Gen.KernelIdeal.Points
import proofs.«900362_g7700000000000363_dist_halo3d_v7x_xyz2x2x2_s32_bf16_1_alg».proof.Proof.KernelIdealBody
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens as finite sets -/

/-- The kernel's own (scoped) semaphores, as the launch theorem indexes them: the three send, the three receive. -/
abbrev osem : Fin 6 → SemLoc sig := fun | 0 => sndS 0 | 1 => sndS 1 | 2 => sndS 2 | 3 => rcvS 0 | 4 => rcvS 1 | 5 => rcvS 2
/-- All seven of a device's cells: the entry cell, then the own ones. -/
abbrev csem : Fin 7 → SemLoc sig := fun | 0 => .reg barS | 1 => sndS 0 | 2 => sndS 1 | 3 => sndS 2 | 4 => rcvS 0 | 5 => rcvS 1 | 6 => rcvS 2
abbrev kcell (ck : Dev nD × Fin 7) : GSem nD τ sig := ((ck.1 : Thread nD τ), csem ck.2)

theorem ownSemFacts : Pipeline.OwnSemFacts cfg0.spec osem := by decide

theorem share_eq (c : Dev nD) (w : Fin cfg0.W) : (dats m 0 c).share w = fullShare := by unfold Dat.share; split <;> rfl

theorem csem_inj : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]
def haloCells : Finset (GSem nD τ sig) := Finset.univ.map ⟨kcell, kcell_injective⟩

/-- A device's own cells' duty tokens as minted: which cell and which duty. -/
abbrev tokKey : Fin 9 → SemLoc sig × Fin 3 := fun
  | 0 => (.reg barS, 0) | 1 => (.reg barS, 1) | 2 => (.reg barS, 2)
  | 3 => (sndS 0, 0) | 4 => (sndS 1, 0) | 5 => (sndS 2, 0)
  | 6 => (rcvS 0, 0) | 7 => (rcvS 1, 0) | 8 => (rcvS 2, 0)
theorem tokKey_inj : Function.Injective tokKey := by decide
abbrev tokOf (cj : Dev nD × Fin 9) : GSem nD τ sig × ℕ × Fin 3 := (((cj.1 : Thread nD τ), (tokKey cj.2).1), 0, (tokKey cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_inj h2]
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  bigSep Finset.univ fun j : Fin 9 => dutyTok ER (tokOf (c, j)).1 (tokOf (c, j)).2.1 (tokOf (c, j)).2.2

/-- What the launch element deals device `c`. -/
def G (c : Dev nD) : sProp 𝕄 :=
  iprop((bigSep Finset.univ fun k : Fin 7 => roundState ER (haloRd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sndCell 0 c) 0 ∗ semVal (sndCell 1 c) 0 ∗ semVal (sndCell 2 c) 0 ∗ semVal (rcvCell 0 c) 0 ∗ semVal (rcvCell 1 c) 0 ∗ semVal (rcvCell 2 c) 0) := by
  rw [Pipeline.ownSems0_eq_of_list c osem [0, 1, 2, 3, 4, 5] (by decide) (by decide)]; rfl
/-- the entry semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (haloRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (haloRd m) (K ck) (kcell ck) : sProp 𝕄)) ⊢ cellInv ER (haloRd m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (fl 0 c)) 0 (0 : Fin 3)
    ∗ dutyTok ER (barCell (fl 1 c)) 0 (1 : Fin 3)
    ∗ dutyTok ER (barCell (fl 2 c)) 0 (2 : Fin 3)
    ∗ dutyTok ER (rcvCell 0 (fl 0 c)) 0 (0 : Fin 3)
    ∗ dutyTok ER (rcvCell 1 (fl 1 c)) 0 (0 : Fin 3)
    ∗ dutyTok ER (rcvCell 2 (fl 2 c)) 0 (0 : Fin 3)
    ∗ dutyTok ER (sndCell 0 c) 0 (0 : Fin 3)
    ∗ dutyTok ER (sndCell 1 c) 0 (0 : Fin 3)
    ∗ dutyTok ER (sndCell 2 c) 0 (0 : Fin 3))
def linear (c : Dev nD) : sProp 𝕄 :=
  iprop((atPos ER (barCell c) 0 ∅ 0 ∗ atPos ER (sndCell 0 c) 0 ∅ 0 ∗ atPos ER (sndCell 1 c) 0 ∅ 0 ∗ atPos ER (sndCell 2 c) 0 ∅ 0 ∗ atPos ER (rcvCell 0 c) 0 ∅ 0 ∗ atPos ER (rcvCell 1 c) 0 ∅ 0 ∗ atPos ER (rcvCell 2 c) 0 ∅ 0) ∗ payToks c)

theorem ghost_intro (K : Dev nD × Fin 7 → ℕ) (c : Dev nD) : iprop(records m K ∗ linear c) ⊢ G' m c := by
  unfold records linear payToks G' ghost invs
  iintro ⟨⟨#HI, #HR⟩, ⟨Ha0, Ha1, Ha2, Ha3, Ha4, Ha5, Ha6⟩, Hk0, Hk1, Hk2, Hk3, Hk4, Hk5, Hk6, Hk7, Hk8⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (fl 0 c, 0)); iexact HI
    isplitr; · iapply (inv_at m K (fl 1 c, 0)); iexact HI
    isplitr; · iapply (inv_at m K (fl 2 c, 0)); iexact HI
    isplitr; · iapply (inv_at m K (fl 0 c, 4)); iexact HI
    isplitr; · iapply (inv_at m K (fl 1 c, 5)); iexact HI
    iapply (inv_at m K (fl 2 c, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (fl 0 c, 0)); iexact HR
  isplitr; · iapply (reached_at (F := F) (fl 1 c, 0)); iexact HR
  isplitr; · iapply (reached_at (F := F) (fl 2 c, 0)); iexact HR
  isplitr; · iapply (reached_at (F := F) (fl 0 c, 4)); iexact HR
  isplitr; · iapply (reached_at (F := F) (fl 1 c, 5)); iexact HR
  isplitr; · iapply (reached_at (F := F) (fl 2 c, 6)); iexact HR
  isplitr; · iapply (reached_at (F := F) (c, 1)); iexact HR
  isplitr; · iapply (reached_at (F := F) (c, 2)); iexact HR
  isplitr; · iapply (reached_at (F := F) (c, 3)); iexact HR
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  iexact Hk8

/-- A device's own nine tokens, one by one. -/
theorem toks_eq (c : Dev nD) : (toks c : sProp 𝕄) = iprop(dutyTok ER (barCell c) 0 (0 : Fin 3)
    ∗ dutyTok ER (barCell c) 0 (1 : Fin 3)
    ∗ dutyTok ER (barCell c) 0 (2 : Fin 3)
    ∗ dutyTok ER (sndCell 0 c) 0 (0 : Fin 3)
    ∗ dutyTok ER (sndCell 1 c) 0 (0 : Fin 3)
    ∗ dutyTok ER (sndCell 2 c) 0 (0 : Fin 3)
    ∗ dutyTok ER (rcvCell 0 c) 0 (0 : Fin 3)
    ∗ dutyTok ER (rcvCell 1 c) 0 (0 : Fin 3)
    ∗ dutyTok ER (rcvCell 2 c) 0 (0 : Fin 3)) := by
  unfold toks; rw [bigSep_fin9]

/-- The tokens dealt to the devices that pay them: duty `a` of an entry cell and the duty of a receive cell of axis `a` go
    to the neighbour along `a`; a send cell's duty stays. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv (flipE 0) (fun c : Dev nD => (dutyTok ER (barCell c) 0 (0 : Fin 3) : sProp 𝕄)),
    bigSep_univ_equiv (flipE 1) (fun c : Dev nD => (dutyTok ER (barCell c) 0 (1 : Fin 3) : sProp 𝕄)),
    bigSep_univ_equiv (flipE 2) (fun c : Dev nD => (dutyTok ER (barCell c) 0 (2 : Fin 3) : sProp 𝕄)),
    bigSep_univ_equiv (flipE 0) (fun c : Dev nD => (dutyTok ER (rcvCell 0 c) 0 (0 : Fin 3) : sProp 𝕄)),
    bigSep_univ_equiv (flipE 1) (fun c : Dev nD => (dutyTok ER (rcvCell 1 c) 0 (0 : Fin 3) : sProp 𝕄)),
    bigSep_univ_equiv (flipE 2) (fun c : Dev nD => (dutyTok ER (rcvCell 2 c) 0 (0 : Fin 3) : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (haloRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem three_units (g : GSem nD τ sig) : (tallyAt g () 1 + tallyAt g () 1 + tallyAt g () 1 : CellTallies nD τ sig Unit) = tallyAt g () 3 := by
  rw [tallyAt_add, tallyAt_add]

/-- What a device's neighbours owe it: three entry units, and per axis one face's credit. -/
theorem creds (c : Dev nD) :
    (Pipeline.launchCred O₀ c : sProp 𝕄) ⊢ iprop(cred (tallyAt (barCell c) () 3)
      ∗ cred (tallyAt (rcvCell 0 c) () N) ∗ cred (tallyAt (rcvCell 1 c) () N) ∗ cred (tallyAt (rcvCell 2 c) () N)) := by
  show (Pipeline.launchCred (fun d => tallyAt (rcvCell 1 (fl 1 d)) () N + tallyAt (rcvCell 0 (fl 0 d)) () N + tallyAt (rcvCell 2 (fl 2 d)) () N
      + tallyAt (barCell (fl 2 d)) () 1 + tallyAt (barCell (fl 1 d)) () 1 + tallyAt (barCell (fl 0 d)) () 1) c : sProp 𝕄) ⊢ _
  rw [Pipeline.launchCred_add, Pipeline.launchCred_add, Pipeline.launchCred_add, Pipeline.launchCred_add, Pipeline.launchCred_add]
  iintro ⟨⟨⟨⟨⟨H1, H0⟩, H2⟩, B2⟩, B1⟩, B0⟩
  ihave C1 := (Pipeline.launchCred_tallyAt (rcvS 1) (fl 1) (fl 1) (fl_fl 1) (fl_fl 1) () N c) $$ H1
  ihave C0 := (Pipeline.launchCred_tallyAt (rcvS 0) (fl 0) (fl 0) (fl_fl 0) (fl_fl 0) () N c) $$ H0
  ihave C2 := (Pipeline.launchCred_tallyAt (rcvS 2) (fl 2) (fl 2) (fl_fl 2) (fl_fl 2) () N c) $$ H2
  ihave D2 := (Pipeline.launchCred_tallyAt (SemLoc.reg barS) (fl 2) (fl 2) (fl_fl 2) (fl_fl 2) () 1 c) $$ B2
  ihave D1 := (Pipeline.launchCred_tallyAt (SemLoc.reg barS) (fl 1) (fl 1) (fl_fl 1) (fl_fl 1) () 1 c) $$ B1
  ihave D0 := (Pipeline.launchCred_tallyAt (SemLoc.reg barS) (fl 0) (fl 0) (fl_fl 0) (fl_fl 0) () 1 c) $$ B0
  ihave D21 := (cred_add (tallyAt (barCell c) () 1) (tallyAt (barCell c) () 1)).2 $$ [D2 D1]
  · isplitl [D2] <;> iassumption
  ihave D := (cred_add (tallyAt (barCell c) () 1 + tallyAt (barCell c) () 1) (tallyAt (barCell c) () 1)).2 $$ [D21 D0]
  · isplitl [D21] <;> iassumption
  rw [three_units]
  isplitl [D]; · iexact D
  isplitl [C0]; · iexact C0
  isplitl [C1]; · iexact C1
  iexact C2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1, HN2⟩
  imodintro
  unfold start G'
  isplitl
  · isplitl [HG]; · iexact HG
    isplitl [H1]; · iexact H1
    isplitl [HN0]; · iexact HN0
    isplitl [HN1]; · iexact HN1
    isplitl [HN2]; · iexact HN2
    iexact Hlev
  · iempintro

/-- The six face buffers, whole at some contents, as the launch hands them over and takes them back. -/
theorem faces_eq (c : Dev nD) : (faces (F := F) c : sProp 𝕄) = (Pipeline.scopedRest (Ix := Unit) (Name := ℕ) (U := UU) (Lvl := ℕ) (Val := Elt F) spec0 c : sProp 𝕄) := by
  rw [scopedRest0_eq]; unfold faces; simp only [View.set_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← faces_eq]
  unfold Φ₀
  iintro ⟨Hs, -, Hr⟩
  isplitl [Hs] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, ← faces_eq, ownSems0_eq]
  unfold Φ₁
  iintro ⟨Hr, Hz⟩
  isplitr; · iempintro
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact fun g u h => O₀_pos (c := c) h
      · exact fun g u h => absurd h (Nat.lt_irrefl 0))

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main — the eight kernels meeting on the entry semaphore, then exchanging faces along the three axes —
    terminates, and every final state has each device's two arrays at the proof data's final contents. -/
theorem run_main : θ_run defs (onTc (τ := τ) (main (F := F))) (mem0 m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array's one block — the whole array — read back is what the body left in the staging buffer. -/
theorem finalA_o (c : Dev nD) :
    (win0_1.blk (0 : Fin 1)).view.read (Elt F) (finalA m c (1 : Fin 2)) = outAt m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- Reading that block reads the array: the result array after the run is the body's result. -/
theorem finalA_out (c : Dev nD) : finalA m c (1 : Fin 2) = outAt m c := by
  have ho := finalA_o m c
  have hz : (fun a => (win0_1.index (0 : Fin 1)) a * main_v1.ty.shape.size a) = fun _ => 0 :=
    funext fun a => by fin_cases a <;> decide
  rw [Memref.read_access_unit_zero (Elt F) main_v1 hz (fun a => by fin_cases a <;> decide)] at ho
  exact ho

/-- The staged block is the device's argument array. -/
theorem xstg_eq (c : Dev nD) : xstg m c = m ((c : Thread nD τ).loc main_arg0) := by
  unfold xstg
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The run with its values: every device's result array ends at the body's result, its argument array unchanged. -/
theorem run_val : θ_run defs (onTc (τ := τ) (main (F := F))) ⟨m, fun _ => 0, ρ⟩ (fun r => ∀ c : Dev nD,
    r.2.mem ((c : Thread nD τ).loc main_v1) = outAt m c
      ∧ r.2.mem ((c : Thread nD τ).loc main_arg0) = m ((c : Thread nD τ).loc main_arg0)) :=
  (θ_run defs _ _).mono (fun _ h c => ⟨(h c (1 : Fin 2)).trans (finalA_out m c), (h c (0 : Fin 2)).trans (finalA_x m c)⟩) (run_main m ρ)

end Cert.KernelIdeal.Halo

end
-- ==== Proof.StencilOps.lean ====
/-
  Reading this kernel's layout operations at an index.

  The stencil is built from six shifted copies of the block: along each axis, "the element before" is a zero plane
  placed in front of the block without its last plane, and "the element after" is the block without its first plane
  followed by a zero plane. The faces are planes of the block read through rectangles at offset 0 or 31, reshaped
  to 32×32 and, on the receiving side, reshaped back with a unit axis and broadcast along it. The masks are
  columns broadcast to the block. Each lemma here reads one such operation at an index given by its coordinates.
-/
import proofs.«900362_g7700000000000363_dist_halo3d_v7x_xyz2x2x2_s32_bf16_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stencil

open Cert.KernelIdeal Cert.KernelIdeal.Gen
open Idealize.ShloMosaic Idealize.ShloMosaic.ValueIdx

variable {α : Type}

/-! ## Columns and planes broadcast to the block -/

theorem bcast_a11 (x : S32x1x1.Idx → α) (p q r : Fin 32) :
    broadcastTo S32x32x32 x broadcasts_S32x1x1_S32x32x32 (ix3 p q r) = x (ix3 p (0 : Fin 1) (0 : Fin 1)) :=
  broadcastTo_apply x _ _ _ (fun a => by fin_cases a <;> rfl)

theorem bcast_1b1 (x : S1x32x1.Idx → α) (p q r : Fin 32) :
    broadcastTo S32x32x32 x broadcasts_S1x32x1_S32x32x32 (ix3 p q r) = x (ix3 (0 : Fin 1) q (0 : Fin 1)) :=
  broadcastTo_apply x _ _ _ (fun a => by fin_cases a <;> rfl)

theorem bcast_11c (x : S1x1x32.Idx → α) (p q r : Fin 32) :
    broadcastTo S32x32x32 x broadcasts_S1x1x32_S32x32x32 (ix3 p q r) = x (ix3 (0 : Fin 1) (0 : Fin 1) r) :=
  broadcastTo_apply x _ _ _ (fun a => by fin_cases a <;> rfl)

theorem bcast_1bc (x : S1x32x32.Idx → α) (p q r : Fin 32) :
    broadcastTo S32x32x32 x broadcasts_S1x32x32_S32x32x32 (ix3 p q r) = x (ix3 (0 : Fin 1) q r) :=
  broadcastTo_apply x _ _ _ (fun a => by fin_cases a <;> rfl)

theorem bcast_a1c (x : S32x1x32.Idx → α) (p q r : Fin 32) :
    broadcastTo S32x32x32 x broadcasts_S32x1x32_S32x32x32 (ix3 p q r) = x (ix3 p (0 : Fin 1) r) :=
  broadcastTo_apply x _ _ _ (fun a => by fin_cases a <;> rfl)

theorem bcast_ab1 (x : S32x32x1.Idx → α) (p q r : Fin 32) :
    broadcastTo S32x32x32 x broadcasts_S32x32x1_S32x32x32 (ix3 p q r) = x (ix3 p q (0 : Fin 1)) :=
  broadcastTo_apply x _ _ _ (fun a => by fin_cases a <;> rfl)

theorem bcast_a11_ab1 (x : S32x1x1.Idx → α) (p q r : Fin 32) :
    broadcastTo S32x32x1 x broadcasts_S32x1x1_S32x32x1 (ix3 p q (0 : Fin 1)) = x (ix3 p (0 : Fin 1) (0 : Fin 1)) :=
  broadcastTo_apply x _ _ _ (fun a => by fin_cases a <;> rfl)

theorem bcast_1b1_ab1 (x : S1x32x1.Idx → α) (p q r : Fin 32) :
    broadcastTo S32x32x1 x broadcasts_S1x32x1_S32x32x1 (ix3 p q (0 : Fin 1)) = x (ix3 (0 : Fin 1) q (0 : Fin 1)) :=
  broadcastTo_apply x _ _ _ (fun a => by fin_cases a <;> rfl)

/-! ## A 32×32 face with a unit axis put in or taken out -/

theorem cast_ab_1ab (x : S32x32.Idx → α) (q r : Fin 32) :
    shapeCast S1x32x32 x shapeCasts_S32x32_S1x32x32 (ix3 (0 : Fin 1) q r) = x (ix2 q r) := shapeCast_apply x _ _ _ (by rw [Shape.rowMajor_val_two, Shape.rowMajor_val_three]; simp)
theorem cast_ab_a1b (x : S32x32.Idx → α) (p r : Fin 32) :
    shapeCast S32x1x32 x shapeCasts_S32x32_S32x1x32 (ix3 p (0 : Fin 1) r) = x (ix2 p r) := shapeCast_apply x _ _ _ (by rw [Shape.rowMajor_val_two, Shape.rowMajor_val_three]; simp)
theorem cast_ab_ab1 (x : S32x32.Idx → α) (p q : Fin 32) :
    shapeCast S32x32x1 x shapeCasts_S32x32_S32x32x1 (ix3 p q (0 : Fin 1)) = x (ix2 p q) := shapeCast_apply x _ _ _ (by rw [Shape.rowMajor_val_two, Shape.rowMajor_val_three]; simp)
theorem cast_1ab_ab (x : S1x32x32.Idx → α) (q r : Fin 32) :
    shapeCast S32x32 x shapeCasts_S1x32x32_S32x32 (ix2 q r) = x (ix3 (0 : Fin 1) q r) := shapeCast_apply x _ _ _ (by rw [Shape.rowMajor_val_three, Shape.rowMajor_val_two]; simp)
theorem cast_a1b_ab (x : S32x1x32.Idx → α) (p r : Fin 32) :
    shapeCast S32x32 x shapeCasts_S32x1x32_S32x32 (ix2 p r) = x (ix3 p (0 : Fin 1) r) := shapeCast_apply x _ _ _ (by rw [Shape.rowMajor_val_three, Shape.rowMajor_val_two]; simp)
theorem cast_ab1_ab (x : S32x32x1.Idx → α) (p q : Fin 32) :
    shapeCast S32x32 x shapeCasts_S32x32x1_S32x32 (ix2 p q) = x (ix3 p q (0 : Fin 1)) := shapeCast_apply x _ _ _ (by rw [Shape.rowMajor_val_three, Shape.rowMajor_val_two]; simp)

/-! ## A plane of the block read through its rectangle -/

theorem read_x_hi {F : FTy → Type} [FloatOps F] (X : (cc0_stg0_0 : Ref sig .tc).ty.Contents (Elt F)) (q r : Fin 32) :
    ((Memref.whole cc0_stg0_0 : Memref sig .tc .vmem S32x32x32 .f32).view.readAt (Elt F) (Rect.unit (s := S32x32x32) ![31, 0, 0] S1x32x32.size inb_S32x32x32_S1x32x32_31_0_0).toLoadRect X) (ix3 (0 : Fin 1) q r)
      = X (ix3 (⟨31, by omega⟩ : Fin 32) q r) := by
  rw [View.readAt_apply, View.read_apply]
  refine congrArg X (funext fun a => Fin.ext ?_)
  fin_cases a
  · rfl
  · show 0 + 1 * q.val = q.val; omega
  · show 0 + 1 * r.val = r.val; omega

theorem read_x_lo {F : FTy → Type} [FloatOps F] (X : (cc0_stg0_0 : Ref sig .tc).ty.Contents (Elt F)) (q r : Fin 32) :
    ((Memref.whole cc0_stg0_0 : Memref sig .tc .vmem S32x32x32 .f32).view.readAt (Elt F) (Rect.unit (s := S32x32x32) ![0, 0, 0] S1x32x32.size inb_S32x32x32_S1x32x32_0_0_0).toLoadRect X) (ix3 (0 : Fin 1) q r)
      = X (ix3 (⟨0, by omega⟩ : Fin 32) q r) := by
  rw [View.readAt_apply, View.read_apply]
  refine congrArg X (funext fun a => Fin.ext ?_)
  fin_cases a
  · rfl
  · show 0 + 1 * q.val = q.val; omega
  · show 0 + 1 * r.val = r.val; omega

theorem read_y_hi {F : FTy → Type} [FloatOps F] (X : (cc0_stg0_0 : Ref sig .tc).ty.Contents (Elt F)) (p r : Fin 32) :
    ((Memref.whole cc0_stg0_0 : Memref sig .tc .vmem S32x32x32 .f32).view.readAt (Elt F) (Rect.unit (s := S32x32x32) ![0, 31, 0] S32x1x32.size inb_S32x32x32_S32x1x32_0_31_0).toLoadRect X) (ix3 p (0 : Fin 1) r)
      = X (ix3 p (⟨31, by omega⟩ : Fin 32) r) := by
  rw [View.readAt_apply, View.read_apply]
  refine congrArg X (funext fun a => Fin.ext ?_)
  fin_cases a
  · show 0 + 1 * p.val = p.val; omega
  · rfl
  · show 0 + 1 * r.val = r.val; omega

theorem read_y_lo {F : FTy → Type} [FloatOps F] (X : (cc0_stg0_0 : Ref sig .tc).ty.Contents (Elt F)) (p r : Fin 32) :
    ((Memref.whole cc0_stg0_0 : Memref sig .tc .vmem S32x32x32 .f32).view.readAt (Elt F) (Rect.unit (s := S32x32x32) ![0, 0, 0] S32x1x32.size inb_S32x32x32_S32x1x32_0_0_0).toLoadRect X) (ix3 p (0 : Fin 1) r)
      = X (ix3 p (⟨0, by omega⟩ : Fin 32) r) := by
  rw [View.readAt_apply, View.read_apply]
  refine congrArg X (funext fun a => Fin.ext ?_)
  fin_cases a
  · show 0 + 1 * p.val = p.val; omega
  · rfl
  · show 0 + 1 * r.val = r.val; omega

theorem read_z_hi {F : FTy → Type} [FloatOps F] (X : (cc0_stg0_0 : Ref sig .tc).ty.Contents (Elt F)) (p q : Fin 32) :
    ((Memref.whole cc0_stg0_0 : Memref sig .tc .vmem S32x32x32 .f32).view.readAt (Elt F) (Rect.unit (s := S32x32x32) ![0, 0, 31] S32x32x1.size inb_S32x32x32_S32x32x1_0_0_31).toLoadRect X) (ix3 p q (0 : Fin 1))
      = X (ix3 p q (⟨31, by omega⟩ : Fin 32)) := by
  rw [View.readAt_apply, View.read_apply]
  refine congrArg X (funext fun a => Fin.ext ?_)
  fin_cases a
  · show 0 + 1 * p.val = p.val; omega
  · show 0 + 1 * q.val = q.val; omega
  · rfl

theorem read_z_lo {F : FTy → Type} [FloatOps F] (X : (cc0_stg0_0 : Ref sig .tc).ty.Contents (Elt F)) (p q : Fin 32) :
    ((Memref.whole cc0_stg0_0 : Memref sig .tc .vmem S32x32x32 .f32).view.readAt (Elt F) (Rect.unit (s := S32x32x32) ![0, 0, 0] S32x32x1.size inb_S32x32x32_S32x32x1_0_0_0).toLoadRect X) (ix3 p q (0 : Fin 1))
      = X (ix3 p q (⟨0, by omega⟩ : Fin 32)) := by
  rw [View.readAt_apply, View.read_apply]
  refine congrArg X (funext fun a => Fin.ext ?_)
  fin_cases a
  · show 0 + 1 * p.val = p.val; omega
  · show 0 + 1 * q.val = q.val; omega
  · rfl

/-! ## The six shifted copies -/

/-- Axis 0, "the element before": a zero plane in front of the block without its last plane. At coordinate 0 it is the pad; -/
theorem lo0_zero (X : S32x32x32.Idx → α) (z : α) (q r : Fin 32) :
    concatenate S32x32x32 0 [⟨S1x32x32, broadcast S1x32x32 z⟩, ⟨S31x32x32, extractStridedSlice S31x32x32 ![0, 0, 0] X slices_S32x32x32_o0_0_0_S31x32x32⟩] concatenates_S1x32x32_S31x32x32_S32x32x32_d0 (ix3 (⟨0, by omega⟩ : Fin 32) q r) = z :=
  (concatenate_pair_apply_left (t := S32x32x32) (s₁ := S1x32x32) (s₂ := S31x32x32) (0 : Fin 3) (broadcast S1x32x32 z) _ concatenates_S1x32x32_S31x32x32_S32x32x32_d0
    (ix3 (⟨0, by omega⟩ : Fin 32) q r) rfl (ix3 (⟨0, by omega⟩ : Fin 1) q r) (fun b => by fin_cases b <;> rfl)).trans rfl
/-- at coordinate k + 1 it is the block at k. -/
theorem lo0_succ (X : S32x32x32.Idx → α) (z : α) (k : Fin 31) (q r : Fin 32) :
    concatenate S32x32x32 0 [⟨S1x32x32, broadcast S1x32x32 z⟩, ⟨S31x32x32, extractStridedSlice S31x32x32 ![0, 0, 0] X slices_S32x32x32_o0_0_0_S31x32x32⟩] concatenates_S1x32x32_S31x32x32_S32x32x32_d0 (ix3 (⟨k.val + 1, by omega⟩ : Fin 32) q r) = X (ix3 (⟨k.val, by omega⟩ : Fin 32) q r) :=
  (concatenate_pair_apply_right (t := S32x32x32) (s₁ := S1x32x32) (s₂ := S31x32x32) (0 : Fin 3) (broadcast S1x32x32 z)
      (extractStridedSlice S31x32x32 ![0, 0, 0] X slices_S32x32x32_o0_0_0_S31x32x32) concatenates_S1x32x32_S31x32x32_S32x32x32_d0
      (ix3 (⟨k.val + 1, by omega⟩ : Fin 32) q r) rfl rfl (ix3 k q r)
      (fun b hb => by fin_cases b <;> first | rfl | exact absurd rfl hb) rfl).trans
    (extractStridedSlice_apply (s := S32x32x32) (t := S31x32x32) ![0, 0, 0] X slices_S32x32x32_o0_0_0_S31x32x32 (ix3 k q r) (ix3 (⟨k.val, by omega⟩ : Fin 32) q r)
      (fun a => by fin_cases a <;> first | rfl | omega | (simp; done) | (simp; omega)))
/-- Axis 0, "the element after": the block without its first plane, then a zero plane. At coordinate 31 it is the pad; -/
theorem hi0_last (X : S32x32x32.Idx → α) (z : α) (q r : Fin 32) :
    concatenate S32x32x32 0 [⟨S31x32x32, extractStridedSlice S31x32x32 ![1, 0, 0] X slices_S32x32x32_o1_0_0_S31x32x32⟩, ⟨S1x32x32, broadcast S1x32x32 z⟩] concatenates_S31x32x32_S1x32x32_S32x32x32_d0 (ix3 (⟨31, by omega⟩ : Fin 32) q r) = z :=
  (concatenate_pair_apply_right (t := S32x32x32) (s₁ := S31x32x32) (s₂ := S1x32x32) (0 : Fin 3)
      (extractStridedSlice S31x32x32 ![1, 0, 0] X slices_S32x32x32_o1_0_0_S31x32x32) (broadcast S1x32x32 z) concatenates_S31x32x32_S1x32x32_S32x32x32_d0
      (ix3 (⟨31, by omega⟩ : Fin 32) q r) rfl rfl (ix3 (⟨0, by omega⟩ : Fin 1) q r)
      (fun b hb => by fin_cases b <;> first | rfl | exact absurd rfl hb) rfl).trans rfl
/-- at coordinate k < 31 it is the block at k + 1. -/
theorem hi0_lt (X : S32x32x32.Idx → α) (z : α) (k : Fin 31) (q r : Fin 32) :
    concatenate S32x32x32 0 [⟨S31x32x32, extractStridedSlice S31x32x32 ![1, 0, 0] X slices_S32x32x32_o1_0_0_S31x32x32⟩, ⟨S1x32x32, broadcast S1x32x32 z⟩] concatenates_S31x32x32_S1x32x32_S32x32x32_d0 (ix3 (⟨k.val, by omega⟩ : Fin 32) q r) = X (ix3 (⟨k.val + 1, by omega⟩ : Fin 32) q r) :=
  (concatenate_pair_apply_left (t := S32x32x32) (s₁ := S31x32x32) (s₂ := S1x32x32) (0 : Fin 3)
      (extractStridedSlice S31x32x32 ![1, 0, 0] X slices_S32x32x32_o1_0_0_S31x32x32) (broadcast S1x32x32 z) concatenates_S31x32x32_S1x32x32_S32x32x32_d0
      (ix3 (⟨k.val, by omega⟩ : Fin 32) q r) rfl (ix3 k q r) (fun b => by fin_cases b <;> rfl)).trans
    (extractStridedSlice_apply (s := S32x32x32) (t := S31x32x32) ![1, 0, 0] X slices_S32x32x32_o1_0_0_S31x32x32 (ix3 k q r) (ix3 (⟨k.val + 1, by omega⟩ : Fin 32) q r)
      (fun a => by fin_cases a <;> first | rfl | (show k.val + 1 = 1 + k.val; omega) | (simp; done)))

/-- Axis 1, "the element before": a zero plane in front of the block without its last plane. At coordinate 0 it is the pad; -/
theorem lo1_zero (X : S32x32x32.Idx → α) (z : α) (p r : Fin 32) :
    concatenate S32x32x32 1 [⟨S32x1x32, broadcast S32x1x32 z⟩, ⟨S32x31x32, extractStridedSlice S32x31x32 ![0, 0, 0] X slices_S32x32x32_o0_0_0_S32x31x32⟩] concatenates_S32x1x32_S32x31x32_S32x32x32_d1 (ix3 p (⟨0, by omega⟩ : Fin 32) r) = z :=
  (concatenate_pair_apply_left (t := S32x32x32) (s₁ := S32x1x32) (s₂ := S32x31x32) (1 : Fin 3) (broadcast S32x1x32 z) _ concatenates_S32x1x32_S32x31x32_S32x32x32_d1
    (ix3 p (⟨0, by omega⟩ : Fin 32) r) rfl (ix3 p (⟨0, by omega⟩ : Fin 1) r) (fun b => by fin_cases b <;> rfl)).trans rfl
/-- at coordinate k + 1 it is the block at k. -/
theorem lo1_succ (X : S32x32x32.Idx → α) (z : α) (k : Fin 31) (p r : Fin 32) :
    concatenate S32x32x32 1 [⟨S32x1x32, broadcast S32x1x32 z⟩, ⟨S32x31x32, extractStridedSlice S32x31x32 ![0, 0, 0] X slices_S32x32x32_o0_0_0_S32x31x32⟩] concatenates_S32x1x32_S32x31x32_S32x32x32_d1 (ix3 p (⟨k.val + 1, by omega⟩ : Fin 32) r) = X (ix3 p (⟨k.val, by omega⟩ : Fin 32) r) :=
  (concatenate_pair_apply_right (t := S32x32x32) (s₁ := S32x1x32) (s₂ := S32x31x32) (1 : Fin 3) (broadcast S32x1x32 z)
      (extractStridedSlice S32x31x32 ![0, 0, 0] X slices_S32x32x32_o0_0_0_S32x31x32) concatenates_S32x1x32_S32x31x32_S32x32x32_d1
      (ix3 p (⟨k.val + 1, by omega⟩ : Fin 32) r) rfl rfl (ix3 p k r)
      (fun b hb => by fin_cases b <;> first | rfl | exact absurd rfl hb) rfl).trans
    (extractStridedSlice_apply (s := S32x32x32) (t := S32x31x32) ![0, 0, 0] X slices_S32x32x32_o0_0_0_S32x31x32 (ix3 p k r) (ix3 p (⟨k.val, by omega⟩ : Fin 32) r)
      (fun a => by fin_cases a <;> first | rfl | omega | (simp; done) | (simp; omega)))
/-- Axis 1, "the element after": the block without its first plane, then a zero plane. At coordinate 31 it is the pad; -/
theorem hi1_last (X : S32x32x32.Idx → α) (z : α) (p r : Fin 32) :
    concatenate S32x32x32 1 [⟨S32x31x32, extractStridedSlice S32x31x32 ![0, 1, 0] X slices_S32x32x32_o0_1_0_S32x31x32⟩, ⟨S32x1x32, broadcast S32x1x32 z⟩] concatenates_S32x31x32_S32x1x32_S32x32x32_d1 (ix3 p (⟨31, by omega⟩ : Fin 32) r) = z :=
  (concatenate_pair_apply_right (t := S32x32x32) (s₁ := S32x31x32) (s₂ := S32x1x32) (1 : Fin 3)
      (extractStridedSlice S32x31x32 ![0, 1, 0] X slices_S32x32x32_o0_1_0_S32x31x32) (broadcast S32x1x32 z) concatenates_S32x31x32_S32x1x32_S32x32x32_d1
      (ix3 p (⟨31, by omega⟩ : Fin 32) r) rfl rfl (ix3 p (⟨0, by omega⟩ : Fin 1) r)
      (fun b hb => by fin_cases b <;> first | rfl | exact absurd rfl hb) rfl).trans rfl
/-- at coordinate k < 31 it is the block at k + 1. -/
theorem hi1_lt (X : S32x32x32.Idx → α) (z : α) (k : Fin 31) (p r : Fin 32) :
    concatenate S32x32x32 1 [⟨S32x31x32, extractStridedSlice S32x31x32 ![0, 1, 0] X slices_S32x32x32_o0_1_0_S32x31x32⟩, ⟨S32x1x32, broadcast S32x1x32 z⟩] concatenates_S32x31x32_S32x1x32_S32x32x32_d1 (ix3 p (⟨k.val, by omega⟩ : Fin 32) r) = X (ix3 p (⟨k.val + 1, by omega⟩ : Fin 32) r) :=
  (concatenate_pair_apply_left (t := S32x32x32) (s₁ := S32x31x32) (s₂ := S32x1x32) (1 : Fin 3)
      (extractStridedSlice S32x31x32 ![0, 1, 0] X slices_S32x32x32_o0_1_0_S32x31x32) (broadcast S32x1x32 z) concatenates_S32x31x32_S32x1x32_S32x32x32_d1
      (ix3 p (⟨k.val, by omega⟩ : Fin 32) r) rfl (ix3 p k r) (fun b => by fin_cases b <;> rfl)).trans
    (extractStridedSlice_apply (s := S32x32x32) (t := S32x31x32) ![0, 1, 0] X slices_S32x32x32_o0_1_0_S32x31x32 (ix3 p k r) (ix3 p (⟨k.val + 1, by omega⟩ : Fin 32) r)
      (fun a => by fin_cases a <;> first | rfl | (show k.val + 1 = 1 + k.val; omega) | (simp; done)))

/-- Axis 2, "the element before": a zero plane in front of the block without its last plane. At coordinate 0 it is the pad; -/
theorem lo2_zero (X : S32x32x32.Idx → α) (z : α) (p q : Fin 32) :
    concatenate S32x32x32 2 [⟨S32x32x1, broadcast S32x32x1 z⟩, ⟨S32x32x31, extractStridedSlice S32x32x31 ![0, 0, 0] X slices_S32x32x32_o0_0_0_S32x32x31⟩] concatenates_S32x32x1_S32x32x31_S32x32x32_d2 (ix3 p q (⟨0, by omega⟩ : Fin 32)) = z :=
  (concatenate_pair_apply_left (t := S32x32x32) (s₁ := S32x32x1) (s₂ := S32x32x31) (2 : Fin 3) (broadcast S32x32x1 z) _ concatenates_S32x32x1_S32x32x31_S32x32x32_d2
    (ix3 p q (⟨0, by omega⟩ : Fin 32)) rfl (ix3 p q (⟨0, by omega⟩ : Fin 1)) (fun b => by fin_cases b <;> rfl)).trans rfl
/-- at coordinate k + 1 it is the block at k. -/
theorem lo2_succ (X : S32x32x32.Idx → α) (z : α) (k : Fin 31) (p q : Fin 32) :
    concatenate S32x32x32 2 [⟨S32x32x1, broadcast S32x32x1 z⟩, ⟨S32x32x31, extractStridedSlice S32x32x31 ![0, 0, 0] X slices_S32x32x32_o0_0_0_S32x32x31⟩] concatenates_S32x32x1_S32x32x31_S32x32x32_d2 (ix3 p q (⟨k.val + 1, by omega⟩ : Fin 32)) = X (ix3 p q (⟨k.val, by omega⟩ : Fin 32)) :=
  (concatenate_pair_apply_right (t := S32x32x32) (s₁ := S32x32x1) (s₂ := S32x32x31) (2 : Fin 3) (broadcast S32x32x1 z)
      (extractStridedSlice S32x32x31 ![0, 0, 0] X slices_S32x32x32_o0_0_0_S32x32x31) concatenates_S32x32x1_S32x32x31_S32x32x32_d2
      (ix3 p q (⟨k.val + 1, by omega⟩ : Fin 32)) rfl rfl (ix3 p q k)
      (fun b hb => by fin_cases b <;> first | rfl | exact absurd rfl hb) rfl).trans
    (extractStridedSlice_apply (s := S32x32x32) (t := S32x32x31) ![0, 0, 0] X slices_S32x32x32_o0_0_0_S32x32x31 (ix3 p q k) (ix3 p q (⟨k.val, by omega⟩ : Fin 32))
      (fun a => by fin_cases a <;> first | rfl | omega | (simp; done) | (simp; omega)))
/-- Axis 2, "the element after": the block without its first plane, then a zero plane. At coordinate 31 it is the pad; -/
theorem hi2_last (X : S32x32x32.Idx → α) (z : α) (p q : Fin 32) :
    concatenate S32x32x32 2 [⟨S32x32x31, extractStridedSlice S32x32x31 ![0, 0, 1] X slices_S32x32x32_o0_0_1_S32x32x31⟩, ⟨S32x32x1, broadcast S32x32x1 z⟩] concatenates_S32x32x31_S32x32x1_S32x32x32_d2 (ix3 p q (⟨31, by omega⟩ : Fin 32)) = z :=
  (concatenate_pair_apply_right (t := S32x32x32) (s₁ := S32x32x31) (s₂ := S32x32x1) (2 : Fin 3)
      (extractStridedSlice S32x32x31 ![0, 0, 1] X slices_S32x32x32_o0_0_1_S32x32x31) (broadcast S32x32x1 z) concatenates_S32x32x31_S32x32x1_S32x32x32_d2
      (ix3 p q (⟨31, by omega⟩ : Fin 32)) rfl rfl (ix3 p q (⟨0, by omega⟩ : Fin 1))
      (fun b hb => by fin_cases b <;> first | rfl | exact absurd rfl hb) rfl).trans rfl
/-- at coordinate k < 31 it is the block at k + 1. -/
theorem hi2_lt (X : S32x32x32.Idx → α) (z : α) (k : Fin 31) (p q : Fin 32) :
    concatenate S32x32x32 2 [⟨S32x32x31, extractStridedSlice S32x32x31 ![0, 0, 1] X slices_S32x32x32_o0_0_1_S32x32x31⟩, ⟨S32x32x1, broadcast S32x32x1 z⟩] concatenates_S32x32x31_S32x32x1_S32x32x32_d2 (ix3 p q (⟨k.val, by omega⟩ : Fin 32)) = X (ix3 p q (⟨k.val + 1, by omega⟩ : Fin 32)) :=
  (concatenate_pair_apply_left (t := S32x32x32) (s₁ := S32x32x31) (s₂ := S32x32x1) (2 : Fin 3)
      (extractStridedSlice S32x32x31 ![0, 0, 1] X slices_S32x32x32_o0_0_1_S32x32x31) (broadcast S32x32x1 z) concatenates_S32x32x31_S32x32x1_S32x32x32_d2
      (ix3 p q (⟨k.val, by omega⟩ : Fin 32)) rfl (ix3 p q k) (fun b => by fin_cases b <;> rfl)).trans
    (extractStridedSlice_apply (s := S32x32x32) (t := S32x32x31) ![0, 0, 1] X slices_S32x32x32_o0_0_1_S32x32x31 (ix3 p q k) (ix3 p q (⟨k.val + 1, by omega⟩ : Fin 32))
      (fun a => by fin_cases a <;> first | rfl | (show k.val + 1 = 1 + k.val; omega) | (simp; done)))

end Cert.KernelIdeal.Stencil

end
-- ==== Proof.StencilPayload.lean ====
/-
  The kernel's payloads read at an index, at the ideal instance.

  The stencil's core is, at every index of the block, the six neighbours along the axes — a zero where the neighbour
  would lie outside the block — summed in the kernel's order, less six times the element. The outer payloads add,
  on the one plane of each axis that touches the neighbouring device, the face that device sent, and mask the result
  to the interior of the whole array. Here each non-pointwise piece (a shifted copy, a face, a mask, a face spread
  back over the block) is named and read at an index; the payloads are their pointwise combinations by definition.
-/
import proofs.«900362_g7700000000000363_dist_halo3d_v7x_xyz2x2x2_s32_bf16_1_alg».proof.Proof.KernelIdealSched
import proofs.«900362_g7700000000000363_dist_halo3d_v7x_xyz2x2x2_s32_bf16_1_alg».proof.Proof.StencilOps

noncomputable section

namespace Cert.KernelIdeal.Stencil

open Cert.KernelIdeal Cert.KernelIdeal.Gen Cert.KernelIdeal.Halo
open Idealize.ShloMosaic Idealize.ShloMosaic.ValueIdx

/-! ## An array on three axes read at natural coordinates, zero outside -/

def at3 {n0 n1 n2 : Nat} (X : (⟨3, ![n0, n1, n2]⟩ : Shape).Idx → EReal) (a b c : Nat) : EReal :=
  if h : a < n0 ∧ b < n1 ∧ c < n2 then X (ix3 ⟨a, h.1⟩ ⟨b, h.2.1⟩ ⟨c, h.2.2⟩) else 0

theorem at3_ix3 {n0 n1 n2 : Nat} (X : (⟨3, ![n0, n1, n2]⟩ : Shape).Idx → EReal) (p : Fin n0) (q : Fin n1) (r : Fin n2) :
    X (ix3 p q r) = at3 X p.val q.val r.val := by
  unfold at3; rw [dif_pos ⟨p.isLt, q.isLt, r.isLt⟩]

/-! ## The six shifted copies -/

/-- The element before along axis 0: the pad at coordinate 0, else the block one step back. -/
def shLo0 (X : S32x32x32.Idx → EReal) (z : EReal) : S32x32x32.Idx → EReal := concatenate S32x32x32 0 [⟨S1x32x32, broadcast S1x32x32 z⟩, ⟨S31x32x32, extractStridedSlice S31x32x32 ![0, 0, 0] X slices_S32x32x32_o0_0_0_S31x32x32⟩] concatenates_S1x32x32_S31x32x32_S32x32x32_d0
/-- The element after along axis 0: the pad at coordinate 31, else the block one step on. -/
def shHi0 (X : S32x32x32.Idx → EReal) (z : EReal) : S32x32x32.Idx → EReal := concatenate S32x32x32 0 [⟨S31x32x32, extractStridedSlice S31x32x32 ![1, 0, 0] X slices_S32x32x32_o1_0_0_S31x32x32⟩, ⟨S1x32x32, broadcast S1x32x32 z⟩] concatenates_S31x32x32_S1x32x32_S32x32x32_d0

theorem shLo0_apply (X : S32x32x32.Idx → EReal) (z : EReal) (p q r : Fin 32) :
    shLo0 X z (ix3 p q r) = if p.val = 0 then z else at3 X (p.val - 1) q.val r.val := by
  unfold shLo0
  obtain ⟨n, hn⟩ := p
  cases n with
  | zero => rw [if_pos rfl]; exact lo0_zero X z q r
  | succ k =>
    rw [if_neg (Nat.succ_ne_zero k)]
    exact (lo0_succ X z ⟨k, by omega⟩ q r).trans (at3_ix3 X ⟨k, by omega⟩ q r)

theorem shHi0_apply (X : S32x32x32.Idx → EReal) (z : EReal) (p q r : Fin 32) :
    shHi0 X z (ix3 p q r) = if p.val = 31 then z else at3 X (p.val + 1) q.val r.val := by
  unfold shHi0
  by_cases h : p.val = 31
  · rw [if_pos h]
    obtain ⟨n, hn⟩ := p
    change n = 31 at h
    subst h
    exact hi0_last X z q r
  · rw [if_neg h]
    have hk : p.val < 31 := by have := p.isLt; omega
    exact (hi0_lt X z ⟨p.val, hk⟩ q r).trans (at3_ix3 X ⟨p.val + 1, by omega⟩ q r)

/-- The element before along axis 1: the pad at coordinate 0, else the block one step back. -/
def shLo1 (X : S32x32x32.Idx → EReal) (z : EReal) : S32x32x32.Idx → EReal := concatenate S32x32x32 1 [⟨S32x1x32, broadcast S32x1x32 z⟩, ⟨S32x31x32, extractStridedSlice S32x31x32 ![0, 0, 0] X slices_S32x32x32_o0_0_0_S32x31x32⟩] concatenates_S32x1x32_S32x31x32_S32x32x32_d1
/-- The element after along axis 1: the pad at coordinate 31, else the block one step on. -/
def shHi1 (X : S32x32x32.Idx → EReal) (z : EReal) : S32x32x32.Idx → EReal := concatenate S32x32x32 1 [⟨S32x31x32, extractStridedSlice S32x31x32 ![0, 1, 0] X slices_S32x32x32_o0_1_0_S32x31x32⟩, ⟨S32x1x32, broadcast S32x1x32 z⟩] concatenates_S32x31x32_S32x1x32_S32x32x32_d1

theorem shLo1_apply (X : S32x32x32.Idx → EReal) (z : EReal) (p q r : Fin 32) :
    shLo1 X z (ix3 p q r) = if q.val = 0 then z else at3 X p.val (q.val - 1) r.val := by
  unfold shLo1
  obtain ⟨n, hn⟩ := q
  cases n with
  | zero => rw [if_pos rfl]; exact lo1_zero X z p r
  | succ k =>
    rw [if_neg (Nat.succ_ne_zero k)]
    exact (lo1_succ X z ⟨k, by omega⟩ p r).trans (at3_ix3 X p ⟨k, by omega⟩ r)

theorem shHi1_apply (X : S32x32x32.Idx → EReal) (z : EReal) (p q r : Fin 32) :
    shHi1 X z (ix3 p q r) = if q.val = 31 then z else at3 X p.val (q.val + 1) r.val := by
  unfold shHi1
  by_cases h : q.val = 31
  · rw [if_pos h]
    obtain ⟨n, hn⟩ := q
    change n = 31 at h
    subst h
    exact hi1_last X z p r
  · rw [if_neg h]
    have hk : q.val < 31 := by have := q.isLt; omega
    exact (hi1_lt X z ⟨q.val, hk⟩ p r).trans (at3_ix3 X p ⟨q.val + 1, by omega⟩ r)

/-- The element before along axis 2: the pad at coordinate 0, else the block one step back. -/
def shLo2 (X : S32x32x32.Idx → EReal) (z : EReal) : S32x32x32.Idx → EReal := concatenate S32x32x32 2 [⟨S32x32x1, broadcast S32x32x1 z⟩, ⟨S32x32x31, extractStridedSlice S32x32x31 ![0, 0, 0] X slices_S32x32x32_o0_0_0_S32x32x31⟩] concatenates_S32x32x1_S32x32x31_S32x32x32_d2
/-- The element after along axis 2: the pad at coordinate 31, else the block one step on. -/
def shHi2 (X : S32x32x32.Idx → EReal) (z : EReal) : S32x32x32.Idx → EReal := concatenate S32x32x32 2 [⟨S32x32x31, extractStridedSlice S32x32x31 ![0, 0, 1] X slices_S32x32x32_o0_0_1_S32x32x31⟩, ⟨S32x32x1, broadcast S32x32x1 z⟩] concatenates_S32x32x31_S32x32x1_S32x32x32_d2

theorem shLo2_apply (X : S32x32x32.Idx → EReal) (z : EReal) (p q r : Fin 32) :
    shLo2 X z (ix3 p q r) = if r.val = 0 then z else at3 X p.val q.val (r.val - 1) := by
  unfold shLo2
  obtain ⟨n, hn⟩ := r
  cases n with
  | zero => rw [if_pos rfl]; exact lo2_zero X z p q
  | succ k =>
    rw [if_neg (Nat.succ_ne_zero k)]
    exact (lo2_succ X z ⟨k, by omega⟩ p q).trans (at3_ix3 X p q ⟨k, by omega⟩)

theorem shHi2_apply (X : S32x32x32.Idx → EReal) (z : EReal) (p q r : Fin 32) :
    shHi2 X z (ix3 p q r) = if r.val = 31 then z else at3 X p.val q.val (r.val + 1) := by
  unfold shHi2
  by_cases h : r.val = 31
  · rw [if_pos h]
    obtain ⟨n, hn⟩ := r
    change n = 31 at h
    subst h
    exact hi2_last X z p q
  · rw [if_neg h]
    have hk : r.val < 31 := by have := r.isLt; omega
    exact (hi2_lt X z ⟨r.val, hk⟩ p q).trans (at3_ix3 X p q ⟨r.val + 1, by omega⟩)

/-! ## The stencil's core -/

/-- The pad and the factor as the kernel spells them. -/
abbrev Zf : EReal := (Scalar.ofBits (F := Ideal) .f32 0x00000000#32 : Ideal .f32)
abbrev Six : EReal := (Scalar.ofBits (F := Ideal) .f32 0x40C00000#32 : Ideal .f32)

theorem pay5_eq (X : FVec Ideal S32x32x32 .f32) :
    k0_pay5 (F := Ideal) X = (fun (Y : S32x32x32.Idx → EReal) (j : S32x32x32.Idx) => ((((((shLo0 Y Zf j + shHi0 Y Zf j) + shLo1 Y Zf j) + shHi1 Y Zf j) + shLo2 Y Zf j) + shHi2 Y Zf j) - Six * Y j : EReal))
      (shapeCast S32x32x32 X shapeCasts_S32x32x32_S32x32x32) := rfl

/-- The stencil's core at an index: the six neighbours inside the block, a pad where there is none, less six times the element. -/
theorem pay5_apply (X : S32x32x32.Idx → EReal) (p q r : Fin 32) :
    (k0_pay5 (F := Ideal) X (ix3 p q r) : EReal) = (((((((if p.val = 0 then Zf else at3 X (p.val - 1) q.val r.val) + (if p.val = 31 then Zf else at3 X (p.val + 1) q.val r.val)) + (if q.val = 0 then Zf else at3 X p.val (q.val - 1) r.val)) + (if q.val = 31 then Zf else at3 X p.val (q.val + 1) r.val)) + (if r.val = 0 then Zf else at3 X p.val q.val (r.val - 1))) + (if r.val = 31 then Zf else at3 X p.val q.val (r.val + 1))) - Six * at3 X p.val q.val r.val : EReal) := by
  rw [pay5_eq, shapeCast_self]
  show ((((((shLo0 X Zf (ix3 p q r) + shHi0 X Zf (ix3 p q r)) + shLo1 X Zf (ix3 p q r)) + shHi1 X Zf (ix3 p q r)) + shLo2 X Zf (ix3 p q r)) + shHi2 X Zf (ix3 p q r)) - Six * X (ix3 p q r) : EReal) = _
  rw [shLo0_apply, shHi0_apply, shLo1_apply, shHi1_apply, shLo2_apply, shHi2_apply, at3_ix3 X p q r]

end Cert.KernelIdeal.Stencil

end
-- ==== Proof.StencilOut.lean ====
/-
  The kernel's result read at an index, at the ideal instance.

  A face is a selection, by the sending device's coordinate, between the last and the first plane of its block.
  The result adds to the stencil's core, on the plane `p = ix` (and likewise for the other axes), the face the
  neighbour sent, spread back over the block, and keeps the sum only where the element's position in the whole
  array is strictly inside it.
-/
import proofs.«900362_g7700000000000363_dist_halo3d_v7x_xyz2x2x2_s32_bf16_1_alg».proof.Proof.StencilPayload

noncomputable section

namespace Cert.KernelIdeal.Stencil

open Cert.KernelIdeal Cert.KernelIdeal.Gen Cert.KernelIdeal.Halo
open Idealize.ShloMosaic Idealize.ShloMosaic.ValueIdx

/-! ## The faces -/

theorem faceX_apply (X : Blk Ideal) (w : BitVec 32) (q r : Fin 32) :
    faceX X w (ix2 q r) = Scalar.select (Scalar.cmpi .eq w 0#32) (X (ix3 (⟨31, by omega⟩ : Fin 32) q r)) (X (ix3 (⟨0, by omega⟩ : Fin 32) q r)) := by
  unfold faceX k0_pay1
  dsimp only
  rw [shapeCast_self]
  unfold Scalar.select
  by_cases hc : Scalar.cmpi .eq w 0#32 = 1
  · rw [if_pos hc, if_pos hc]; exact (cast_1ab_ab _ q r).trans (read_x_hi X q r)
  · rw [if_neg hc, if_neg hc]; exact (cast_1ab_ab _ q r).trans (read_x_lo X q r)

theorem faceY_apply (X : Blk Ideal) (w : BitVec 32) (p r : Fin 32) :
    faceY X w (ix2 p r) = Scalar.select (Scalar.cmpi .eq w 0#32) (X (ix3 p (⟨31, by omega⟩ : Fin 32) r)) (X (ix3 p (⟨0, by omega⟩ : Fin 32) r)) := by
  unfold faceY k0_pay2
  dsimp only
  rw [shapeCast_self]
  unfold Scalar.select
  by_cases hc : Scalar.cmpi .eq w 0#32 = 1
  · rw [if_pos hc, if_pos hc]; exact (cast_a1b_ab _ p r).trans (read_y_hi X p r)
  · rw [if_neg hc, if_neg hc]; exact (cast_a1b_ab _ p r).trans (read_y_lo X p r)

theorem faceZ_apply (X : Blk Ideal) (w : BitVec 32) (p q : Fin 32) :
    faceZ X w (ix2 p q) = Scalar.select (Scalar.cmpi .eq w 0#32) (X (ix3 p q (⟨31, by omega⟩ : Fin 32))) (X (ix3 p q (⟨0, by omega⟩ : Fin 32))) := by
  unfold faceZ k0_pay4 k0_pay3
  dsimp only
  rw [shapeCast_self]
  unfold Scalar.select
  by_cases hc : Scalar.cmpi .eq w 0#32 = 1
  · rw [if_pos hc, if_pos hc]; exact (cast_ab1_ab _ p q).trans (read_z_hi X p q)
  · rw [if_neg hc, if_neg hc]; exact (cast_ab1_ab _ p q).trans (read_z_lo X p q)

/-! ## The masks "this plane touches the neighbour" -/

def eqMask0 (w : BitVec 32) : IVec S32x32x32 1 :=
  broadcastTo S32x32x32 (shapeCast S32x1x1 (cmpi .eq (iota .tc S32x1x1 32 [0] iota_S32x1x1_d0_w32) (broadcast S32x1x1 w)) shapeCasts_S32x1x1_S32x1x1) broadcasts_S32x1x1_S32x32x32
def eqMask1 (w : BitVec 32) : IVec S32x32x32 1 :=
  broadcastTo S32x32x32 (shapeCast S1x32x1 (cmpi .eq (iota .tc S1x32x1 32 [1] iota_S1x32x1_d1_w32) (broadcast S1x32x1 w)) shapeCasts_S1x32x1_S1x32x1) broadcasts_S1x32x1_S32x32x32
def eqMask2 (w : BitVec 32) : IVec S32x32x32 1 :=
  broadcastTo S32x32x32 (shapeCast S1x1x32 (k0_pay8 w) shapeCasts_S1x1x32_S1x1x32) broadcasts_S1x1x32_S32x32x32

theorem eqMask0_apply (w : BitVec 32) (p q r : Fin 32) : eqMask0 w (ix3 p q r) = IntOp.cmpi .eq (BitVec.ofNat 32 p.val) w := by
  unfold eqMask0
  rw [bcast_a11, shapeCast_self]
  show IntOp.cmpi .eq ((iota .tc S32x1x1 32 [0] iota_S32x1x1_d0_w32) (ix3 p (0 : Fin 1) (0 : Fin 1))) w = _
  rw [iota_single_apply]
theorem eqMask1_apply (w : BitVec 32) (p q r : Fin 32) : eqMask1 w (ix3 p q r) = IntOp.cmpi .eq (BitVec.ofNat 32 q.val) w := by
  unfold eqMask1
  rw [bcast_1b1, shapeCast_self]
  show IntOp.cmpi .eq ((iota .tc S1x32x1 32 [1] iota_S1x32x1_d1_w32) (ix3 (0 : Fin 1) q (0 : Fin 1))) w = _
  rw [iota_single_apply]
theorem eqMask2_apply (w : BitVec 32) (p q r : Fin 32) : eqMask2 w (ix3 p q r) = IntOp.cmpi .eq (BitVec.ofNat 32 r.val) w := by
  unfold eqMask2 k0_pay8
  dsimp only
  rw [bcast_11c, shapeCast_self]
  show IntOp.cmpi .eq ((iota .tc S1x1x32 32 [2] iota_S1x1x32_d2_w32) (ix3 (0 : Fin 1) (0 : Fin 1) r)) w = _
  rw [iota_single_apply]

/-! ## A received face spread back over the block -/

def spreadX (R : FVec Ideal S32x32 .f32) : FVec Ideal S32x32x32 .f32 :=
  broadcastTo S32x32x32 (shapeCast S1x32x32 (shapeCast S1x32x32 R shapeCasts_S32x32_S1x32x32) shapeCasts_S1x32x32_S1x32x32) broadcasts_S1x32x32_S32x32x32
def spreadY (R : FVec Ideal S32x32 .f32) : FVec Ideal S32x32x32 .f32 :=
  broadcastTo S32x32x32 (shapeCast S32x1x32 (shapeCast S32x1x32 R shapeCasts_S32x32_S32x1x32) shapeCasts_S32x1x32_S32x1x32) broadcasts_S32x1x32_S32x32x32
def spreadZ (R : FVec Ideal S32x32 .f32) : FVec Ideal S32x32x32 .f32 :=
  broadcastTo S32x32x32 (shapeCast S32x32x1 (k0_pay9 R) shapeCasts_S32x32x1_S32x32x1) broadcasts_S32x32x1_S32x32x32

theorem spreadX_apply (R : FVec Ideal S32x32 .f32) (p q r : Fin 32) : spreadX R (ix3 p q r) = R (ix2 q r) := by
  unfold spreadX; rw [bcast_1bc, shapeCast_self, cast_ab_1ab]
theorem spreadY_apply (R : FVec Ideal S32x32 .f32) (p q r : Fin 32) : spreadY R (ix3 p q r) = R (ix2 p r) := by
  unfold spreadY; rw [bcast_a1c, shapeCast_self, cast_ab_a1b]
theorem spreadZ_apply (R : FVec Ideal S32x32 .f32) (p q r : Fin 32) : spreadZ R (ix3 p q r) = R (ix2 p q) := by
  unfold spreadZ k0_pay9; dsimp only; rw [bcast_ab1, shapeCast_self, cast_ab_ab1]

/-! ## The mask "strictly inside the whole array" -/

def col0 (w : BitVec 32) : IVec S32x1x1 1 :=
  andi (cmpi .sgt (addi (iota .tc S32x1x1 32 [0] iota_S32x1x1_d0_w32) (broadcast S32x1x1 (Scalar.muli w 32#32))) (broadcast S32x1x1 0#32))
    (cmpi .slt (addi (iota .tc S32x1x1 32 [0] iota_S32x1x1_d0_w32) (broadcast S32x1x1 (Scalar.muli w 32#32))) (broadcast S32x1x1 63#32))
def col1 (w : BitVec 32) : IVec S1x32x1 1 :=
  andi (cmpi .sgt (addi (iota .tc S1x32x1 32 [1] iota_S1x32x1_d1_w32) (broadcast S1x32x1 (Scalar.muli w 32#32))) (broadcast S1x32x1 0#32))
    (cmpi .slt (addi (iota .tc S1x32x1 32 [1] iota_S1x32x1_d1_w32) (broadcast S1x32x1 (Scalar.muli w 32#32))) (broadcast S1x32x1 63#32))
def col2 (w : BitVec 32) : IVec S1x1x32 1 :=
  andi (cmpi .sgt (addi (iota .tc S1x1x32 32 [2] iota_S1x1x32_d2_w32) (broadcast S1x1x32 (Scalar.muli w 32#32))) (broadcast S1x1x32 0#32))
    (cmpi .slt (addi (iota .tc S1x1x32 32 [2] iota_S1x1x32_d2_w32) (broadcast S1x1x32 (Scalar.muli w 32#32))) (broadcast S1x1x32 63#32))

def intMask (wx wy wz : BitVec 32) : IVec S32x32x32 1 :=
  andi (broadcastTo S32x32x32 (andi (broadcastTo S32x32x1 (col0 wx) broadcasts_S32x1x1_S32x32x1) (broadcastTo S32x32x1 (col1 wy) broadcasts_S1x32x1_S32x32x1)) broadcasts_S32x32x1_S32x32x32)
    (broadcastTo S32x32x32 (col2 wz) broadcasts_S1x1x32_S32x32x32)

/-- A device coordinate word `w` and a local coordinate `n`: is `n + 32·w` strictly between 0 and 63? -/
def inRange (w : BitVec 32) (n : Nat) : BitVec 1 :=
  IntOp.andi (IntOp.cmpi .sgt (IntOp.addi (BitVec.ofNat 32 n) (Scalar.muli w 32#32)) 0#32)
    (IntOp.cmpi .slt (IntOp.addi (BitVec.ofNat 32 n) (Scalar.muli w 32#32)) 63#32)

theorem col0_apply (w : BitVec 32) (p : Fin 32) : col0 w (ix3 p (0 : Fin 1) (0 : Fin 1)) = inRange w p.val := by
  unfold col0 inRange
  show IntOp.andi (IntOp.cmpi .sgt (IntOp.addi ((iota .tc S32x1x1 32 [0] iota_S32x1x1_d0_w32) (ix3 p (0 : Fin 1) (0 : Fin 1))) (Scalar.muli w 32#32)) 0#32)
    (IntOp.cmpi .slt (IntOp.addi ((iota .tc S32x1x1 32 [0] iota_S32x1x1_d0_w32) (ix3 p (0 : Fin 1) (0 : Fin 1))) (Scalar.muli w 32#32)) 63#32) = _
  rw [iota_single_apply]
theorem col1_apply (w : BitVec 32) (q : Fin 32) : col1 w (ix3 (0 : Fin 1) q (0 : Fin 1)) = inRange w q.val := by
  unfold col1 inRange
  show IntOp.andi (IntOp.cmpi .sgt (IntOp.addi ((iota .tc S1x32x1 32 [1] iota_S1x32x1_d1_w32) (ix3 (0 : Fin 1) q (0 : Fin 1))) (Scalar.muli w 32#32)) 0#32)
    (IntOp.cmpi .slt (IntOp.addi ((iota .tc S1x32x1 32 [1] iota_S1x32x1_d1_w32) (ix3 (0 : Fin 1) q (0 : Fin 1))) (Scalar.muli w 32#32)) 63#32) = _
  rw [iota_single_apply]
theorem col2_apply (w : BitVec 32) (r : Fin 32) : col2 w (ix3 (0 : Fin 1) (0 : Fin 1) r) = inRange w r.val := by
  unfold col2 inRange
  show IntOp.andi (IntOp.cmpi .sgt (IntOp.addi ((iota .tc S1x1x32 32 [2] iota_S1x1x32_d2_w32) (ix3 (0 : Fin 1) (0 : Fin 1) r)) (Scalar.muli w 32#32)) 0#32)
    (IntOp.cmpi .slt (IntOp.addi ((iota .tc S1x1x32 32 [2] iota_S1x1x32_d2_w32) (ix3 (0 : Fin 1) (0 : Fin 1) r)) (Scalar.muli w 32#32)) 63#32) = _
  rw [iota_single_apply]

theorem intMask_apply (wx wy wz : BitVec 32) (p q r : Fin 32) :
    intMask wx wy wz (ix3 p q r) = IntOp.andi (IntOp.andi (inRange wx p.val) (inRange wy q.val)) (inRange wz r.val) := by
  unfold intMask
  show IntOp.andi (broadcastTo S32x32x32 (andi (broadcastTo S32x32x1 (col0 wx) broadcasts_S32x1x1_S32x32x1) (broadcastTo S32x32x1 (col1 wy) broadcasts_S1x32x1_S32x32x1)) broadcasts_S32x32x1_S32x32x32 (ix3 p q r))
    (broadcastTo S32x32x32 (col2 wz) broadcasts_S1x1x32_S32x32x32 (ix3 p q r)) = _
  rw [bcast_ab1, bcast_11c, col2_apply]
  show IntOp.andi (IntOp.andi (broadcastTo S32x32x1 (col0 wx) broadcasts_S32x1x1_S32x32x1 (ix3 p q (0 : Fin 1))) (broadcastTo S32x32x1 (col1 wy) broadcasts_S1x32x1_S32x32x1 (ix3 p q (0 : Fin 1)))) (inRange wz r.val) = _
  rw [bcast_a11_ab1 _ p q r, bcast_1b1_ab1 _ p q r, col0_apply, col1_apply]

/-! ## The two outer payloads, pointwise -/

theorem pay6_apply (j : S32x32x32.Idx) : (k0_pay6 (F := Ideal) j : EReal) = Zf := rfl

theorem pay7_eq (v10 v12 : BitVec 32) (V : FVec Ideal S32x32x32 .f32) (RX RY : FVec Ideal S32x32 .f32) :
    k0_pay7 (F := Ideal) v10 v12 V RX RY = fun j =>
      (((V j + Scalar.select (eqMask0 v10 j) (spreadX RX j) Zf) + Scalar.select (eqMask1 v12 j) (spreadY RY j) Zf : EReal)) := rfl

theorem pay10_eq (wx wy wz w14 : BitVec 32) (V : FVec Ideal S32x32x32 .f32) (RZ : FVec Ideal S32x32 .f32) :
    k0_pay10 (F := Ideal) wx wy wz (iota .tc S32x1x1 32 [0] iota_S32x1x1_d0_w32) (iota .tc S1x32x1 32 [1] iota_S1x32x1_d1_w32) (iota .tc S1x1x32 32 [2] iota_S1x1x32_d2_w32) (k0_pay6 (F := Ideal)) V (k0_pay8 w14) (k0_pay9 RZ) = fun j =>
      Scalar.select (intMask wx wy wz j) ((V j + Scalar.select (eqMask2 w14 j) (spreadZ RZ j) Zf : EReal)) Zf := rfl

end Cert.KernelIdeal.Stencil

end
-- ==== Proof.StencilArith.lean ====
/-
  The two arithmetic facts behind the stencil's equivalence.

  Along one axis the kernel has three terms at an element strictly inside the whole array: the element before inside
  the device's block (a zero on the block's first plane), the element after (a zero on its last plane), and the
  neighbouring device's touching plane on the one plane that touches it (a zero elsewhere). Together they are the
  two neighbours along the line through the whole array. The kernel adds its terms in another order than the
  reference; on the extended reals addition is commutative and associative, and subtracting is adding the negative,
  which is all the reordering needs.
-/
import Idealize.ShloMosaic.PureOps.Ideal

namespace Cert.KernelIdeal.Stencil

/-- Three terms per axis regrouped: the kernel's order of summation against the reference's. -/
theorem reorder (xm xp hx ym yp hy zm zp hz S xm' xp' ym' yp' zm' zp' : EReal)
    (hX : xm + xp + hx = xm' + xp') (hY : ym + yp + hy = ym' + yp') (hZ : zm + zp + hz = zm' + zp') :
    ((((((xm + xp) + ym) + yp) + zm) + zp) - S) + hx + hy + hz = ((((((xm' + xp') + ym') + yp') + zm') + zp') - S) := by
  rw [sub_eq_add_neg, sub_eq_add_neg]
  have e1 : ((((((xm + xp) + ym) + yp) + zm) + zp) + -S) + hx + hy + hz = (xm + xp + hx) + (ym + yp + hy) + (zm + zp + hz) + -S := by ac_rfl
  have e2 : ((((((xm' + xp') + ym') + yp') + zm') + zp') + -S) = (xm' + xp') + (ym' + yp') + (zm' + zp') + -S := by ac_rfl
  rw [e1, e2, hX, hY, hZ]

/-- One axis: block coordinate `b` (0 or 1), local coordinate `p`, the element at `32 b + p` strictly inside 0 … 63. -/
theorem axis_sum (φ : ℕ → EReal) (b p : ℕ) (hb : b < 2) (hp : p < 32) (h1 : 1 ≤ 32 * b + p) (h2 : 32 * b + p ≤ 62) :
    (if p = 0 then (0 : EReal) else φ (32 * b + (p - 1))) + (if p = 31 then 0 else φ (32 * b + (p + 1)))
      + (if p = (1 - b) * 31 then (if b = 1 then φ 31 else φ 32) else 0)
    = φ (32 * b + p - 1) + φ (32 * b + p + 1) := by
  interval_cases b
  · have hp0 : p ≠ 0 := by omega
    rw [if_neg hp0, if_neg (by decide : ¬ (0 = 1))]
    by_cases h31 : p = 31
    · subst h31
      rw [if_pos rfl, if_pos (by decide), add_zero]
    · rw [if_neg h31, if_neg (by omega), add_zero, show 32 * 0 + (p - 1) = 32 * 0 + p - 1 by omega, show 32 * 0 + (p + 1) = 32 * 0 + p + 1 by omega]
  · have hp31 : p ≠ 31 := by omega
    rw [if_neg hp31, if_pos rfl]
    by_cases h0 : p = 0
    · subst h0
      rw [if_pos rfl, if_pos (by decide), zero_add, add_comm]
    · rw [if_neg h0, if_neg (by omega), add_zero, show 32 * 1 + (p - 1) = 32 * 1 + p - 1 by omega, show 32 * 1 + (p + 1) = 32 * 1 + p + 1 by omega]

/-- The same, for three terms known only up to equations. -/
theorem axis_glue (φ : ℕ → EReal) (b p : ℕ) (hb : b < 2) (hp : p < 32) (h1 : 1 ≤ 32 * b + p) (h2 : 32 * b + p ≤ 62)
    (lo hi halo : EReal)
    (hlo : lo = if p = 0 then 0 else φ (32 * b + (p - 1)))
    (hhi : hi = if p = 31 then 0 else φ (32 * b + (p + 1)))
    (hhalo : halo = if p = (1 - b) * 31 then (if b = 1 then φ 31 else φ 32) else 0) :
    lo + hi + halo = φ (32 * b + p - 1) + φ (32 * b + p + 1) := by
  subst hlo hhi hhalo
  exact axis_sum φ b p hb hp h1 h2

end Cert.KernelIdeal.Stencil
-- ==== Proof.LibScatterSet.lean ====
/-
  A host scatter whose body returns the update (`x.at[…].set(u)`), read at an index.

  `Host.scatter` is the left fold, over the update indices in row-major order, of "replace the element the update
  lands on". When every update lands inside the operand and no two updates land on the same element, the fold's
  result is the set semantics: an element some update lands on holds that update, every other element holds what
  the operand held. Both facts are proved here for any shapes, any scatter dimension record and any element type,
  from the landing map alone.
-/
import Idealize.ShloMosaic.PureOps.ShapeOps

namespace Idealize.ShloMosaic.LibScatterSet

open Idealize.ShloMosaic

variable {α : Type} {s si u : Shape} {w : Nat}

/-- One step of the fold when the update at `j` lands on `ri j`. -/
private def step (ri : u.Idx → s.Idx) (upd : u.Idx → α) (r : s.Idx → α) (n : Fin u.numel) : s.Idx → α :=
  fun i' => if i' = ri (u.rowMajor.symm n) then upd (u.rowMajor.symm n) else r i'

/-- An index none of the listed updates lands on keeps its value through the fold. -/
private theorem foldl_step_of_not_hit (ri : u.Idx → s.Idx) (upd : u.Idx → α) (i : s.Idx) :
    ∀ (l : List (Fin u.numel)) (r : s.Idx → α), (∀ n ∈ l, ri (u.rowMajor.symm n) ≠ i) → (l.foldl (step ri upd) r) i = r i
  | [], _, _ => rfl
  | a :: l, r, h => by
    rw [List.foldl_cons, foldl_step_of_not_hit ri upd i l _ fun n hn => h n (List.mem_cons_of_mem _ hn)]
    exact if_neg fun e => h a (List.mem_cons_self ..) e.symm

/-- With distinct landing places, the index update `j` lands on ends holding update `j`, once `j` is in the list. -/
private theorem foldl_step_of_hit (ri : u.Idx → s.Idx) (hinj : Function.Injective ri) (upd : u.Idx → α) (j : u.Idx) :
    ∀ (l : List (Fin u.numel)) (r : s.Idx → α), l.Nodup → u.rowMajor j ∈ l → (l.foldl (step ri upd) r) (ri j) = upd j
  | [], _, _, h => absurd h (List.not_mem_nil)
  | a :: l, r, hnd, hmem => by
    rw [List.foldl_cons]
    by_cases ha : u.rowMajor j = a
    · subst ha
      have hnot : ∀ n ∈ l, ri (u.rowMajor.symm n) ≠ ri j := fun n hn e => by
        have h1 : u.rowMajor.symm n = j := hinj e
        have h2 : n = u.rowMajor j := by rw [← h1, Equiv.apply_symm_apply]
        exact (List.nodup_cons.mp hnd).1 (h2 ▸ hn)
      rw [foldl_step_of_not_hit ri upd (ri j) l _ hnot]
      show (if ri j = ri (u.rowMajor.symm (u.rowMajor j)) then upd (u.rowMajor.symm (u.rowMajor j)) else r (ri j)) = upd j
      rw [Equiv.symm_apply_apply, if_pos rfl]
    · exact foldl_step_of_hit ri hinj upd j l _ (List.nodup_cons.mp hnd).2 ((List.mem_cons.mp hmem).resolve_left ha)

/-- The scatter's fold is the fold of `step` when every update index `j` lands on `ri j`. -/
private theorem scatter_eq_foldl (d : ScatterDims s si u) (x : s.Idx → α) (idx : IVec si w) (upd : u.Idx → α)
    (ri : u.Idx → s.Idx) (hri : ∀ j, d.resultIdx? j idx = some (ri j)) :
    Host.scatter d (fun _ b => b) x idx upd = (List.finRange u.numel).foldl (step ri upd) x := by
  unfold Host.scatter
  congr 1
  funext r n
  rw [hri]
  rfl

/-- SET semantics, the element an update lands on: it holds that update. -/
theorem scatter_set_hit (d : ScatterDims s si u) (x : s.Idx → α) (idx : IVec si w) (upd : u.Idx → α)
    (ri : u.Idx → s.Idx) (hri : ∀ j, d.resultIdx? j idx = some (ri j)) (hinj : Function.Injective ri) (j : u.Idx) :
    Host.scatter d (fun _ b => b) x idx upd (ri j) = upd j := by
  rw [scatter_eq_foldl d x idx upd ri hri]
  exact foldl_step_of_hit ri hinj upd j _ _ (List.nodup_finRange _) (List.mem_finRange _)

/-- SET semantics, an element no update lands on: it holds what the operand held. -/
theorem scatter_set_miss (d : ScatterDims s si u) (x : s.Idx → α) (idx : IVec si w) (upd : u.Idx → α)
    (ri : u.Idx → s.Idx) (hri : ∀ j, d.resultIdx? j idx = some (ri j)) (i : s.Idx) (hi : ∀ j, ri j ≠ i) :
    Host.scatter d (fun _ b => b) x idx upd i = x i := by
  rw [scatter_eq_foldl d x idx upd ri hri]
  exact foldl_step_of_not_hit ri upd i _ _ fun n _ => hi _

end Idealize.ShloMosaic.LibScatterSet
-- ==== Proof.RefRead.lean ====
/-
  The reference read at an index.

  The reference sets the interior of a zero array to the seven-point stencil of its argument: it is printed as a
  scatter of the 62×62×62 interior update at the constant start index (1, 1, 1) into zeros. Every update index `j`
  lands at `1 + j` on each axis, inside the array, and distinct updates land on distinct elements, so the scatter
  has its set semantics: an interior element holds the stencil around it, a boundary element holds zero.
-/
import proofs.«900362_g7700000000000363_dist_halo3d_v7x_xyz2x2x2_s32_bf16_1_alg».proof.Proof.Gen.ReferenceIdeal.Read
import proofs.«900362_g7700000000000363_dist_halo3d_v7x_xyz2x2x2_s32_bf16_1_alg».proof.Proof.LibScatterSet
import proofs.«900362_g7700000000000363_dist_halo3d_v7x_xyz2x2x2_s32_bf16_1_alg».proof.Proof.StencilPayload

noncomputable section

namespace Cert.ReferenceIdeal.RefValue

open Cert.ReferenceIdeal Cert.ReferenceIdeal.Gen Cert.ReferenceIdeal.Read
open Idealize.ShloMosaic Idealize.ShloMosaic.ValueIdx
open Cert.KernelIdeal.Stencil (at3 at3_ix3)

abbrev dims : ScatterDims S64x64x64 S3 S62x62x62 := scatter_S64x64x64_S3_S62x62x62_012_n_012_0

/-- Where update index `j` lands: one further along each axis. -/
def land (j : S62x62x62.Idx) : S64x64x64.Idx :=
  ix3 ⟨1 + (j 0).val, by have h0 : (j 0).val < 62 := (j 0).isLt; omega⟩
    ⟨1 + (j 1).val, by have h1 : (j 1).val < 62 := (j 1).isLt; omega⟩
    ⟨1 + (j 2).val, by have h2 : (j 2).val < 62 := (j 2).isLt; omega⟩

theorem land_inj : Function.Injective land := fun j j' h => by
  funext a
  have h0 := congrArg (fun g : S64x64x64.Idx => (g 0).val) h
  have h1 := congrArg (fun g : S64x64x64.Idx => (g 1).val) h
  have h2 := congrArg (fun g : S64x64x64.Idx => (g 2).val) h
  simp only [land] at h0 h1 h2
  fin_cases a <;> exact Fin.ext (by first | (show (j 0).val = (j' 0).val; omega) | (show (j 1).val = (j' 1).val; omega) | (show (j 2).val = (j' 2).val; omega))

/-- The start index vector is (1, 1, 1). -/
theorem idx_ones (k : S3.Idx) : val_main_v19 (F := Ideal) k = 1#32 := by
  revert k; decide

theorem start_eq (j : S62x62x62.Idx) (a : Fin 3) : dims.start j (val_main_v19 (F := Ideal)) a = 1 := by
  unfold ScatterDims.start
  rw [dif_pos (by fin_cases a <;> decide), idx_ones]
  rfl

theorem window_eq (j : S62x62x62.Idx) (a : Fin 3) : dims.window j a = (j a).val := by
  fin_cases a <;> rfl

theorem land_spec (j : S62x62x62.Idx) : dims.resultIdx? j (val_main_v19 (F := Ideal)) = some (land j) := by
  unfold ScatterDims.resultIdx?
  have hb : ∀ a : Fin 3, (j a).val < 62 := fun a => by have := (j a).isLt; fin_cases a <;> exact this
  have h : ∀ a, 0 ≤ dims.start j (val_main_v19 (F := Ideal)) a + dims.window j a
      ∧ dims.start j (val_main_v19 (F := Ideal)) a + dims.window j a < S64x64x64.size a := fun a => by
    rw [start_eq, window_eq]
    have := hb a
    have hs : S64x64x64.size a = 64 := by fin_cases a <;> rfl
    rw [hs]; omega
  rw [dif_pos h]
  refine congrArg some (funext fun a => Fin.ext ?_)
  show (dims.start j (val_main_v19 (F := Ideal)) a + dims.window j a).toNat = (land j a).val
  rw [start_eq, window_eq]
  have hl : (land j a).val = 1 + (j a).val := by fin_cases a <;> rfl
  rw [hl]; omega

abbrev SixR : EReal := (FloatOps.ofBits (F := Ideal) .f32 0x40C00000#32 : Ideal .f32)

/-- The update at `j`: the stencil of the argument around where `j` lands, in the reference's order. -/
theorem update_apply (U : S64x64x64.Idx → EReal) (j : S62x62x62.Idx) :
    (val_main_v15 (F := Ideal) U j : EReal) = ((((((U (idx_main_v1 j) + U (idx_main_v2 j)) + U (idx_main_v4 j)) + U (idx_main_v6 j)) + U (idx_main_v8 j)) + U (idx_main_v10 j)) - SixR * U (idx_main_v12 j) : EReal) := by
  rw [val_main_v15_apply, val_main_v14_apply, val_main_v13_apply, val_main_cst_0_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply]
  rfl

/-- The reference's result at an index, over natural coordinates. -/
def refG (U : S64x64x64.Idx → EReal) (A B C : Fin 64) : EReal :=
  if 1 ≤ A.val ∧ A.val ≤ 62 ∧ 1 ≤ B.val ∧ B.val ≤ 62 ∧ 1 ≤ C.val ∧ C.val ≤ 62 then
    ((((((at3 U (A.val - 1) B.val C.val + at3 U (A.val + 1) B.val C.val) + at3 U A.val (B.val - 1) C.val) + at3 U A.val (B.val + 1) C.val) + at3 U A.val B.val (C.val - 1)) + at3 U A.val B.val (C.val + 1)) - SixR * at3 U A.val B.val C.val : EReal)
  else 0

theorem at3_idx (U : S64x64x64.Idx → EReal) (g : S64x64x64.Idx) : U g = at3 U (g 0).val (g 1).val (g 2).val := by
  conv_lhs => rw [eq_ix3 g]
  exact at3_ix3 U (g 0) (g 1) (g 2)

theorem ref_apply (U : S64x64x64.Idx → EReal) (A B C : Fin 64) :
    (val_main_v20 (F := Ideal) U (ix3 A B C) : EReal) = refG U A B C := by
  unfold refG
  by_cases h : 1 ≤ A.val ∧ A.val ≤ 62 ∧ 1 ≤ B.val ∧ B.val ≤ 62 ∧ 1 ≤ C.val ∧ C.val ≤ 62
  · rw [if_pos h]
    obtain ⟨hA1, hA2, hB1, hB2, hC1, hC2⟩ := h
    let j : S62x62x62.Idx := ix3 ⟨A.val - 1, by omega⟩ ⟨B.val - 1, by omega⟩ ⟨C.val - 1, by omega⟩
    have hl : land j = ix3 A B C := by
      funext a; fin_cases a <;> exact Fin.ext (by simp only [land, j]; first | (show 1 + (A.val - 1) = A.val; omega) | (show 1 + (B.val - 1) = B.val; omega) | (show 1 + (C.val - 1) = C.val; omega))
    rw [← hl]
    unfold val_main_v20
    rw [LibScatterSet.scatter_set_hit dims _ _ _ land land_spec land_inj j, update_apply,
      at3_idx U (idx_main_v1 j), at3_idx U (idx_main_v2 j), at3_idx U (idx_main_v4 j), at3_idx U (idx_main_v6 j),
      at3_idx U (idx_main_v8 j), at3_idx U (idx_main_v10 j), at3_idx U (idx_main_v12 j)]
    have e0 : A.val - 1 + 1 = A.val := by omega
    have e1 : B.val - 1 + 1 = B.val := by omega
    have e2 : C.val - 1 + 1 = C.val := by omega
    show ((((((at3 U (A.val - 1) (1 + (B.val - 1)) (1 + (C.val - 1)) + at3 U (2 + (A.val - 1)) (1 + (B.val - 1)) (1 + (C.val - 1))) + at3 U (1 + (A.val - 1)) (B.val - 1) (1 + (C.val - 1))) + at3 U (1 + (A.val - 1)) (2 + (B.val - 1)) (1 + (C.val - 1))) + at3 U (1 + (A.val - 1)) (1 + (B.val - 1)) (C.val - 1)) + at3 U (1 + (A.val - 1)) (1 + (B.val - 1)) (2 + (C.val - 1))) - SixR * at3 U (1 + (A.val - 1)) (1 + (B.val - 1)) (1 + (C.val - 1)) : EReal) = _
    rw [show 1 + (A.val - 1) = A.val by omega, show 1 + (B.val - 1) = B.val by omega, show 1 + (C.val - 1) = C.val by omega,
      show 2 + (A.val - 1) = A.val + 1 by omega, show 2 + (B.val - 1) = B.val + 1 by omega, show 2 + (C.val - 1) = C.val + 1 by omega]
  · rw [if_neg h]
    unfold val_main_v20
    rw [LibScatterSet.scatter_set_miss dims _ _ _ land land_spec (ix3 A B C) (fun j hj => h (by
      have h0 := congrArg (fun g : S64x64x64.Idx => (g 0).val) hj
      have h1 := congrArg (fun g : S64x64x64.Idx => (g 1).val) hj
      have h2 := congrArg (fun g : S64x64x64.Idx => (g 2).val) hj
      simp only [land] at h0 h1 h2
      have b0 : (j 0).val < 62 := (j 0).isLt
      have b1 : (j 1).val < 62 := (j 1).isLt
      have b2 : (j 2).val < 62 := (j 2).isLt
      have g0 : 1 + (j 0).val = A.val := h0
      have g1 : 1 + (j 1).val = B.val := h1
      have g2 : 1 + (j 2).val = C.val := h2
      omega)), val_main_v0_apply, val_main_cst_apply]
    exact Ideal.ofBits_zero_f32

end Cert.ReferenceIdeal.RefValue

end
-- ==== Proof.HaloValue.lean ====
/-
  The kernel's result on every device is its block of the reference's result.

  First the result at an index, in terms of the device's own block, the three faces received, and the device's
  coordinate words; then the words and masks evaluated (they are finitely many cases); then, with each block read as
  a part of the whole array, the comparison with the reference axis by axis.
-/
import proofs.«900362_g7700000000000363_dist_halo3d_v7x_xyz2x2x2_s32_bf16_1_alg».proof.Proof.KernelIdealLaunch
import proofs.«900362_g7700000000000363_dist_halo3d_v7x_xyz2x2x2_s32_bf16_1_alg».proof.Proof.StencilOut
import proofs.«900362_g7700000000000363_dist_halo3d_v7x_xyz2x2x2_s32_bf16_1_alg».proof.Proof.StencilArith
import proofs.«900362_g7700000000000363_dist_halo3d_v7x_xyz2x2x2_s32_bf16_1_alg».proof.Proof.RefRead
import Idealize.ShloMosaic.Lib.Layout

noncomputable section

namespace Cert.KernelIdeal.HaloValue

open Cert.KernelIdeal Cert.KernelIdeal.Gen Cert.KernelIdeal.Halo Cert.KernelIdeal.Stencil
open Idealize.ShloMosaic Idealize.ShloMosaic.ValueIdx

variable (m : (ℓ : Loc nD τ sig) → Buf (Elt Ideal) ℓ)

/-! ## The result at an index -/

/-- The local index of the plane that touches the neighbour, from the coordinate word: 31 at coordinate 0, 0 at 1. -/
abbrev ixw (w : BitVec 32) : BitVec 32 := Scalar.muli (Scalar.subi 1#32 w) 31#32

/-- The stencil's core over the device's own block. -/
def core (X : S32x32x32.Idx → EReal) (p q r : Fin 32) : EReal := (((((((if p.val = 0 then Zf else at3 X (p.val - 1) q.val r.val) + (if p.val = 31 then Zf else at3 X (p.val + 1) q.val r.val)) + (if q.val = 0 then Zf else at3 X p.val (q.val - 1) r.val)) + (if q.val = 31 then Zf else at3 X p.val (q.val + 1) r.val)) + (if r.val = 0 then Zf else at3 X p.val q.val (r.val - 1))) + (if r.val = 31 then Zf else at3 X p.val q.val (r.val + 1))) - Six * at3 X p.val q.val r.val : EReal)

theorem read_whole_x (X : Blk Ideal) :
    ((xM : Memref sig .tc .vmem S32x32x32 .f32).view.readAt (Elt Ideal) (Rect.unit (s := S32x32x32) ![0, 0, 0] S32x32x32.size inb_S32x32x32_S32x32x32_0_0_0).toLoadRect X) = X :=
  Memref.readAt_unit_zero (Elt Ideal) cc0_stg0_0 hz3 _ X
theorem read_whole_rx (R : Face Ideal) :
    ((rxM : Memref sig .tc .vmem S32x32 .f32).view.readAt (Elt Ideal) (Rect.unit (s := S32x32) ![0, 0] S32x32.size inb_S32x32_S32x32_0_0).toLoadRect R) = R :=
  Memref.readAt_unit_zero (Elt Ideal) cc0_scratch3 hz2 _ R
theorem read_whole_ry (R : Face Ideal) :
    ((ryM : Memref sig .tc .vmem S32x32 .f32).view.readAt (Elt Ideal) (Rect.unit (s := S32x32) ![0, 0] S32x32.size inb_S32x32_S32x32_0_0).toLoadRect R) = R :=
  Memref.readAt_unit_zero (Elt Ideal) cc0_scratch4 hz2 _ R
theorem read_whole_rz (R : Face Ideal) :
    ((rzM : Memref sig .tc .vmem S32x32 .f32).view.readAt (Elt Ideal) (Rect.unit (s := S32x32) ![0, 0] S32x32.size inb_S32x32_S32x32_0_0).toLoadRect R) = R :=
  Memref.readAt_unit_zero (Elt Ideal) cc0_scratch5 hz2 _ R

theorem outAt_apply (c : Dev nD) (p q r : Fin 32) :
    (outAt (F := Ideal) m c (ix3 p q r) : EReal) =
      Scalar.select (IntOp.andi (IntOp.andi (inRange (wx c) p.val) (inRange (wy c) q.val)) (inRange (wz c) r.val))
        ((((core (xstg m c) p q r
          + Scalar.select (IntOp.cmpi .eq (BitVec.ofNat 32 p.val) (ixw (wx c))) (face m 0 (fl 0 c) (ix2 q r)) Zf)
          + Scalar.select (IntOp.cmpi .eq (BitVec.ofNat 32 q.val) (ixw (wy c))) (face m 1 (fl 1 c) (ix2 p r)) Zf)
          + Scalar.select (IntOp.cmpi .eq (BitVec.ofNat 32 r.val) (ixw (wz c))) (face m 2 (fl 2 c) (ix2 p q)) Zf : EReal)) Zf := by
  unfold outAt
  rw [read_whole_x, read_whole_rx, read_whole_ry, read_whole_rz, pay10_eq]
  beta_reduce
  rw [intMask_apply, eqMask2_apply, spreadZ_apply, pay7_eq]
  beta_reduce
  rw [eqMask0_apply, eqMask1_apply, spreadX_apply, spreadY_apply, pay5_apply]
  rfl

/-! ## The coordinate words and the masks, evaluated -/

theorem wx_spec : ∀ c : Dev nD, wx c = BitVec.ofNat 32 (c.val / 4 % 2) := by decide
theorem wy_spec : ∀ c : Dev nD, wy c = BitVec.ofNat 32 (c.val / 2 % 2) := by decide
theorem wz_spec : ∀ c : Dev nD, wz c = BitVec.ofNat 32 (c.val % 2) := by decide

theorem inRange_spec : ∀ (b : Fin 2) (n : Fin 32),
    inRange (BitVec.ofNat 32 b.val) n.val = if 1 ≤ 32 * b.val + n.val ∧ 32 * b.val + n.val ≤ 62 then 1#1 else 0#1 := by decide
theorem plane_spec : ∀ (b : Fin 2) (n : Fin 32),
    IntOp.cmpi .eq (BitVec.ofNat 32 n.val) (ixw (BitVec.ofNat 32 b.val)) = if n.val = (1 - b.val) * 31 then 1#1 else 0#1 := by decide
theorem sel_spec : ∀ b : Fin 2, Scalar.cmpi .eq (BitVec.ofNat 32 b.val) 0#32 = if b.val = 0 then 1#1 else 0#1 := by decide

/-! ## Blocks as parts of the whole array -/

/-- A device's block coordinates on the three axes. -/
abbrev bX (c : Dev nD) : ℕ := c.val / 4 % 2
abbrev bY (c : Dev nD) : ℕ := c.val / 2 % 2
abbrev bZ (c : Dev nD) : ℕ := c.val % 2
theorem bX_lt (c : Dev nD) : bX c < 2 := Nat.mod_lt _ (by decide)
theorem bY_lt (c : Dev nD) : bY c < 2 := Nat.mod_lt _ (by decide)
theorem bZ_lt (c : Dev nD) : bZ c < 2 := Nat.mod_lt _ (by decide)

/-- The position in the whole array of a local coordinate of device `c`'s block. -/
def gA (c : Dev nD) (p : Fin 32) : Fin 64 := ⟨32 * bX c + p.val, by have := p.isLt; have := bX_lt c; omega⟩
def gB (c : Dev nD) (q : Fin 32) : Fin 64 := ⟨32 * bY c + q.val, by have := q.isLt; have := bY_lt c; omega⟩
def gC (c : Dev nD) (r : Fin 32) : Fin 64 := ⟨32 * bZ c + r.val, by have := r.isLt; have := bZ_lt c; omega⟩

theorem mb_val : ∀ c : Dev nD, ((Layout.meshBlock [2, 2, 2] ![[0], [1], [2]] c) (0 : Fin 3)).val = c.val / 4 % 2
    ∧ ((Layout.meshBlock [2, 2, 2] ![[0], [1], [2]] c) (1 : Fin 3)).val = c.val / 2 % 2
    ∧ ((Layout.meshBlock [2, 2, 2] ![[0], [1], [2]] c) (2 : Fin 3)).val = c.val % 2 := by decide

theorem block_ix {α : Type} (V : (⟨3, ![64, 64, 64]⟩ : Shape).Idx → α) (c : Dev nD) (p q r : Fin 32) :
    (Layout.blockN ⟨3, ![32, 32, 32]⟩ ⟨3, ![64, 64, 64]⟩ (Layout.meshBlock [2, 2, 2] ![[0], [1], [2]] c) V) (ix3 p q r) = V (ix3 (gA c p) (gB c q) (gC c r)) := by
  rw [Layout.blockN_apply]
  refine congrArg V (funext fun a => Fin.ext ?_)
  obtain ⟨e0, e1, e2⟩ := mb_val c
  fin_cases a
  · show ((Layout.meshBlock [2, 2, 2] ![[0], [1], [2]] c) (0 : Fin 3)).val * 32 + p.val = 32 * (c.val / 4 % 2) + p.val
    rw [e0]; omega
  · show ((Layout.meshBlock [2, 2, 2] ![[0], [1], [2]] c) (1 : Fin 3)).val * 32 + q.val = 32 * (c.val / 2 % 2) + q.val
    rw [e1]; omega
  · show ((Layout.meshBlock [2, 2, 2] ![[0], [1], [2]] c) (2 : Fin 3)).val * 32 + r.val = 32 * (c.val % 2) + r.val
    rw [e2]; omega

/-- The neighbours' block coordinates: the flipped axis' coordinate is the other one, the rest are the device's own. -/
theorem fl0_coords : ∀ c : Dev nD, bX (fl 0 c) = 1 - bX c ∧ bY (fl 0 c) = bY c ∧ bZ (fl 0 c) = bZ c := by decide
theorem fl1_coords : ∀ c : Dev nD, bX (fl 1 c) = bX c ∧ bY (fl 1 c) = 1 - bY c ∧ bZ (fl 1 c) = bZ c := by decide
theorem fl2_coords : ∀ c : Dev nD, bX (fl 2 c) = bX c ∧ bY (fl 2 c) = bY c ∧ bZ (fl 2 c) = 1 - bZ c := by decide

section Whole

variable (U : (⟨3, ![64, 64, 64]⟩ : Shape).Idx → EReal)
  (hU : ∀ c : Dev nD, xstg m c = Layout.blockN ⟨3, ![32, 32, 32]⟩ ⟨3, ![64, 64, 64]⟩ (Layout.meshBlock [2, 2, 2] ![[0], [1], [2]] c) U)

include hU in
/-- A device's block at natural coordinates inside it is the whole array at the shifted coordinates. -/
theorem block_at3 (c : Dev nD) (a b e : ℕ) (ha : a < 32) (hb : b < 32) (he : e < 32) :
    at3 (xstg m c) a b e = at3 U (32 * bX c + a) (32 * bY c + b) (32 * bZ c + e) := by
  have h1 := at3_ix3 (xstg m c) ⟨a, ha⟩ ⟨b, hb⟩ ⟨e, he⟩
  rw [← h1, hU c, block_ix U c ⟨a, ha⟩ ⟨b, hb⟩ ⟨e, he⟩]
  exact at3_ix3 U (gA c ⟨a, ha⟩) (gB c ⟨b, hb⟩) (gC c ⟨e, he⟩)

theorem Zf_zero : (Zf : EReal) = 0 := Ideal.ofBits_zero_f32

theorem andi_ite (P Q : Prop) [Decidable P] [Decidable Q] :
    IntOp.andi (if P then 1#1 else 0#1) (if Q then 1#1 else 0#1) = if P ∧ Q then 1#1 else 0#1 := by
  by_cases hP : P <;> by_cases hQ : Q <;> simp [hP, hQ] <;> rfl

theorem select_ite {α : Type} (P : Prop) [Decidable P] (a b : α) : Scalar.select (if P then 1#1 else 0#1) a b = if P then a else b := by
  by_cases hP : P
  · rw [if_pos hP, if_pos hP]; exact if_pos rfl
  · rw [if_neg hP, if_neg hP]; exact if_neg (by decide)

/-- The words and masks over natural numbers. -/
theorem inRange_nat (b n : ℕ) (hb : b < 2) (hn : n < 32) :
    inRange (BitVec.ofNat 32 b) n = if 1 ≤ 32 * b + n ∧ 32 * b + n ≤ 62 then 1#1 else 0#1 := inRange_spec ⟨b, hb⟩ ⟨n, hn⟩
theorem plane_nat (b n : ℕ) (hb : b < 2) (hn : n < 32) :
    IntOp.cmpi .eq (BitVec.ofNat 32 n) (ixw (BitVec.ofNat 32 b)) = if n = (1 - b) * 31 then 1#1 else 0#1 := plane_spec ⟨b, hb⟩ ⟨n, hn⟩
theorem sel_nat (b : ℕ) (hb : b < 2) : Scalar.cmpi .eq (BitVec.ofNat 32 b) 0#32 = if b = 0 then 1#1 else 0#1 := sel_spec ⟨b, hb⟩

theorem halo_norm (φ : ℕ → EReal) (b p : ℕ) (hb : b < 2) :
    (if p = (1 - b) * 31 then (if 1 - b = 0 then φ (32 * (1 - b) + 31) else φ (32 * (1 - b) + 0)) else (0 : EReal))
      = if p = (1 - b) * 31 then (if b = 1 then φ 31 else φ 32) else 0 := by
  interval_cases b <;> simp

end Whole

section Final

variable (U : (⟨3, ![64, 64, 64]⟩ : Shape).Idx → EReal)
  (hU : ∀ c : Dev nD, xstg m c = Layout.blockN ⟨3, ![32, 32, 32]⟩ ⟨3, ![64, 64, 64]⟩ (Layout.meshBlock [2, 2, 2] ![[0], [1], [2]] c) U)

include hU in
/-- The plane received along x: the neighbour's last plane when it sits at coordinate 0, its first when at 1. -/
theorem faceX_val (c : Dev nD) (q r : Fin 32) :
    (face m 0 (fl 0 c) (ix2 q r) : EReal) =
      if 1 - bX c = 0 then at3 U (32 * (1 - bX c) + 31) (32 * bY c + q.val) (32 * bZ c + r.val)
      else at3 U (32 * (1 - bX c) + 0) (32 * bY c + q.val) (32 * bZ c + r.val) := by
  obtain ⟨e0, e1, e2⟩ := fl0_coords c
  unfold face
  rw [if_pos rfl, faceX_apply, wx_spec (fl 0 c), sel_nat _ (bX_lt (fl 0 c)), select_ite,
    at3_ix3 (xstg m (fl 0 c)) ⟨31, by omega⟩ q r, at3_ix3 (xstg m (fl 0 c)) ⟨0, by omega⟩ q r,
    block_at3 m U hU (fl 0 c) 31 q.val r.val (by omega) q.isLt r.isLt, block_at3 m U hU (fl 0 c) 0 q.val r.val (by omega) q.isLt r.isLt, e0, e1, e2]

include hU in
theorem faceY_val (c : Dev nD) (p r : Fin 32) :
    (face m 1 (fl 1 c) (ix2 p r) : EReal) =
      if 1 - bY c = 0 then at3 U (32 * bX c + p.val) (32 * (1 - bY c) + 31) (32 * bZ c + r.val)
      else at3 U (32 * bX c + p.val) (32 * (1 - bY c) + 0) (32 * bZ c + r.val) := by
  obtain ⟨e0, e1, e2⟩ := fl1_coords c
  unfold face
  rw [if_neg (by decide), if_pos rfl, faceY_apply, wy_spec (fl 1 c), sel_nat _ (bY_lt (fl 1 c)), select_ite,
    at3_ix3 (xstg m (fl 1 c)) p ⟨31, by omega⟩ r, at3_ix3 (xstg m (fl 1 c)) p ⟨0, by omega⟩ r,
    block_at3 m U hU (fl 1 c) p.val 31 r.val p.isLt (by omega) r.isLt, block_at3 m U hU (fl 1 c) p.val 0 r.val p.isLt (by omega) r.isLt, e0, e1, e2]

include hU in
theorem faceZ_val (c : Dev nD) (p q : Fin 32) :
    (face m 2 (fl 2 c) (ix2 p q) : EReal) =
      if 1 - bZ c = 0 then at3 U (32 * bX c + p.val) (32 * bY c + q.val) (32 * (1 - bZ c) + 31)
      else at3 U (32 * bX c + p.val) (32 * bY c + q.val) (32 * (1 - bZ c) + 0) := by
  obtain ⟨e0, e1, e2⟩ := fl2_coords c
  unfold face
  rw [if_neg (by decide), if_neg (by decide), faceZ_apply, wz_spec (fl 2 c), sel_nat _ (bZ_lt (fl 2 c)), select_ite,
    at3_ix3 (xstg m (fl 2 c)) p q ⟨31, by omega⟩, at3_ix3 (xstg m (fl 2 c)) p q ⟨0, by omega⟩,
    block_at3 m U hU (fl 2 c) p.val q.val 31 p.isLt q.isLt (by omega), block_at3 m U hU (fl 2 c) p.val q.val 0 p.isLt q.isLt (by omega), e0, e1, e2]

include hU in
/-- Every device's result is its block of the reference's result. -/
theorem out_block (c : Dev nD) :
    outAt (F := Ideal) m c = Layout.blockN ⟨3, ![32, 32, 32]⟩ ⟨3, ![64, 64, 64]⟩ (Layout.meshBlock [2, 2, 2] ![[0], [1], [2]] c) (Cert.ReferenceIdeal.Read.val_main_v20 (F := Ideal) U) := by
  funext i
  obtain ⟨p, q, r, rfl⟩ : ∃ p q r, i = ix3 p q r := ⟨i 0, i 1, i 2, eq_ix3 i⟩
  rw [block_ix, Cert.ReferenceIdeal.RefValue.ref_apply, outAt_apply, wx_spec c, wy_spec c, wz_spec c,
    inRange_nat _ _ (bX_lt c) p.isLt, inRange_nat _ _ (bY_lt c) q.isLt, inRange_nat _ _ (bZ_lt c) r.isLt, andi_ite, andi_ite, select_ite]
  unfold Cert.ReferenceIdeal.RefValue.refG
  by_cases hI : ((1 ≤ 32 * bX c + p.val ∧ 32 * bX c + p.val ≤ 62) ∧ (1 ≤ 32 * bY c + q.val ∧ 32 * bY c + q.val ≤ 62))
      ∧ (1 ≤ 32 * bZ c + r.val ∧ 32 * bZ c + r.val ≤ 62)
  · obtain ⟨⟨⟨hx1, hx2⟩, ⟨hy1, hy2⟩⟩, ⟨hz1, hz2⟩⟩ := hI
    rw [if_pos ⟨⟨⟨hx1, hx2⟩, ⟨hy1, hy2⟩⟩, ⟨hz1, hz2⟩⟩,
      if_pos (show 1 ≤ (gA c p).val ∧ (gA c p).val ≤ 62 ∧ 1 ≤ (gB c q).val ∧ (gB c q).val ≤ 62 ∧ 1 ≤ (gC c r).val ∧ (gC c r).val ≤ 62 from ⟨hx1, hx2, hy1, hy2, hz1, hz2⟩),
      plane_nat _ _ (bX_lt c) p.isLt, plane_nat _ _ (bY_lt c) q.isLt, plane_nat _ _ (bZ_lt c) r.isLt, select_ite, select_ite, select_ite]
    unfold core
    refine (reorder _ _ _ _ _ _ _ _ _ _
      (at3 U ((gA c p).val - 1) (gB c q).val (gC c r).val) (at3 U ((gA c p).val + 1) (gB c q).val (gC c r).val)
      (at3 U (gA c p).val ((gB c q).val - 1) (gC c r).val) (at3 U (gA c p).val ((gB c q).val + 1) (gC c r).val)
      (at3 U (gA c p).val (gB c q).val ((gC c r).val - 1)) (at3 U (gA c p).val (gB c q).val ((gC c r).val + 1)) ?hX ?hY ?hZ).trans ?_
    case hX =>
      exact axis_glue (fun a => at3 U a (32 * bY c + q.val) (32 * bZ c + r.val)) (bX c) p.val (bX_lt c) p.isLt hx1 hx2 _ _ _
        (by rw [Zf_zero, block_at3 m U hU c (p.val - 1) q.val r.val (by have := p.isLt; omega) q.isLt r.isLt])
        (ite_congr rfl (fun _ => Zf_zero) (fun h => block_at3 m U hU c (p.val + 1) q.val r.val (by have := p.isLt; omega) q.isLt r.isLt))
        (by rw [Zf_zero, faceX_val m U hU c q r]; exact halo_norm (fun a => at3 U a (32 * bY c + q.val) (32 * bZ c + r.val)) (bX c) p.val (bX_lt c))
    case hY =>
      exact axis_glue (fun a => at3 U (32 * bX c + p.val) a (32 * bZ c + r.val)) (bY c) q.val (bY_lt c) q.isLt hy1 hy2 _ _ _
        (by rw [Zf_zero, block_at3 m U hU c p.val (q.val - 1) r.val p.isLt (by have := q.isLt; omega) r.isLt])
        (ite_congr rfl (fun _ => Zf_zero) (fun h => block_at3 m U hU c p.val (q.val + 1) r.val p.isLt (by have := q.isLt; omega) r.isLt))
        (by rw [Zf_zero, faceY_val m U hU c p r]; exact halo_norm (fun a => at3 U (32 * bX c + p.val) a (32 * bZ c + r.val)) (bY c) q.val (bY_lt c))
    case hZ =>
      exact axis_glue (fun a => at3 U (32 * bX c + p.val) (32 * bY c + q.val) a) (bZ c) r.val (bZ_lt c) r.isLt hz1 hz2 _ _ _
        (by rw [Zf_zero, block_at3 m U hU c p.val q.val (r.val - 1) p.isLt q.isLt (by have := r.isLt; omega)])
        (ite_congr rfl (fun _ => Zf_zero) (fun h => block_at3 m U hU c p.val q.val (r.val + 1) p.isLt q.isLt (by have := r.isLt; omega)))
        (by rw [Zf_zero, faceZ_val m U hU c p q]; exact halo_norm (fun a => at3 U (32 * bX c + p.val) (32 * bY c + q.val) a) (bZ c) r.val (bZ_lt c))
    rw [block_at3 m U hU c p.val q.val r.val p.isLt q.isLt r.isLt]
    rfl
  · rw [if_neg hI, if_neg (fun h => hI ⟨⟨⟨h.1, h.2.1⟩, ⟨h.2.2.1, h.2.2.2.1⟩⟩, ⟨h.2.2.2.2.1, h.2.2.2.2.2⟩⟩)]
    exact Zf_zero

end Final

end Cert.KernelIdeal.HaloValue

end
-- ==== Proof.lean ====
/-
  A seven-point stencil on a 64×64×64 array cut into 2×2×2 blocks, one per device, against the stencil on the whole array.

  Each device holds a 32×32×32 block. It computes the stencil on its block with zeros for the neighbours that lie
  outside the block, receives from each of its three neighbouring devices the plane of their block that touches its
  own, adds that plane on its touching plane, and zeroes the elements on the boundary of the whole array. The
  reference computes the stencil on the interior of the whole array and leaves its boundary zero.

  The devices meet only through an entry handshake and three transfers; that every fair interleaving of the eight
  kernels terminates without a fault with the argument blocks unchanged is the frame (at the word-level instance and
  at the ideal one, the same proof for both). At the ideal instance every device's result is its block of the
  reference's result: along each axis the kernel's "element before", "element after" and received plane are, at an
  element strictly inside the whole array, the reference's two neighbours and a zero, and the two sums differ only
  in the order of their terms, which on the extended reals does not matter (no finiteness is used). The idealization
  rewrote nothing, so there is nothing to preserve.
-/
import proofs.«900362_g7700000000000363_dist_halo3d_v7x_xyz2x2x2_s32_bf16_1_alg».proof.Defs
import proofs.«900362_g7700000000000363_dist_halo3d_v7x_xyz2x2x2_s32_bf16_1_alg».proof.Proof.Gen.Kernel
import proofs.«900362_g7700000000000363_dist_halo3d_v7x_xyz2x2x2_s32_bf16_1_alg».proof.Proof.Gen.KernelIdeal
import proofs.«900362_g7700000000000363_dist_halo3d_v7x_xyz2x2x2_s32_bf16_1_alg».proof.Proof.Gen.ReferenceIdeal
import proofs.«900362_g7700000000000363_dist_halo3d_v7x_xyz2x2x2_s32_bf16_1_alg».proof.Proof.Gen.ReferenceIdeal.Run
import proofs.«900362_g7700000000000363_dist_halo3d_v7x_xyz2x2x2_s32_bf16_1_alg».proof.Proof.Gen.ReferenceIdeal.Read
import proofs.«900362_g7700000000000363_dist_halo3d_v7x_xyz2x2x2_s32_bf16_1_alg».proof.Proof.Gen.Pre_finite_inputs_Kernel
import proofs.«900362_g7700000000000363_dist_halo3d_v7x_xyz2x2x2_s32_bf16_1_alg».proof.Proof.Gen.Pre_finite_inputs_ReferenceIdeal
import proofs.«900362_g7700000000000363_dist_halo3d_v7x_xyz2x2x2_s32_bf16_1_alg».proof.Proof.KernelLaunch
import proofs.«900362_g7700000000000363_dist_halo3d_v7x_xyz2x2x2_s32_bf16_1_alg».proof.Proof.KernelIdealLaunch
import proofs.«900362_g7700000000000363_dist_halo3d_v7x_xyz2x2x2_s32_bf16_1_alg».proof.Proof.HaloValue
import Idealize.ShloMosaic.Adequacy
import Idealize.ShloMosaic.Init

noncomputable section

namespace Cert.Proof

open Idealize.ShloMosaic Idealize.SL.Sem

/-- The word-level kernel runs and leaves every device's argument block unchanged. -/
theorem frame_p : Cert.frame_Kernel := fun m ρ _ =>
  (θ_run Cert.Kernel.defs _ _).mono (fun _ h c => (h c).2) (Cert.Kernel.Halo.run_val (F := Bits) m ρ)

/-- So does the idealized kernel. -/
theorem frame_pi : Cert.frame_KernelIdeal := fun m ρ _ =>
  (θ_run Cert.KernelIdeal.defs _ _).mono (fun _ h c => (h c).2) (Cert.KernelIdeal.Halo.run_val (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Every device's result is its block of the reference's result; the arguments of both are unchanged. -/
theorem algebraic : Cert.algebraic_KernelIdeal_ReferenceIdeal := by
  intro m ρ m' ρ' _ hagree
  refine ⟨Cert.ReferenceIdeal.Read.val_main_v20 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩) (Cert.KernelIdeal.Halo.run_val (F := Ideal) m ρ)
    exact Cert.KernelIdeal.HaloValue.out_block m _ (fun c => (Cert.KernelIdeal.Halo.xstg_eq m c).trans (hagree c)) c
  · exact (θ_run Cert.ReferenceIdeal.defs _ _).mono
      (fun _ h => ⟨(h 0).1.trans (Cert.ReferenceIdeal.Read.val_main_v20_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, preserves, algebraic⟩

end Cert.Proof

end
